-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v55)) (v1 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55) = v0 c
          ∧ r.2.mem ((c.tc : Thread Cert.KernelIdeal.nD Cert.KernelIdeal.τ).loc Cert.KernelIdeal.main_v60) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_v147) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S256x1 : Shape := ⟨2, ![256, 1]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1 : Shape := ⟨1, ![1]⟩
abbrev S1x128 : Shape := ⟨2, ![1, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x1 : S_.BroadcastsInDim S256x1 (![] : Fin 0 → Fin S256x1.rank)
  reducesTo_S256x1_S_d0_1 : S256x1.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S1x128 : S_.BroadcastsInDim S1x128 (![] : Fin 0 → Fin S1x128.rank)
  reducesTo_S1x128_S_d0_1 : S1x128.ReducesTo [0, 1] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128x64 .f32) (main_arg14 : FVec F S64 .f32) (main_v48 : IVec S_ 1) (main_v49 : FVec F S1x128 .f32) (main_v50 : FVec F S1x128 .f32) : IVec S_ 1 :=
  let main_v51 : IVec S1x128 1 := cmpf .olt main_v49 main_v50
  let main_c_19 : IVec S_ 1 := constantI S_ 1 1#1
  let main_v52 : IVec S_ 1 := (fun x v => Host.reduce IntOp.andi x v reducesTo_S1x128_S_d0_1 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128x64 .f32 := Host.absf main_arg13
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg14
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_v63 main_v67

def fn_part2 {F : FTy → Type} [FloatOps F] (main_arg8 : FVec F S64 .f32) (main_arg9 : FVec F S1 .f32) (main_arg10 : FVec F S1 .f32) (main_arg11 : FVec F S1x128 .f32) (main_arg12 : FVec F S128 .f32) (main_arg13 : FVec F S128x64 .f32) (main_arg14 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S1 .f32 := Host.absf main_arg9
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  let main_v44 : FVec F S1 .f32 := Host.absf main_arg10
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S1x128 .f32 := Host.absf main_arg11
  let main_cst_18 : FVec F S_ .f32 := constant S_ .f32 0x7F800000#32
  let main_v50 : FVec F S1x128 .f32 := broadcastInDim S1x128 ![] bcast_S_S1x128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x64 .f32) (main_arg8 : FVec F S64 .f32) (main_arg9 : FVec F S1 .f32) (main_arg10 : FVec F S1 .f32) (main_arg11 : FVec F S1x128 .f32) (main_arg12 : FVec F S128 .f32) (main_arg13 : FVec F S128x64 .f32) (main_arg14 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : FVec F S256x1 .f32) (main_arg2 : IVec S2x800000 32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S1 .f32) (main_arg10 : FVec F S1 .f32) (main_arg11 : FVec F S1x128 .f32) (main_arg12 : FVec F S128 .f32) (main_arg13 : FVec F S128x64 .f32) (main_arg14 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x1 .f32 := Host.absf main_arg1
  let main_cst_0 : FVec F S_ .f32 := constant S_ .f32 0x7F800000#32
  let main_v5 : FVec F S256x1 .f32 := broadcastInDim S256x1 ![] bcast_S_S256x1 main_cst_0
  let main_v6 : IVec S256x1 1 := cmpf .olt main_v4 main_v5
  let main_c_1 : IVec S_ 1 := constantI S_ 1 1#1
  let main_v7 : IVec S_ 1 := (fun x v => Host.reduce IntOp.andi x v reducesTo_S256x1_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S256x1 : Shape := ⟨2, ![256, 1]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1 : Shape := ⟨1, ![1]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S5000x128 : Shape := ⟨2, ![5000, 128]⟩
abbrev S5000x1 : Shape := ⟨2, ![5000, 1]⟩
abbrev S850000x128 : Shape := ⟨2, ![850000, 128]⟩
abbrev S50000x64 : Shape := ⟨2, ![50000, 64]⟩
abbrev S5000x64 : Shape := ⟨2, ![5000, 64]⟩
abbrev S850000x64 : Shape := ⟨2, ![850000, 64]⟩
abbrev S1x64 : Shape := ⟨2, ![1, 64]⟩
abbrev S5000 : Shape := ⟨1, ![5000]⟩
abbrev S1x1 : Shape := ⟨2, ![1, 1]⟩
abbrev S256x64 : Shape := ⟨2, ![256, 64]⟩
abbrev S256x128 : Shape := ⟨2, ![256, 128]⟩
abbrev S256 : Shape := ⟨1, ![256]⟩

abbrev nBuf : Space → Nat
  | .hbm => 91
  | .vmem => 38
  | .smem => 0
  | _ => 0

abbrev bufTy : (tb : Table) → Fin (tcTables nBuf tb) → BufTy
  | .hbm, ⟨0, _⟩ => ⟨S50000x128, .f32⟩
  | .hbm, ⟨1, _⟩ => ⟨S256x1, .f32⟩
  | .hbm, ⟨2, _⟩ => ⟨S2x800000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1, .f32⟩
  | .hbm, ⟨10, _⟩ => ⟨S1, .f32⟩
  | .hbm, ⟨11, _⟩ => ⟨S1x128, .f32⟩
  | .hbm, ⟨12, _⟩ => ⟨S128, .f32⟩
  | .hbm, ⟨13, _⟩ => ⟨S128x64, .f32⟩
  | .hbm, ⟨14, _⟩ => ⟨S64, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .f32⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x128, .f32⟩
  | .hbm, ⟨47, _⟩ => ⟨S_, .f32⟩
  | .hbm, ⟨48, _⟩ => ⟨S50000x128, .f32⟩
  | .hbm, ⟨49, _⟩ => ⟨S850000x1, .i32⟩
  | .hbm, ⟨50, _⟩ => ⟨S50000x128, .f32⟩
  | .hbm, ⟨51, _⟩ => ⟨S50000x1, .f32⟩
  | .hbm, ⟨52, _⟩ => ⟨S1x128, .f32⟩
  | .hbm, ⟨53, _⟩ => ⟨S50000x128, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000x128, .f32⟩
  | .hbm, ⟨63, _⟩ => ⟨S_, .f32⟩
  | .hbm, ⟨64, _⟩ => ⟨S50000x128, .f32⟩
  | .hbm, ⟨65, _⟩ => ⟨S850000x1, .i32⟩
  | .hbm, ⟨66, _⟩ => ⟨S50000x128, .f32⟩
  | .hbm, ⟨67, _⟩ => ⟨S50000x1, .f32⟩
  | .hbm, ⟨68, _⟩ => ⟨S1x128, .f32⟩
  | .hbm, ⟨69, _⟩ => ⟨S50000x64, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000x64, .f32⟩
  | .hbm, ⟨79, _⟩ => ⟨S_, .f32⟩
  | .hbm, ⟨80, _⟩ => ⟨S50000x64, .f32⟩
  | .hbm, ⟨81, _⟩ => ⟨S850000x1, .i32⟩
  | .hbm, ⟨82, _⟩ => ⟨S50000x64, .f32⟩
  | .hbm, ⟨83, _⟩ => ⟨S50000x1, .f32⟩
  | .hbm, ⟨84, _⟩ => ⟨S1x64, .f32⟩
  | .hbm, ⟨85, _⟩ => ⟨S50000x64, .f32⟩
  | .hbm, ⟨86, _⟩ => ⟨S1x1, .f32⟩
  | .hbm, ⟨87, _⟩ => ⟨S1x1, .f32⟩
  | .hbm, ⟨88, _⟩ => ⟨S1x128, .f32⟩
  | .hbm, ⟨89, _⟩ => ⟨S1x64, .f32⟩
  | .hbm, ⟨90, _⟩ => ⟨S256x64, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x1, .f32⟩
  | .local _ .vmem, ⟨4, _⟩ => ⟨S5000x1, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x1, .f32⟩
  | .local _ .vmem, ⟨10, _⟩ => ⟨S5000x1, .f32⟩
  | .local _ .vmem, ⟨11, _⟩ => ⟨S1x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x1, .f32⟩
  | .local _ .vmem, ⟨18, _⟩ => ⟨S5000x1, .f32⟩
  | .local _ .vmem, ⟨19, _⟩ => ⟨S1x128, .f32⟩
  | .local _ .vmem, ⟨20, _⟩ => ⟨S128x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x1, .f32⟩
  | .local _ .vmem, ⟨26, _⟩ => ⟨S5000x1, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S256x1, .f32⟩
  | .local _ .vmem, ⟨31, _⟩ => ⟨S1x1, .f32⟩
  | .local _ .vmem, ⟨32, _⟩ => ⟨S1x1, .f32⟩
  | .local _ .vmem, ⟨33, _⟩ => ⟨S1x128, .f32⟩
  | .local _ .vmem, ⟨34, _⟩ => ⟨S1x128, .f32⟩
  | .local _ .vmem, ⟨35, _⟩ => ⟨S128x64, .f32⟩
  | .local _ .vmem, ⟨36, _⟩ => ⟨S1x64, .f32⟩
  | .local _ .vmem, ⟨37, _⟩ => ⟨S256x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_4 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_c_5 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_cst_7 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_c_8 : Ref sig .tc := ⟨.hbm, 70, rfl⟩
abbrev main_v43 : Ref sig .tc := ⟨.hbm, 71, rfl⟩
abbrev main_v44 : Ref sig .tc := ⟨.hbm, 72, rfl⟩
abbrev main_c_9 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_cst_10 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg4_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg3_1 : Ref sig .tc := ⟨.vmem, 29, rfl⟩
abbrev cc4_stg0_0 : Ref sig .tc := ⟨.vmem, 30, rfl⟩
abbrev cc4_stg1_0 : Ref sig .tc := ⟨.vmem, 31, rfl⟩
abbrev cc4_stg2_0 : Ref sig .tc := ⟨.vmem, 32, rfl⟩
abbrev cc4_stg3_0 : Ref sig .tc := ⟨.vmem, 33, rfl⟩
abbrev cc4_stg4_0 : Ref sig .tc := ⟨.vmem, 34, rfl⟩
abbrev cc4_stg5_0 : Ref sig .tc := ⟨.vmem, 35, rfl⟩
abbrev cc4_stg6_0 : Ref sig .tc := ⟨.vmem, 36, rfl⟩
abbrev cc4_stg7_0 : Ref sig .tc := ⟨.vmem, 37, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem4_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem3_0 : DmaSem sig := 28
abbrev cc3_sem3_1 : DmaSem sig := 29
abbrev cc4_sem0_0 : DmaSem sig := 30
abbrev cc4_sem1_0 : DmaSem sig := 31
abbrev cc4_sem2_0 : DmaSem sig := 32
abbrev cc4_sem3_0 : DmaSem sig := 33
abbrev cc4_sem4_0 : DmaSem sig := 34
abbrev cc4_sem5_0 : DmaSem sig := 35
abbrev cc4_sem6_0 : DmaSem sig := 36
abbrev cc4_sem7_0 : DmaSem sig := 37

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S256x1 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 1 → Memref sig .tc .vmem S1x1 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 1 → Memref sig .tc .vmem S256x64 .f32 := fun | 0 => Memref.whole cc4_stg7_0 | ⟨_ + 1, h⟩ => absurd h (Nat.not_lt.2 (Nat.le_add_left _ _))
abbrev sem4_7 : Fin 1 → DmaSem sig := fun | 0 => cc4_sem7_0 | ⟨_ + 1, h⟩ => absurd h (Nat.not_lt.2 (Nat.le_add_left _ _))
abbrev reads4_7 : Fin grid4.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x128 : S5000x1.Broadcasts S5000x128
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  broadcasts_S5000x1_S5000x64 : S5000x1.Broadcasts S5000x64
  inb_S5000x64_S5000x64_0_0 : ∀ a, (![0, 0] : Fin 2 → Nat) a + S5000x64.size a ≤ S5000x64.size a
  h_S5000x64 : 0 < S5000x64.numel
  bcast_S_S50000x64 : S_.BroadcastsInDim S50000x64 (![] : Fin 0 → Fin S50000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  reduces_S5000x64_S5000 : S5000x64.Reduces [1] S5000
  shapeCasts_S5000_S5000x1 : S5000.ShapeCasts S5000x1
  shapeCasts_S1_S1x1 : S1.ShapeCasts S1x1
  inb_S256x1_S256x1_0_0 : ∀ a, (![0, 0] : Fin 2 → Nat) a + S256x1.size a ≤ S256x1.size a
  h_S256x1 : 0 < S256x1.numel
  reduces_S256x1_S1 : S256x1.Reduces [0] S1
  broadcasts_S1x1_S256x1 : S1x1.Broadcasts S256x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x128_S256x128 : S1x128.Broadcasts S256x128
  broadcasts_S1x64_S256x64 : S1x64.Broadcasts S256x64
  reduces_S256x64_S256 : S256x64.Reduces [1] S256
  shapeCasts_S256_S256x1 : S256.ShapeCasts S256x1
  broadcasts_S256x1_S256x64 : S256x1.Broadcasts S256x64
  inb_S256x64_S256x64_0_0 : ∀ a, (![0, 0] : Fin 2 → Nat) a + S256x64.size a ≤ S256x64.size a
  h_S256x64 : 0 < S256x64.numel
  scatter_S50000_S850000x1_S850000_n_0_0_1_wf : ScatterDims.WF S50000 S850000x1 S850000 [] [0] [0] 1
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x64_S5000x64_1_0_0_1_n_n_wf : DotDims.WF S5000x128 S128x64 S5000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S256x1_S1x128_S256x128_1_0_0_1_n_n_wf : DotDims.WF S256x1 S1x128 S256x128 [1] [0] [0] [1] [] []
  dot_S256x128_S128x64_S256x64_1_0_0_1_n_n_wf : DotDims.WF S256x128 S128x64 S256x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S50000x1.size a
  hwx0_2 : ∀ i : grid0.Coords, EltTy.bits .f32 = 32 ∨ (Rect.block (s := S50000x1) S5000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x1.size a ≤ S50000x1.size a
  hwx2_1 : ∀ i : grid2.Coords, EltTy.bits .f32 = 32 ∨ (Rect.block (s := S50000x1) S5000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x64.size a ≤ S128x64.size a
  hwx2_3 : ∀ i : grid2.Coords, EltTy.bits .f32 = 32 ∨ (Rect.block (s := S128x64) S128x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S50000x64.size a
  hwx2_4 : ∀ i : grid2.Coords, EltTy.bits .f32 = 32 ∨ (Rect.block (s := S50000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hrank4 : 0 < grid4.rank
  hstage4_0 : ∀ j, (stage4_0 j).IsWhole
  nbuf4_0 : grid4.bufCount reads4_0 true = 1
  hreads4_0 : ∀ i i' : grid4.Coords, (∀ a, reads4_0 a = true → i a = i' a) → cc4_transform_0 i = cc4_transform_0 i'
  hinb4_0 : ∀ (i : grid4.Coords) a, (cc4_transform_0 i a + 1) * S256x1.size a ≤ S256x1.size a
  hwx4_0 : ∀ i : grid4.Coords, EltTy.bits .f32 = 32 ∨ (Rect.block (s := S256x1) S256x1.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x1.size a ≤ S1x1.size a
  hwx4_1 : ∀ i : grid4.Coords, EltTy.bits .f32 = 32 ∨ (Rect.block (s := S1x1) S1x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x64.size a ≤ S128x64.size a
  hwx4_5 : ∀ i : grid4.Coords, EltTy.bits .f32 = 32 ∨ (Rect.block (s := S128x64) S128x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 true = 1
  hreads4_7 : ∀ i i' : grid4.Coords, (∀ a, reads4_7 a = true → i a = i' a) → cc4_transform_7 i = cc4_transform_7 i'
  hinb4_7 : ∀ (i : grid4.Coords) a, (cc4_transform_7 i a + 1) * S256x64.size a ≤ S256x64.size a
  hwx4_7 : ∀ i : grid4.Coords, EltTy.bits .f32 = 32 ∨ (Rect.block (s := S256x64) S256x64.size (cc4_transform_7 i) (hinb4_7 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S256x1_S1x128_S256x128_1_0_0_1_n_n : DotDims S256x1 S1x128 S256x128 where
  lhsContracting := [1]
  rhsContracting := [0]
  lhsNonContracting := [0]
  rhsNonContracting := [1]
  lhsBatch := []
  rhsBatch := []
  wf := dot_S256x1_S1x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v26) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v29) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v39) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v40) S5000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v41) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg7) S128x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v42) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v52) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v53) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v54) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v55) S5000x64.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_arg1) S256x1.size cc4_transform_0 reads4_0 false true 1 stage4_0 sem4_0
    hrank4 hreads4_0 hinb4_0 nbuf4_0 (Memref.isWhole_whole _) hwx4_0 hstage4_0

abbrev win4_1 : Pipeline.Window sig grid4 :=
  Pipeline.Window.ofSpec (Memref.whole main_v56) S1x1.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v57) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg11) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v58) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg13) S128x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v59) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v60) S256x64.size cc4_transform_7 reads4_7 true true 1 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

class Facts : Prop extends Facts₀ where

variable [Facts]
-- ==== ReferenceIdeal.lean ====
abbrev S50000x128 : Shape := ⟨2, ![50000, 128]⟩
abbrev S256x1 : Shape := ⟨2, ![256, 1]⟩
abbrev S2x800000 : Shape := ⟨2, ![2, 800000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1 : Shape := ⟨1, ![1]⟩
abbrev S1x128 : Shape := ⟨2, ![1, 128]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S50000x64 : Shape := ⟨2, ![50000, 64]⟩
abbrev S850000x64 : Shape := ⟨2, ![850000, 64]⟩
abbrev S1x64 : Shape := ⟨2, ![1, 64]⟩
abbrev S50000x1 : Shape := ⟨2, ![50000, 1]⟩
abbrev S1x1 : Shape := ⟨2, ![1, 1]⟩
abbrev S256x128 : Shape := ⟨2, ![256, 128]⟩
abbrev S256x64 : Shape := ⟨2, ![256, 64]⟩
abbrev S256 : Shape := ⟨1, ![256]⟩

abbrev nBuf : Space → Nat
  | .hbm => 236
  | .vmem => 0
  | .smem => 0
  | _ => 0

abbrev hbmTy0_0 (i : Nat) : BufTy := match i % 128 with
  | 0 => ⟨S50000x128, .f32⟩
  | 1 => ⟨S256x1, .f32⟩
  | 2 => ⟨S2x800000, .i32⟩
  | 3 => ⟨S128x128, .f32⟩
  | 4 => ⟨S128, .f32⟩
  | 5 => ⟨S128x128, .f32⟩
  | 6 => ⟨S128, .f32⟩
  | 7 => ⟨S128x64, .f32⟩
  | 8 => ⟨S64, .f32⟩
  | 9 => ⟨S1, .f32⟩
  | 10 => ⟨S1, .f32⟩
  | 11 => ⟨S1x128, .f32⟩
  | 12 => ⟨S128, .f32⟩
  | 13 => ⟨S128x64, .f32⟩
  | 14 => ⟨S64, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S50000x128, .f32⟩
  | 37 => ⟨S_, .i32⟩
  | 38 => ⟨S850000, .i32⟩
  | 39 => ⟨S850000, .i1⟩
  | 40 => ⟨S_, .i32⟩
  | 41 => ⟨S850000, .i32⟩
  | 42 => ⟨S850000, .i32⟩
  | 43 => ⟨S850000, .i32⟩
  | 44 => ⟨S850000x1, .i32⟩
  | 45 => ⟨S850000, .f32⟩
  | 46 => ⟨S_, .i32⟩
  | 47 => ⟨S850000, .i32⟩
  | 48 => ⟨S850000, .i1⟩
  | 49 => ⟨S_, .i32⟩
  | 50 => ⟨S850000, .i32⟩
  | 51 => ⟨S850000, .i32⟩
  | 52 => ⟨S850000, .i32⟩
  | 53 => ⟨S850000x1, .i32⟩
  | 54 => ⟨S850000, .f32⟩
  | 55 => ⟨S850000, .f32⟩
  | 56 => ⟨S850000x1, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000, .f32⟩
  | 88 => ⟨S_, .i32⟩
  | 89 => ⟨S850000, .i32⟩
  | 90 => ⟨S850000, .i1⟩
  | 91 => ⟨S_, .i32⟩
  | 92 => ⟨S850000, .i32⟩
  | 93 => ⟨S850000, .i32⟩
  | 94 => ⟨S850000, .i32⟩
  | 95 => ⟨S850000x1, .i32⟩
  | 96 => ⟨S850000, .f32⟩
  | 97 => ⟨S850000, .f32⟩
  | 98 => ⟨S850000x1, .f32⟩
  | 99 => ⟨S_, .i32⟩
  | 100 => ⟨S850000, .i32⟩
  | 101 => ⟨S850000, .i1⟩
  | 102 => ⟨S_, .i32⟩
  | 103 => ⟨S850000, .i32⟩
  | 104 => ⟨S850000, .i32⟩
  | 105 => ⟨S850000, .i32⟩
  | 106 => ⟨S850000x1, .i32⟩
  | 107 => ⟨S850000x128, .f32⟩
  | 108 => ⟨S850000x128, .f32⟩
  | 109 => ⟨S850000x128, .f32⟩
  | 110 => ⟨S_, .f32⟩
  | 111 => ⟨S50000x128, .f32⟩
  | 112 => ⟨S850000x1, .i32⟩
  | 113 => ⟨S50000x128, .f32⟩
  | 114 => ⟨S1x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S50000x64, .f32⟩
  | 121 => ⟨S_, .i32⟩
  | 122 => ⟨S850000, .i32⟩
  | 123 => ⟨S850000, .i1⟩
  | 124 => ⟨S_, .i32⟩
  | 125 => ⟨S850000, .i32⟩
  | 126 => ⟨S850000, .i32⟩
  | 127 => ⟨S850000, .i32⟩
  | _ => ⟨S50000x128, .f32⟩

abbrev hbmTy0_1 (i : Nat) : BufTy := match i % 128 with
  | 0 => ⟨S850000x1, .i32⟩
  | 1 => ⟨S850000, .f32⟩
  | 2 => ⟨S_, .i32⟩
  | 3 => ⟨S850000, .i32⟩
  | 4 => ⟨S850000, .i1⟩
  | 5 => ⟨S_, .i32⟩
  | 6 => ⟨S850000, .i32⟩
  | 7 => ⟨S850000, .i32⟩
  | 8 => ⟨S850000, .i32⟩
  | 9 => ⟨S850000x1, .i32⟩
  | 10 => ⟨S850000, .f32⟩
  | 11 => ⟨S850000, .f32⟩
  | 12 => ⟨S850000x1, .f32⟩
  | 13 => ⟨S_, .i32⟩
  | 14 => ⟨S850000, .i32⟩
  | 15 => ⟨S850000, .i1⟩
  | 16 => ⟨S_, .i32⟩
  | 17 => ⟨S850000, .i32⟩
  | 18 => ⟨S850000, .i32⟩
  | 19 => ⟨S850000, .i32⟩
  | 20 => ⟨S850000x1, .i32⟩
  | 21 => ⟨S850000x64, .f32⟩
  | 22 => ⟨S850000x64, .f32⟩
  | 23 => ⟨S850000x64, .f32⟩
  | 24 => ⟨S_, .f32⟩
  | 25 => ⟨S50000x64, .f32⟩
  | 26 => ⟨S850000x1, .i32⟩
  | 27 => ⟨S50000x64, .f32⟩
  | 28 => ⟨S1x64, .f32⟩
  | 29 => ⟨S50000x64, .f32⟩
  | 30 => ⟨S50000x64, .f32⟩
  | 31 => ⟨S50000x64, .f32⟩
  | 32 => ⟨S_, .f32⟩
  | 33 => ⟨S50000, .f32⟩
  | 34 => ⟨S50000x1, .f32⟩
  | 35 => ⟨S50000x1, .f32⟩
  | 36 => ⟨S_, .f32⟩
  | 37 => ⟨S_, .f32⟩
  | 38 => ⟨S50000x1, .f32⟩
  | 39 => ⟨S50000x1, .f32⟩
  | 40 => ⟨S50000x64, .f32⟩
  | 41 => ⟨S50000x64, .f32⟩
  | 42 => ⟨S_, .f32⟩
  | 43 => ⟨S1, .f32⟩
  | 44 => ⟨S1x1, .f32⟩
  | 45 => ⟨S_, .f32⟩
  | 46 => ⟨S1x1, .f32⟩
  | 47 => ⟨S1x1, .f32⟩
  | 48 => ⟨S_, .i32⟩
  | 49 => ⟨S_, .f32⟩
  | 50 => ⟨S1, .f32⟩
  | 51 => ⟨S1x1, .f32⟩
  | 52 => ⟨S_, .f32⟩
  | 53 => ⟨S1x1, .f32⟩
  | 54 => ⟨S1x1, .f32⟩
  | 55 => ⟨S256x1, .f32⟩
  | 56 => ⟨S256x1, .f32⟩
  | 57 => ⟨S256x1, .f32⟩
  | 58 => ⟨S_, .f32⟩
  | 59 => ⟨S_, .f32⟩
  | 60 => ⟨S_, .f32⟩
  | 61 => ⟨S_, .f32⟩
  | 62 => ⟨S1, .f32⟩
  | 63 => ⟨S1x1, .f32⟩
  | 64 => ⟨S1x1, .f32⟩
  | 65 => ⟨S1x1, .f32⟩
  | 66 => ⟨S_, .f32⟩
  | 67 => ⟨S_, .i1⟩
  | 68 => ⟨S_, .f32⟩
  | 69 => ⟨S_, .f32⟩
  | 70 => ⟨S1x1, .f32⟩
  | 71 => ⟨S1x1, .f32⟩
  | 72 => ⟨S256x1, .f32⟩
  | 73 => ⟨S256x1, .f32⟩
  | 74 => ⟨S_, .f32⟩
  | 75 => ⟨S1x1, .f32⟩
  | 76 => ⟨S1x1, .f32⟩
  | 77 => ⟨S1x1, .f32⟩
  | 78 => ⟨S256x1, .f32⟩
  | 79 => ⟨S256x1, .f32⟩
  | 80 => ⟨S1x1, .f32⟩
  | 81 => ⟨S256x1, .f32⟩
  | 82 => ⟨S256x1, .f32⟩
  | 83 => ⟨S1x1, .f32⟩
  | 84 => ⟨S256x1, .f32⟩
  | 85 => ⟨S256x1, .f32⟩
  | 86 => ⟨S256x128, .f32⟩
  | 87 => ⟨S1x128, .f32⟩
  | 88 => ⟨S256x128, .f32⟩
  | 89 => ⟨S256x128, .f32⟩
  | 90 => ⟨S_, .f32⟩
  | 91 => ⟨S256x128, .f32⟩
  | 92 => ⟨S256x128, .f32⟩
  | 93 => ⟨S256x64, .f32⟩
  | 94 => ⟨S1x64, .f32⟩
  | 95 => ⟨S256x64, .f32⟩
  | 96 => ⟨S256x64, .f32⟩
  | 97 => ⟨S256x64, .f32⟩
  | 98 => ⟨S_, .f32⟩
  | 99 => ⟨S256, .f32⟩
  | 100 => ⟨S256x1, .f32⟩
  | 101 => ⟨S256x1, .f32⟩
  | 102 => ⟨S_, .f32⟩
  | 103 => ⟨S_, .f32⟩
  | 104 => ⟨S256x1, .f32⟩
  | 105 => ⟨S256x1, .f32⟩
  | 106 => ⟨S256x64, .f32⟩
  | 107 => ⟨S256x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_c : Ref sig .tc := ⟨.hbm, 37, rfl⟩
abbrev main_v16 : Ref sig .tc := ⟨.hbm, 38, rfl⟩
abbrev main_v17 : Ref sig .tc := ⟨.hbm, 39, rfl⟩
abbrev main_c_3 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_4 : Ref sig .tc := ⟨.hbm, 46, rfl⟩
abbrev main_v23 : Ref sig .tc := ⟨.hbm, 47, rfl⟩
abbrev main_v24 : Ref sig .tc := ⟨.hbm, 48, rfl⟩
abbrev main_c_5 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_c_11 : Ref sig .tc := ⟨.hbm, 88, rfl⟩
abbrev main_v56 : Ref sig .tc := ⟨.hbm, 89, rfl⟩
abbrev main_v57 : Ref sig .tc := ⟨.hbm, 90, rfl⟩
abbrev main_c_12 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_c_13 : Ref sig .tc := ⟨.hbm, 99, rfl⟩
abbrev main_v65 : Ref sig .tc := ⟨.hbm, 100, rfl⟩
abbrev main_v66 : Ref sig .tc := ⟨.hbm, 101, rfl⟩
abbrev main_c_14 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_15 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_call2_cst : Ref sig .tc := ⟨.hbm, 117, rfl⟩
abbrev main_call2_v0 : Ref sig .tc := ⟨.hbm, 118, rfl⟩
abbrev main_v80 : Ref sig .tc := ⟨.hbm, 119, rfl⟩
abbrev main_v81 : Ref sig .tc := ⟨.hbm, 120, rfl⟩
abbrev main_c_16 : Ref sig .tc := ⟨.hbm, 121, rfl⟩
abbrev main_v82 : Ref sig .tc := ⟨.hbm, 122, rfl⟩
abbrev main_v83 : Ref sig .tc := ⟨.hbm, 123, rfl⟩
abbrev main_c_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_c_18 : Ref sig .tc := ⟨.hbm, 130, rfl⟩
abbrev main_v89 : Ref sig .tc := ⟨.hbm, 131, rfl⟩
abbrev main_v90 : Ref sig .tc := ⟨.hbm, 132, rfl⟩
abbrev main_c_19 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_20 : Ref sig .tc := ⟨.hbm, 141, rfl⟩
abbrev main_v98 : Ref sig .tc := ⟨.hbm, 142, rfl⟩
abbrev main_v99 : Ref sig .tc := ⟨.hbm, 143, rfl⟩
abbrev main_c_21 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_22 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_call3_v0 : Ref sig .tc := ⟨.hbm, 159, rfl⟩
abbrev main_call3_cst : Ref sig .tc := ⟨.hbm, 160, rfl⟩
abbrev main_call3_v1 : Ref sig .tc := ⟨.hbm, 161, rfl⟩
abbrev main_call3_v2 : Ref sig .tc := ⟨.hbm, 162, rfl⟩
abbrev main_v113 : Ref sig .tc := ⟨.hbm, 163, rfl⟩
abbrev main_cst_23 : Ref sig .tc := ⟨.hbm, 164, rfl⟩
abbrev main_call4_v0 : Ref sig .tc := ⟨.hbm, 165, rfl⟩
abbrev main_call4_v1 : Ref sig .tc := ⟨.hbm, 166, rfl⟩
abbrev main_v114 : Ref sig .tc := ⟨.hbm, 167, rfl⟩
abbrev main_v115 : Ref sig .tc := ⟨.hbm, 168, rfl⟩
abbrev main_v116 : Ref sig .tc := ⟨.hbm, 169, rfl⟩
abbrev main_cst_24 : Ref sig .tc := ⟨.hbm, 170, rfl⟩
abbrev main_v117 : Ref sig .tc := ⟨.hbm, 171, rfl⟩
abbrev main_v118 : Ref sig .tc := ⟨.hbm, 172, rfl⟩
abbrev main_cst_25 : Ref sig .tc := ⟨.hbm, 173, rfl⟩
abbrev main_v119 : Ref sig .tc := ⟨.hbm, 174, rfl⟩
abbrev main_v120 : Ref sig .tc := ⟨.hbm, 175, rfl⟩
abbrev main_c_26 : Ref sig .tc := ⟨.hbm, 176, rfl⟩
abbrev main_call5_cst : Ref sig .tc := ⟨.hbm, 177, rfl⟩
abbrev main_call5_v0 : Ref sig .tc := ⟨.hbm, 178, rfl⟩
abbrev main_call5_v1 : Ref sig .tc := ⟨.hbm, 179, rfl⟩
abbrev main_call5_cst_0 : Ref sig .tc := ⟨.hbm, 180, rfl⟩
abbrev main_call5_v2 : Ref sig .tc := ⟨.hbm, 181, rfl⟩
abbrev main_call5_v3 : Ref sig .tc := ⟨.hbm, 182, rfl⟩
abbrev main_call5_v4 : Ref sig .tc := ⟨.hbm, 183, rfl⟩
abbrev main_call5_v5 : Ref sig .tc := ⟨.hbm, 184, rfl⟩
abbrev main_call5_v6 : Ref sig .tc := ⟨.hbm, 185, rfl⟩
abbrev main_call5_v7 : Ref sig .tc := ⟨.hbm, 186, rfl⟩
abbrev main_call5_cst_1 : Ref sig .tc := ⟨.hbm, 187, rfl⟩
abbrev main_call5_v8 : Ref sig .tc := ⟨.hbm, 188, rfl⟩
abbrev main_call5_cst_2 : Ref sig .tc := ⟨.hbm, 189, rfl⟩
abbrev main_call5_v9 : Ref sig .tc := ⟨.hbm, 190, rfl⟩
abbrev main_call5_v10 : Ref sig .tc := ⟨.hbm, 191, rfl⟩
abbrev main_call5_v11 : Ref sig .tc := ⟨.hbm, 192, rfl⟩
abbrev main_call5_v12 : Ref sig .tc := ⟨.hbm, 193, rfl⟩
abbrev main_call5_cst_3 : Ref sig .tc := ⟨.hbm, 194, rfl⟩
abbrev main_call5_v13 : Ref sig .tc := ⟨.hbm, 195, rfl⟩
abbrev main_call5_cst_4 : Ref sig .tc := ⟨.hbm, 196, rfl⟩
abbrev main_call5_call0_v0 : Ref sig .tc := ⟨.hbm, 197, rfl⟩
abbrev main_call5_call0_v1 : Ref sig .tc := ⟨.hbm, 198, rfl⟩
abbrev main_v121 : Ref sig .tc := ⟨.hbm, 199, rfl⟩
abbrev main_v122 : Ref sig .tc := ⟨.hbm, 200, rfl⟩
abbrev main_v123 : Ref sig .tc := ⟨.hbm, 201, rfl⟩
abbrev main_cst_27 : Ref sig .tc := ⟨.hbm, 202, rfl⟩
abbrev main_v124 : Ref sig .tc := ⟨.hbm, 203, rfl⟩
abbrev main_v125 : Ref sig .tc := ⟨.hbm, 204, rfl⟩
abbrev main_v126 : Ref sig .tc := ⟨.hbm, 205, rfl⟩
abbrev main_v127 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_v135 : Ref sig .tc := ⟨.hbm, 214, rfl⟩
abbrev main_v136 : Ref sig .tc := ⟨.hbm, 215, rfl⟩
abbrev main_v137 : Ref sig .tc := ⟨.hbm, 216, rfl⟩
abbrev main_v138 : Ref sig .tc := ⟨.hbm, 217, rfl⟩
abbrev main_call6_cst : Ref sig .tc := ⟨.hbm, 218, rfl⟩
abbrev main_call6_v0 : Ref sig .tc := ⟨.hbm, 219, rfl⟩
abbrev main_v139 : Ref sig .tc := ⟨.hbm, 220, rfl⟩
abbrev main_v140 : Ref sig .tc := ⟨.hbm, 221, rfl⟩
abbrev main_v141 : Ref sig .tc := ⟨.hbm, 222, rfl⟩
abbrev main_v142 : Ref sig .tc := ⟨.hbm, 223, rfl⟩
abbrev main_v143 : Ref sig .tc := ⟨.hbm, 224, rfl⟩
abbrev main_call7_v0 : Ref sig .tc := ⟨.hbm, 225, rfl⟩
abbrev main_call7_cst : Ref sig .tc := ⟨.hbm, 226, rfl⟩
abbrev main_call7_v1 : Ref sig .tc := ⟨.hbm, 227, rfl⟩
abbrev main_call7_v2 : Ref sig .tc := ⟨.hbm, 228, rfl⟩
abbrev main_v144 : Ref sig .tc := ⟨.hbm, 229, rfl⟩
abbrev main_cst_28 : Ref sig .tc := ⟨.hbm, 230, rfl⟩
abbrev main_call8_v0 : Ref sig .tc := ⟨.hbm, 231, rfl⟩
abbrev main_call8_v1 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  reducesTo_S256x1_S1_d0 : S256x1.ReducesTo [0] S1
  bcast_S1_S1x1_1 : S1.BroadcastsInDim S1x1 (![1] : Fin 1 → Fin S1x1.rank)
  bcast_S_S1x1 : S_.BroadcastsInDim S1x1 (![] : Fin 0 → Fin S1x1.rank)
  bcast_S1x1_S256x1_0_1 : S1x1.BroadcastsInDim S256x1 (![0, 1] : Fin 2 → Fin S256x1.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S1x64_S256x64_0_1 : S1x64.BroadcastsInDim S256x64 (![0, 1] : Fin 2 → Fin S256x64.rank)
  reducesTo_S256x64_S256_d1 : S256x64.ReducesTo [1] S256
  bcast_S256_S256x1_0 : S256.BroadcastsInDim S256x1 (![0] : Fin 1 → Fin S256x1.rank)
  bcast_S_S256x1 : S_.BroadcastsInDim S256x1 (![] : Fin 0 → Fin S256x1.rank)
  bcast_S256x1_S256x64_0_1 : S256x1.BroadcastsInDim S256x64 (![0, 1] : Fin 2 → Fin S256x64.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x64_S50000x64_1_0_0_1_n_n_wf : DotDims.WF S50000x128 S128x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  dot_S256x1_S1x128_S256x128_1_0_0_1_n_n_wf : DotDims.WF S256x1 S1x128 S256x128 [1] [0] [0] [1] [] []
  dot_S256x128_S128x64_S256x64_1_0_0_1_n_n_wf : DotDims.WF S256x128 S128x64 S256x64 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def dot_S256x1_S1x128_S256x128_1_0_0_1_n_n : DotDims S256x1 S1x128 S256x128 where
  lhsContracting := [1]
  rhsContracting := [0]
  lhsNonContracting := [0]
  rhsNonContracting := [1]
  lhsBatch := []
  rhsBatch := []
  wf := dot_S256x1_S1x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf

class Facts : Prop extends Facts₀ where

variable [Facts]
-- ==== Proof.KernelRunEnd.lean ====
import proofs.«133735_j11390253269678_2_alg».proof.Proof.Gen.KernelIdeal.Frame

set_option maxRecDepth 16384

noncomputable section

namespace Cert.GCN.Kern

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program on the cores terminates, nothing
    faulting, and in every final state each unscoped buffer of each core holds the contents the fold through the
    program's segments assigns it at the last boundary. -/
theorem run_end : θ_run defs (onTc (τ := τ) (main (F := F))) ⟨m, fun _ => 0, ρ⟩ (fun r => ∀ (c : Dev nD) (b : Ref sig .tc),
      ¬ (Proc.devRef .tc b : DevRef τ sig).isScoped →
      r.2.mem ((c.tc : Thread nD τ).loc b) = W12 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c b hb => h c _ (mem_uc b hb))

end Cert.GCN.Kern

end
-- ==== Proof.KernelRunCarry.lean ====
/-
  Which buffers each segment of the program leaves alone.

  A stretch of host operations rewrites only its operations' result buffers, and a pipelined region only its windows'
  arrays; every other buffer holds after the segment what it held before. For each of the twelve segments the list of
  buffers it may touch is written out, and a buffer outside the list is carried across the segment unchanged. Chained
  from the launch, a buffer outside the first n lists still holds its launch contents at boundary n.
-/
import proofs.«133735_j11390253269678_2_alg».proof.Proof.Gen.KernelIdeal.Frame

set_option maxRecDepth 16384

noncomputable section

namespace Cert.GCN.Kern

open Idealize.ShloMosaic Idealize.ShloMosaic.TcCoe Idealize.SL.Sem
open Cert.KernelIdeal Cert.KernelIdeal.Gen

variable {F : FTy → Type} [FloatOps F]
variable (m : (ℓ : Loc nD τ sig) → Buf (Elt F) ℓ) (ρ : Dev nD → PrngReg) (c : Dev nD)

/-- The result buffers of the first stretch of host operations. -/
abbrev wr1 : List (Ref sig .tc) := [main_v0, main_v1, main_v2, main_v3, main_v4, main_v5, main_v6, main_cst, main_v7,
  main_cst_0, main_v8, main_v9, main_v10, main_cst_1, main_v11, main_v12, main_v13, main_cst_2]
/-- The result buffers of the select. -/
abbrev wr2 : List (Ref sig .tc) := [main_call0_v0, main_call0_v1, main_v14]
/-- The result buffer of the reshape in front of region 0. -/
abbrev wr3 : List (Ref sig .tc) := [main_v15]
/-- Region 0's arrays. -/
abbrev wr4 : List (Ref sig .tc) := [main_arg0, main_arg3, main_v15, main_v16]
/-- The result buffers of the stretch in front of region 1. -/
abbrev wr5 : List (Ref sig .tc) := [main_c, main_v17, main_v18, main_c_3, main_v19, main_v20, main_v21, main_v22, main_v23,
  main_cst_4, main_v24, main_v25, main_v26, main_v27, main_v28]
/-- Region 1's arrays. -/
abbrev wr6 : List (Ref sig .tc) := [main_v26, main_v27, main_v28, main_arg5, main_v29]
/-- The result buffers of the stretch in front of region 2. -/
abbrev wr7 : List (Ref sig .tc) := [main_c_5, main_v30, main_v31, main_c_6, main_v32, main_v33, main_v34, main_v35, main_v36,
  main_cst_7, main_v37, main_v38, main_v39, main_v40, main_v41]
/-- Region 2's arrays. -/
abbrev wr8 : List (Ref sig .tc) := [main_v39, main_v40, main_v41, main_arg7, main_v42]
/-- The result buffers of the stretch in front of region 3. -/
abbrev wr9 : List (Ref sig .tc) := [main_c_8, main_v43, main_v44, main_c_9, main_v45, main_v46, main_v47, main_v48, main_v49,
  main_cst_10, main_v50, main_v51, main_v52, main_v53, main_v54]
/-- Region 3's arrays. -/
abbrev wr10 : List (Ref sig .tc) := [main_v52, main_v53, main_v54, main_v55]
/-- The result buffers of the stretch in front of region 4. -/
abbrev wr11 : List (Ref sig .tc) := [main_v56, main_v57, main_v58, main_v59]
/-- Region 4's arrays. -/
abbrev wr12 : List (Ref sig .tc) := [main_arg1, main_v56, main_v57, main_arg11, main_v58, main_arg13, main_v59, main_v60]

/-- One result buffer, listed, is among the listed buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

theorem hW1 : (hostOps0 : List (HloOp τ sig (Elt F))).Forall fun op => op.writes ⊆ (wr1.map (Proc.devRef (τ := τ) .tc)).toFinset := by
  simp only [hostOps0, List.Forall, StableHlo.nullary_writes, StableHlo.unary_writes, StableHlo.binary_writes, StableHlo.ternary_writes, StableHlo.reshape_writes]
  repeat' apply And.intro
  all_goals exact sub_of_mem (by decide)
theorem hW2 : (hostOps0_1 : List (HloOp τ sig (Elt F))).Forall fun op => op.writes ⊆ (wr2.map (Proc.devRef (τ := τ) .tc)).toFinset := by
  simp only [hostOps0_1, List.Forall, StableHlo.nullary_writes, StableHlo.unary_writes, StableHlo.binary_writes, StableHlo.ternary_writes, StableHlo.reshape_writes]
  repeat' apply And.intro
  all_goals exact sub_of_mem (by decide)
theorem hW3 : (hostOps0_2 : List (HloOp τ sig (Elt F))).Forall fun op => op.writes ⊆ (wr3.map (Proc.devRef (τ := τ) .tc)).toFinset := by
  simp only [hostOps0_2, List.Forall, StableHlo.nullary_writes, StableHlo.unary_writes, StableHlo.binary_writes, StableHlo.ternary_writes, StableHlo.reshape_writes]
  exact sub_of_mem (by decide)
theorem hW5 : (hostOps1 : List (HloOp τ sig (Elt F))).Forall fun op => op.writes ⊆ (wr5.map (Proc.devRef (τ := τ) .tc)).toFinset := by
  simp only [hostOps1, List.Forall, StableHlo.nullary_writes, StableHlo.unary_writes, StableHlo.binary_writes, StableHlo.ternary_writes, StableHlo.reshape_writes]
  repeat' apply And.intro
  all_goals exact sub_of_mem (by decide)
theorem hW7 : (hostOps2 : List (HloOp τ sig (Elt F))).Forall fun op => op.writes ⊆ (wr7.map (Proc.devRef (τ := τ) .tc)).toFinset := by
  simp only [hostOps2, List.Forall, StableHlo.nullary_writes, StableHlo.unary_writes, StableHlo.binary_writes, StableHlo.ternary_writes, StableHlo.reshape_writes]
  repeat' apply And.intro
  all_goals exact sub_of_mem (by decide)
theorem hW9 : (hostOps3 : List (HloOp τ sig (Elt F))).Forall fun op => op.writes ⊆ (wr9.map (Proc.devRef (τ := τ) .tc)).toFinset := by
  simp only [hostOps3, List.Forall, StableHlo.nullary_writes, StableHlo.unary_writes, StableHlo.binary_writes, StableHlo.ternary_writes, StableHlo.reshape_writes]
  repeat' apply And.intro
  all_goals exact sub_of_mem (by decide)
theorem hW11 : (hostOps4 : List (HloOp τ sig (Elt F))).Forall fun op => op.writes ⊆ (wr11.map (Proc.devRef (τ := τ) .tc)).toFinset := by
  simp only [hostOps4, List.Forall, StableHlo.nullary_writes, StableHlo.unary_writes, StableHlo.binary_writes, StableHlo.ternary_writes, StableHlo.reshape_writes]
  repeat' apply And.intro
  all_goals exact sub_of_mem (by decide)

/-! ## One segment -/

theorem S1 (b : Ref sig .tc) (hb : b ∉ wr1) : W1 m ρ c (Proc.devRef .tc b) = W0 m ρ c (Proc.devRef .tc b) :=
  StableHlo.after_of_writes_sub _ _ hW1 hb
theorem S2 (b : Ref sig .tc) (hb : b ∉ wr2) : W2 m ρ c (Proc.devRef .tc b) = W1 m ρ c (Proc.devRef .tc b) :=
  StableHlo.after_of_writes_sub _ _ hW2 hb
theorem S3 (b : Ref sig .tc) (hb : b ∉ wr3) : W3 m ρ c (Proc.devRef .tc b) = W2 m ρ c (Proc.devRef .tc b) :=
  StableHlo.after_of_writes_sub _ _ hW3 hb
theorem S4 (b : Ref sig .tc) (hb : b ∉ wr4) : W4 m ρ c (Proc.devRef .tc b) = W3 m ρ c (Proc.devRef .tc b) :=
  W4_of_ne m ρ c b fun w e => hb (e ▸ (show ∀ w : Fin cfg0.W, Pipeline.arrRef spec0 w ∈ wr4 from by decide) w)
theorem S5 (b : Ref sig .tc) (hb : b ∉ wr5) : W5 m ρ c (Proc.devRef .tc b) = W4 m ρ c (Proc.devRef .tc b) :=
  StableHlo.after_of_writes_sub _ _ hW5 hb
theorem S6 (b : Ref sig .tc) (hb : b ∉ wr6) : W6 m ρ c (Proc.devRef .tc b) = W5 m ρ c (Proc.devRef .tc b) :=
  W6_of_ne m ρ c b fun w e => hb (e ▸ (show ∀ w : Fin cfg1.W, Pipeline.arrRef spec1 w ∈ wr6 from by decide) w)
theorem S7 (b : Ref sig .tc) (hb : b ∉ wr7) : W7 m ρ c (Proc.devRef .tc b) = W6 m ρ c (Proc.devRef .tc b) :=
  StableHlo.after_of_writes_sub _ _ hW7 hb
theorem S8 (b : Ref sig .tc) (hb : b ∉ wr8) : W8 m ρ c (Proc.devRef .tc b) = W7 m ρ c (Proc.devRef .tc b) :=
  W8_of_ne m ρ c b fun w e => hb (e ▸ (show ∀ w : Fin cfg2.W, Pipeline.arrRef spec2 w ∈ wr8 from by decide) w)
theorem S9 (b : Ref sig .tc) (hb : b ∉ wr9) : W9 m ρ c (Proc.devRef .tc b) = W8 m ρ c (Proc.devRef .tc b) :=
  StableHlo.after_of_writes_sub _ _ hW9 hb
theorem S10 (b : Ref sig .tc) (hb : b ∉ wr10) : W10 m ρ c (Proc.devRef .tc b) = W9 m ρ c (Proc.devRef .tc b) :=
  W10_of_ne m ρ c b fun w e => hb (e ▸ (show ∀ w : Fin cfg3.W, Pipeline.arrRef spec3 w ∈ wr10 from by decide) w)
theorem S11 (b : Ref sig .tc) (hb : b ∉ wr11) : W11 m ρ c (Proc.devRef .tc b) = W10 m ρ c (Proc.devRef .tc b) :=
  StableHlo.after_of_writes_sub _ _ hW11 hb
theorem S12 (b : Ref sig .tc) (hb : b ∉ wr12) : W12 m ρ c (Proc.devRef .tc b) = W11 m ρ c (Proc.devRef .tc b) :=
  W12_of_ne m ρ c b fun w e => hb (e ▸ (show ∀ w : Fin cfg4.W, Pipeline.arrRef spec4 w ∈ wr12 from by decide) w)

/-! ## From the launch -/

theorem L1 (b : Ref sig .tc) (h : b ∉ wr1) : W1 m ρ c (Proc.devRef .tc b) = W0 m ρ c (Proc.devRef .tc b) := S1 m ρ c b h
theorem L2 (b : Ref sig .tc) (h : b ∉ wr2 ++ wr1) : W2 m ρ c (Proc.devRef .tc b) = W0 m ρ c (Proc.devRef .tc b) :=
  (S2 m ρ c b fun x => h (List.mem_append_left _ x)).trans (L1 m ρ c b fun x => h (List.mem_append_right _ x))
theorem L3 (b : Ref sig .tc) (h : b ∉ wr3 ++ (wr2 ++ wr1)) : W3 m ρ c (Proc.devRef .tc b) = W0 m ρ c (Proc.devRef .tc b) :=
  (S3 m ρ c b fun x => h (List.mem_append_left _ x)).trans (L2 m ρ c b fun x => h (List.mem_append_right _ x))
theorem L4 (b : Ref sig .tc) (h : b ∉ wr4 ++ (wr3 ++ (wr2 ++ wr1))) : W4 m ρ c (Proc.devRef .tc b) = W0 m ρ c (Proc.devRef .tc b) :=
  (S4 m ρ c b fun x => h (List.mem_append_left _ x)).trans (L3 m ρ c b fun x => h (List.mem_append_right _ x))
theorem L5 (b : Ref sig .tc) (h : b ∉ wr5 ++ (wr4 ++ (wr3 ++ (wr2 ++ wr1)))) : W5 m ρ c (Proc.devRef .tc b) = W0 m ρ c (Proc.devRef .tc b) :=
  (S5 m ρ c b fun x => h (List.mem_append_left _ x)).trans (L4 m ρ c b fun x => h (List.mem_append_right _ x))
theorem L6 (b : Ref sig .tc) (h : b ∉ wr6 ++ (wr5 ++ (wr4 ++ (wr3 ++ (wr2 ++ wr1))))) : W6 m ρ c (Proc.devRef .tc b) = W0 m ρ c (Proc.devRef .tc b) :=
  (S6 m ρ c b fun x => h (List.mem_append_left _ x)).trans (L5 m ρ c b fun x => h (List.mem_append_right _ x))
theorem L7 (b : Ref sig .tc) (h : b ∉ wr7 ++ (wr6 ++ (wr5 ++ (wr4 ++ (wr3 ++ (wr2 ++ wr1)))))) : W7 m ρ c (Proc.devRef .tc b) = W0 m ρ c (Proc.devRef .tc b) :=
  (S7 m ρ c b fun x => h (List.mem_append_left _ x)).trans (L6 m ρ c b fun x => h (List.mem_append_right _ x))
theorem L8 (b : Ref sig .tc) (h : b ∉ wr8 ++ (wr7 ++ (wr6 ++ (wr5 ++ (wr4 ++ (wr3 ++ (wr2 ++ wr1))))))) : W8 m ρ c (Proc.devRef .tc b) = W0 m ρ c (Proc.devRef .tc b) :=
  (S8 m ρ c b fun x => h (List.mem_append_left _ x)).trans (L7 m ρ c b fun x => h (List.mem_append_right _ x))
theorem L9 (b : Ref sig .tc) (h : b ∉ wr9 ++ (wr8 ++ (wr7 ++ (wr6 ++ (wr5 ++ (wr4 ++ (wr3 ++ (wr2 ++ wr1)))))))) : W9 m ρ c (Proc.devRef .tc b) = W0 m ρ c (Proc.devRef .tc b) :=
  (S9 m ρ c b fun x => h (List.mem_append_left _ x)).trans (L8 m ρ c b fun x => h (List.mem_append_right _ x))
theorem L10 (b : Ref sig .tc) (h : b ∉ wr10 ++ (wr9 ++ (wr8 ++ (wr7 ++ (wr6 ++ (wr5 ++ (wr4 ++ (wr3 ++ (wr2 ++ wr1))))))))) : W10 m ρ c (Proc.devRef .tc b) = W0 m ρ c (Proc.devRef .tc b) :=
  (S10 m ρ c b fun x => h (List.mem_append_left _ x)).trans (L9 m ρ c b fun x => h (List.mem_append_right _ x))
theorem L11 (b : Ref sig .tc) (h : b ∉ wr11 ++ (wr10 ++ (wr9 ++ (wr8 ++ (wr7 ++ (wr6 ++ (wr5 ++ (wr4 ++ (wr3 ++ (wr2 ++ wr1)))))))))) : W11 m ρ c (Proc.devRef .tc b) = W0 m ρ c (Proc.devRef .tc b) :=
  (S11 m ρ c b fun x => h (List.mem_append_left _ x)).trans (L10 m ρ c b fun x => h (List.mem_append_right _ x))

end Cert.GCN.Kern

end
-- ==== Proof.Spec.lean ====
/-
  The mathematics both programs are compared against, as functions of whole arrays read index by index on the
  extended reals.

  A graph convolution layer over N nodes, E edges and feature width C reads its node features through a column of
  source nodes and adds the rows that arrive at each destination node (a row gather followed by an accumulating row
  scatter from zero). With the per-node factor  d = deg^(-1/2)  (zero at an isolated node) the symmetric
  normalisation  d[src e] · d[dst e]  of edge e can be applied edge by edge (the reference) or split into a scaling of
  the rows before they travel and of the sums after they arrive (the kernel). Around the aggregation both programs
  compute the same dense layers:  dense h W  is the matrix product,  addBias  adds a bias row to every row,  relu  is
  the maximum with zero,  normRows  divides every row by the larger of its Euclidean norm and 1e-12.

  The target branch normalises a column  y  of 256 numbers by its batch mean and variance (training-mode batch
  normalisation with scale  g  and shift  be ), then applies two dense layers with a relu between them and
  normalises the rows.
-/
import Idealize.ShloMosaic.PureOps.Ideal
import Idealize.ShloMosaic.Lib.ValueIdx

noncomputable section

namespace Cert.GCN

open Idealize.ShloMosaic Idealize.ShloMosaic.ValueIdx
open scoped BigOperators

/-- An a × b matrix of extended reals. -/
abbrev Mat (a b : ℕ) : Type := (⟨2, ![a, b]⟩ : Shape).Idx → EReal
/-- A vector of a extended reals. -/
abbrev Row (a : ℕ) : Type := (⟨1, ![a]⟩ : Shape).Idx → EReal

/-- The matrix product: entry (r, c) is the sum over t of h[r, t] · w[t, c]. -/
def dense {n k c : ℕ} (h : Mat n k) (w : Mat k c) : Mat n c :=
  fun j => ∑ t : Fin k, h (ix2 (j 0) t) * w (ix2 t (j 1))

/-- The maximum with zero, entry by entry. -/
def relu {n c : ℕ} (h : Mat n c) : Mat n c := fun j => max (h j) 0

/-- Row r multiplied by the factor d[r]. -/
def scaleRows {n c : ℕ} (h : Mat n c) (d : Row n) : Mat n c := fun j => h j * d (ix1 (j 0))

/-- The bias b[c] added to column c of every row. -/
def addBias {n c : ℕ} (h : Mat n c) (b : Row c) : Mat n c := fun j => h j + b (ix1 (j 1))

/-- The float 1e-12 (its binary value). -/
def eps12 : EReal := Ideal.ofBits .f32 0x2B8CBCCC#32
/-- The float 1e-5 (its binary value). -/
def eps5 : EReal := Ideal.ofBits .f32 0x3727C5AC#32
/-- The float 256. -/
def c256 : EReal := Ideal.ofBits .f32 0x43800000#32

/-- Every row divided by the larger of its Euclidean norm and 1e-12. -/
def normRows {n c : ℕ} (v : Mat n c) : Mat n c :=
  fun j => Ideal.div (v j) (max (Ideal.sqrt (∑ f : Fin c, v (ix2 (j 0) f) * v (ix2 (j 0) f))) eps12)

/-- The first column of an a × 1 matrix as a vector. -/
def colOf {a : ℕ} (D : Mat a 1) : Row a := fun i => D (ix2 (i 0) (0 : Fin 1))
/-- The one row of a 1 × b matrix as a vector. -/
def rowOf {b : ℕ} (B : Mat 1 b) : Row b := fun i => B (ix2 (0 : Fin 1) (i 0))

/-! ## The aggregation over the edges, in its two arrangements -/

/-- The kernel's aggregation: the rows of hs gathered at the sources and added up at the destinations, from z. -/
def aggPlain {N E C : ℕ} (dS : ScatterDims ⟨2, ![N, C]⟩ ⟨2, ![E, 1]⟩ ⟨2, ![E, C]⟩)
    (dG : GatherDims ⟨2, ![N, C]⟩ ⟨2, ![E, 1]⟩ ⟨2, ![E, C]⟩) (z : Mat N C)
    (scol dcol : IVec ⟨2, ![E, 1]⟩ 32) (hs : Mat N C) : Mat N C :=
  Host.scatterAdd (F := Ideal) (φ := .f32) dS z dcol (Host.gather dG hs scol)

/-- The reference's aggregation: every gathered row times its edge's weight d[src e] · d[dst e], added up at the
    destinations, from z. The destination's factor is gathered through the column dwrap. -/
def aggWeighted {N E C : ℕ} (dS : ScatterDims ⟨2, ![N, C]⟩ ⟨2, ![E, 1]⟩ ⟨2, ![E, C]⟩)
    (dG : GatherDims ⟨2, ![N, C]⟩ ⟨2, ![E, 1]⟩ ⟨2, ![E, C]⟩) (dg : GatherDims ⟨1, ![N]⟩ ⟨2, ![E, 1]⟩ ⟨1, ![E]⟩)
    (z : Mat N C) (scol dcol dwrap : IVec ⟨2, ![E, 1]⟩ 32) (d : Row N) (H : Mat N C) : Mat N C :=
  Host.scatterAdd (F := Ideal) (φ := .f32) dS z dcol (fun j => Host.gather dG H scol j
    * (Host.gather dg d scol (ix1 (j 0)) * Host.gather dg d dwrap (ix1 (j 0))))

/-! ## The node embeddings, as each program arranges them -/

/-- A kernel layer's prologue: the dense product of relu(agg · d + b) with W, scaled by d. -/
def fused {n k c : ℕ} (agg : Mat n k) (d : Row n) (b : Row k) (w : Mat k c) : Mat n c :=
  scaleRows (dense (relu (addBias (scaleRows agg d) b)) w) d

/-- The node embeddings as the kernel computes them: three layers with the factor d split around each aggregation,
    then the rows normalised. The aggregations are given as functions (of width 128, 128 and 64). -/
def embSplit (x : Mat 50000 128) (W1 : Mat 128 128) (b1 : Row 128) (W2 : Mat 128 128) (b2 : Row 128)
    (W3 : Mat 128 64) (b3 : Row 64) (d : Row 50000)
    (A1 A2 : Mat 50000 128 → Mat 50000 128) (A3 : Mat 50000 64 → Mat 50000 64) : Mat 50000 64 :=
  normRows (addBias (scaleRows (A3 (fused (A2 (fused (A1 (scaleRows (dense x W1) d)) d b1 W2)) d b2 W3)) d) b3)

/-- The node embeddings as the reference computes them: three layers with the edge weights inside each
    aggregation, then the rows normalised. -/
def embEdge (x : Mat 50000 128) (W1 : Mat 128 128) (b1 : Row 128) (W2 : Mat 128 128) (b2 : Row 128)
    (W3 : Mat 128 64) (b3 : Row 64)
    (R1 R2 : Mat 50000 128 → Mat 50000 128) (R3 : Mat 50000 64 → Mat 50000 64) : Mat 50000 64 :=
  normRows (addBias (R3 (dense (relu (addBias (R2 (dense (relu (addBias (R1 (dense x W1)) b1)) W2)) b2)) W3)) b3)

/-! ## The target branch -/

/-- The target embeddings: batch normalisation of the column y over its 256 entries, a dense layer 1 → 128 with
    relu, a dense layer 128 → 64, the rows normalised. -/
def target (y : Mat 256 1) (g be : Row 1) (Wm1 : Mat 1 128) (bm1 : Row 128) (Wm2 : Mat 128 64) (bm2 : Row 64) :
    Mat 256 64 :=
  let mu : EReal := Ideal.div (∑ i : Fin 256, y (ix2 i (0 : Fin 1))) c256
  let var : EReal := Ideal.div (∑ i : Fin 256, (y (ix2 i (0 : Fin 1)) - mu) * (y (ix2 i (0 : Fin 1)) - mu)) c256
  let yb : Mat 256 1 := fun j => (y j - mu) * Ideal.rsqrt (var + eps5) * g (ix1 (0 : Fin 1)) + be (ix1 (0 : Fin 1))
  normRows (addBias (dense (relu (addBias (dense yb Wm1) bm1)) Wm2) bm2)

end Cert.GCN

end
-- ==== Proof.KernelRunDefs.lean ====
/-
  The values the program's host operations compute from the edge list, and the node embeddings the whole program
  leaves, as functions of the launch arrays.

  The edge list  ei  has a row of source nodes and a row of destination nodes, 800000 of each; a self loop per node is
  appended to both (the iota 0 .. 49999), giving 850000 edges. The in-degree of a node is the number of edges landing
  on it, computed by adding the float 1 at every destination; the factor  d  of a node is the inverse square root of
  its degree where that is positive and zero elsewhere. The source column is wrapped (a negative index has 50000
  added) before it is used to gather; the destination column is used as it is to scatter.
-/
import proofs.«133735_j11390253269678_2_alg».proof.Proof.Gen.KernelIdeal.Frame
import proofs.«133735_j11390253269678_2_alg».proof.Proof.Spec

noncomputable section

namespace Cert.GCN.Kern

open Idealize.ShloMosaic Idealize.ShloMosaic.ValueIdx
open Cert.KernelIdeal Cert.KernelIdeal.Facts₀ Cert.KernelIdeal.Facts Cert.GCN

/-- The source node of every edge: row 0 of the edge list, then one self loop per node. -/
def srcK (ei : IVec S2x800000 32) : IVec S850000 32 :=
  concatenate S850000 0
    [⟨S800000, shapeCast S800000 (extractStridedSlice S1x800000 ![0, 0] ei slices_S2x800000_S1x800000_0_0)
        shapeCasts_S1x800000_S800000⟩,
      ⟨S50000, iotaInDim S50000 32 0⟩]
    concatenates_S800000_S50000_S850000_d0

/-- The destination node of every edge: row 1 of the edge list, then one self loop per node. -/
def dstK (ei : IVec S2x800000 32) : IVec S850000 32 :=
  concatenate S850000 0
    [⟨S800000, shapeCast S800000 (extractStridedSlice S1x800000 ![1, 0] ei slices_S2x800000_S1x800000_1_0)
        shapeCasts_S1x800000_S800000⟩,
      ⟨S50000, iotaInDim S50000 32 0⟩]
    concatenates_S800000_S50000_S850000_d0

/-- A vector of edge endpoints as an [E, 1] index column. -/
def rawCol (s : IVec S850000 32) : IVec S850000x1 32 :=
  broadcastInDim S850000x1 ![0] bcast_S850000_S850000x1_0 s

/-- A vector of edge endpoints, a negative entry moved up by the node count, as an [E, 1] index column. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- The zero vector over the nodes. -/
def z1 : FVec Ideal S50000 .f32 := broadcastInDim S50000 ![] bcast_S_S50000 (constant (F := Ideal) S_ .f32 0x00000000#32)

/-- The in-degree of every node: 1 added at the destination of every edge, from zero. -/
def degK (ei : IVec S2x800000 32) : FVec Ideal S50000 .f32 :=
  Host.scatterAdd (F := Ideal) scatter_S50000_S850000x1_S850000_n_0_0_1 z1 (rawCol (dstK ei))
    (broadcastInDim S850000 ![] bcast_S_S850000 (constant (F := Ideal) S_ .f32 0x3F800000#32))

/-- The factor of every node: the inverse square root of its in-degree where that is positive, zero elsewhere. -/
def dK (ei : IVec S2x800000 32) : Row 50000 :=
  (select (cmpf .ogt (degK ei) z1) (Host.rsqrt (F := Ideal) (degK ei)) z1 : FVec Ideal S50000 .f32)

/-- The zero matrix the 128-wide aggregations start from. -/
def z128 : Mat 50000 128 := (broadcastInDim S50000x128 ![] bcast_S_S50000x128 (constant (F := Ideal) S_ .f32 0x00000000#32) : FVec Ideal S50000x128 .f32)
/-- The zero matrix the 64-wide aggregation starts from. -/
def z64 : Mat 50000 64 := (broadcastInDim S50000x64 ![] bcast_S_S50000x64 (constant (F := Ideal) S_ .f32 0x00000000#32) : FVec Ideal S50000x64 .f32)

/-- The 128-wide aggregation over the edges of  ei . -/
def agg128 (ei : IVec S2x800000 32) : Mat 50000 128 → Mat 50000 128 :=
  aggPlain scatter_S50000x128_S850000x1_S850000x128_1_0_0_1 gather_S50000x128_S850000x1_S850000x128_1_0_n_n_0_1_1128 z128
    (wrapCol (srcK ei)) (rawCol (dstK ei))
/-- The 64-wide aggregation over the edges of  ei . -/
def agg64 (ei : IVec S2x800000 32) : Mat 50000 64 → Mat 50000 64 :=
  aggPlain scatter_S50000x64_S850000x1_S850000x64_1_0_0_1 gather_S50000x64_S850000x1_S850000x64_1_0_n_n_0_1_164 z64
    (wrapCol (srcK ei)) (rawCol (dstK ei))

/-- The node embeddings the program leaves, from the node features, the edge list and the three layers' weights and
    biases. -/
def xK (x : Mat 50000 128) (ei : IVec S2x800000 32) (W1 : Mat 128 128) (b1 : Row 128) (W2 : Mat 128 128) (b2 : Row 128)
    (W3 : Mat 128 64) (b3 : Row 64) : Mat 50000 64 :=
  embSplit x W1 b1 W2 b2 W3 b3 (dK ei)
    (aggPlain scatter_S50000x128_S850000x1_S850000x128_1_0_0_1 gather_S50000x128_S850000x1_S850000x128_1_0_n_n_0_1_1128 z128
      (wrapCol (srcK ei)) (rawCol (dstK ei)))
    (aggPlain scatter_S50000x128_S850000x1_S850000x128_1_0_0_1 gather_S50000x128_S850000x1_S850000x128_1_0_n_n_0_1_1128 z128
      (wrapCol (srcK ei)) (rawCol (dstK ei)))
    (aggPlain scatter_S50000x64_S850000x1_S850000x64_1_0_0_1 gather_S50000x64_S850000x1_S850000x64_1_0_n_n_0_1_164 z64
      (wrapCol (srcK ei)) (rawCol (dstK ei)))

end Cert.GCN.Kern

end
-- ==== Proof.KernelRunHost.lean ====
/-
  What each stretch of host operations leaves in the buffers the regions and the later stretches read, as a function
  of the contents  X0  the stretch starts from: the fold of the stretch's operations read at one result buffer.
-/
import proofs.«133735_j11390253269678_2_alg».proof.Proof.KernelRunDefs

set_option maxRecDepth 16384

noncomputable section

namespace Cert.GCN.Kern

open Idealize.ShloMosaic Idealize.ShloMosaic.TcCoe Idealize.SL.Sem Idealize.ShloMosaic.ValueIdx
open Cert.KernelIdeal Cert.KernelIdeal.Facts₀ Cert.KernelIdeal.Facts Cert.KernelIdeal.Gen Cert.GCN

variable (X0 : Valuation τ sig (Elt Ideal))

/-! ## The first stretch: the edge endpoints and the in-degrees -/

theorem h0_v3 : StableHlo.after (hostOps0 (F := Ideal)) X0 (Proc.devRef .tc main_v3) = srcK (X0 (Proc.devRef .tc main_arg2)) := by
  after_results; rfl
theorem h0_v6 : StableHlo.after (hostOps0 (F := Ideal)) X0 (Proc.devRef .tc main_v6) = dstK (X0 (Proc.devRef .tc main_arg2)) := by
  after_results; rfl
theorem h0_v12 : StableHlo.after (hostOps0 (F := Ideal)) X0 (Proc.devRef .tc main_v12)
    = cmpf .ogt (degK (X0 (Proc.devRef .tc main_arg2))) z1 := by
  after_results; rfl
theorem h0_v13 : StableHlo.after (hostOps0 (F := Ideal)) X0 (Proc.devRef .tc main_v13)
    = Host.rsqrt (F := Ideal) (degK (X0 (Proc.devRef .tc main_arg2))) := by
  after_results; rfl
theorem h0_cst2 : StableHlo.after (hostOps0 (F := Ideal)) X0 (Proc.devRef .tc main_cst_2)
    = constant (F := Ideal) S_ .f32 0x00000000#32 := by
  after_results

/-! ## The select and the reshape in front of region 0 -/

theorem h01_v14 : StableHlo.after (hostOps0_1 (F := Ideal)) X0 (Proc.devRef .tc main_v14)
    = select (X0 (Proc.devRef .tc main_v12)) (X0 (Proc.devRef .tc main_v13))
        (broadcastInDim S50000 ![] Facts₀.bcast_S_S50000 (X0 (Proc.devRef .tc main_cst_2))) := by
  after_results; rfl
theorem h02_v15 : StableHlo.after (hostOps0_2 (F := Ideal)) X0 (Proc.devRef .tc main_v15)
    = shapeCast S50000x1 (X0 (Proc.devRef .tc main_v14)) Facts₀.shapeCasts_S50000_S50000x1 := by
  after_results; rfl

/-! ## The stretch in front of region 1 -/

set_option maxHeartbeats 1000000 in
theorem h1_v26 : StableHlo.after (hostOps1 (F := Ideal)) X0 (Proc.devRef .tc main_v26)
    = aggPlain scatter_S50000x128_S850000x1_S850000x128_1_0_0_1 gather_S50000x128_S850000x1_S850000x128_1_0_n_n_0_1_1128 z128
        (wrapCol (X0 (Proc.devRef .tc main_v3))) (rawCol (X0 (Proc.devRef .tc main_v6))) (X0 (Proc.devRef .tc main_v16)) := by
  after_results; rfl
theorem h1_v27 : StableHlo.after (hostOps1 (F := Ideal)) X0 (Proc.devRef .tc main_v27)
    = shapeCast S50000x1 (X0 (Proc.devRef .tc main_v14)) Facts₀.shapeCasts_S50000_S50000x1 := by
  after_results; rfl
theorem h1_v28 : StableHlo.after (hostOps1 (F := Ideal)) X0 (Proc.devRef .tc main_v28)
    = shapeCast S1x128 (X0 (Proc.devRef .tc main_arg4)) Facts₀.shapeCasts_S128_S1x128 := by
  after_results; rfl

/-! ## The stretch in front of region 2 -/

set_option maxHeartbeats 1000000 in
theorem h2_v39 : StableHlo.after (hostOps2 (F := Ideal)) X0 (Proc.devRef .tc main_v39)
    = aggPlain scatter_S50000x128_S850000x1_S850000x128_1_0_0_1 gather_S50000x128_S850000x1_S850000x128_1_0_n_n_0_1_1128 z128
        (wrapCol (X0 (Proc.devRef .tc main_v3))) (rawCol (X0 (Proc.devRef .tc main_v6))) (X0 (Proc.devRef .tc main_v29)) := by
  after_results; rfl
theorem h2_v40 : StableHlo.after (hostOps2 (F := Ideal)) X0 (Proc.devRef .tc main_v40)
    = shapeCast S50000x1 (X0 (Proc.devRef .tc main_v14)) Facts₀.shapeCasts_S50000_S50000x1 := by
  after_results; rfl
theorem h2_v41 : StableHlo.after (hostOps2 (F := Ideal)) X0 (Proc.devRef .tc main_v41)
    = shapeCast S1x128 (X0 (Proc.devRef .tc main_arg6)) Facts₀.shapeCasts_S128_S1x128 := by
  after_results; rfl

/-! ## The stretch in front of region 3 -/

set_option maxHeartbeats 1000000 in
theorem h3_v52 : StableHlo.after (hostOps3 (F := Ideal)) X0 (Proc.devRef .tc main_v52)
    = aggPlain scatter_S50000x64_S850000x1_S850000x64_1_0_0_1 gather_S50000x64_S850000x1_S850000x64_1_0_n_n_0_1_164 z64
        (wrapCol (X0 (Proc.devRef .tc main_v3))) (rawCol (X0 (Proc.devRef .tc main_v6))) (X0 (Proc.devRef .tc main_v42)) := by
  after_results; rfl
theorem h3_v53 : StableHlo.after (hostOps3 (F := Ideal)) X0 (Proc.devRef .tc main_v53)
    = shapeCast S50000x1 (X0 (Proc.devRef .tc main_v14)) Facts₀.shapeCasts_S50000_S50000x1 := by
  after_results; rfl
theorem h3_v54 : StableHlo.after (hostOps3 (F := Ideal)) X0 (Proc.devRef .tc main_v54)
    = shapeCast S1x64 (X0 (Proc.devRef .tc main_arg8)) Facts₀.shapeCasts_S64_S1x64 := by
  after_results; rfl

/-! ## The stretch in front of region 4 -/

theorem h4_v56 : StableHlo.after (hostOps4 (F := Ideal)) X0 (Proc.devRef .tc main_v56)
    = shapeCast S1x1 (X0 (Proc.devRef .tc main_arg9)) Facts₀.shapeCasts_S1_S1x1 := by
  after_results; rfl
theorem h4_v57 : StableHlo.after (hostOps4 (F := Ideal)) X0 (Proc.devRef .tc main_v57)
    = shapeCast S1x1 (X0 (Proc.devRef .tc main_arg10)) Facts₀.shapeCasts_S1_S1x1 := by
  after_results; rfl
theorem h4_v58 : StableHlo.after (hostOps4 (F := Ideal)) X0 (Proc.devRef .tc main_v58)
    = shapeCast S1x128 (X0 (Proc.devRef .tc main_arg12)) Facts₀.shapeCasts_S128_S1x128 := by
  after_results; rfl
theorem h4_v59 : StableHlo.after (hostOps4 (F := Ideal)) X0 (Proc.devRef .tc main_v59)
    = shapeCast S1x64 (X0 (Proc.devRef .tc main_arg14)) Facts₀.shapeCasts_S64_S1x64 := by
  after_results; rfl

end Cert.GCN.Kern

end
-- ==== Proof.LibPlainMatmul.lean ====
/-
  A plain matrix product into a zero accumulator, read at an entry, for any extents.

  For an [M, K] left operand and a [K, N] right operand contracted row by column (left axis 1 against right axis 0,
  no batch axes), on the extended reals, entry (r, e) of the product accumulated into the zero matrix is
  ∑ k < K, lhs[r, k] · rhs[k, e]: the accumulator contributes 0 + _, and the contraction's one-axis index is its one
  coordinate. The dimension record may be any record equal to the plain one (a program's own record differs from it
  only in the proof it carries), which is how the lemma is applied to a printed product.
-/
import Idealize.ShloMosaic.Lib.ValueIdx
import Idealize.ShloMosaic.PureOps.Ideal.Laws

noncomputable section

namespace Idealize.ShloMosaic.ValueIdx

open Idealize.ShloMosaic

/-- Entry (r, e) of a plain [M, K] × [K, N] product into the zero accumulator is ∑ k, lhs[r, k] · rhs[k, e]. -/
theorem matmul_plain_zero_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    FloatOps.matmul d prec lhs rhs (constant ⟨2, ![M, N]⟩ .f32 0x00000000#32) (ix2 r e)
      = ∑ k : Fin K, lhs (ix2 r k) * rhs (ix2 k e) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

end Idealize.ShloMosaic.ValueIdx

end
-- ==== Proof.LibKeepdims.lean ====
/-
  A sum along the rows of a matrix, kept as a column and spread back over the columns, read at an index.

  `jnp.sum(x, axis=-1, keepdims=True) + y` for an `[a, b]` matrix `x` and an `[a, c]` matrix `y` is three vector
  operations: a reduction `[a, b] → [a]` over the last axis, a cast `[a] → [a, 1]` that makes the sums a column, and
  a broadcast `[a, 1] → [a, c]` that repeats the column along every row.  Read at `(i, j)` the three compose to
  `Σ_f x[i, f]`: the result does not depend on `j`.  The three lemmas below read one operation each at an index
  written by its coordinates, for any extents `a`, `b`, `c` and any element type.
-/
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- A vector `[a]` cast to a column `[a, 1]` reads, at `(i, u)`, the vector at `i`, whatever the unit coordinate
    `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, c]` reads, at `(i, j)`, the column's entry of row `i`. -/
theorem broadcastTo_a1_ac_apply {a c : ℕ} (v : (⟨2, ![a, 1]⟩ : Shape).Idx → α) (h : (⟨2, ![a, 1]⟩ : Shape).Broadcasts ⟨2, ![a, c]⟩)
    (i : Fin a) (j : Fin c) : broadcastTo ⟨2, ![a, c]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ =>
    show 0 = if (1 : ℕ) = 1 then 0 else j.val
    rw [if_pos rfl]

/-- On the extended reals a float sum over the last axis of an `[a, b]` matrix reads, at row `i`, the sum of that
    row's entries: the index over `i` with coordinate `f` put back on the summed axis is `(i, f)`. -/
theorem multiReduction_add_lastAxis_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ f : Fin b, src (ix2 i f) := by
  refine (Ideal.multiReduction_add_single src acc h hφ hacc (ix1 i)).trans ?_
  exact Finset.sum_congr rfl fun f _ => congrArg src (funext fun d => Fin.ext (by
    match d with
    | ⟨0, _⟩ => rfl
    | ⟨1, _⟩ => rfl))

/-- The three composed: the row sums of `x`, kept as a column and broadcast to `c` columns, read `Σ_f x[i, f]` at
    every `(i, j)`. -/
theorem rowSum_keepdims_broadcast_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hc : (⟨1, ![a]⟩ : Shape).ShapeCasts ⟨2, ![a, 1]⟩) (hb : (⟨2, ![a, 1]⟩ : Shape).Broadcasts ⟨2, ![a, c]⟩)
    (i : Fin a) (j : Fin c) :
    broadcastTo ⟨2, ![a, c]⟩ (shapeCast ⟨2, ![a, 1]⟩ (multiReduction .add [1] ⟨1, ![a]⟩ src acc h hφ hacc) hc) hb (ix2 i j)
      = ∑ f : Fin b, src (ix2 i f) :=
  (broadcastTo_a1_ac_apply _ hb i j).trans
    ((shapeCast_a_a1_apply _ hc i 0).trans (multiReduction_add_lastAxis_apply src acc h hφ hacc i))

end Cert.LibKeepdims

end
-- ==== Proof.RegionsDense0.lean ====
/-
  Region 0, the first dense layer: the array it leaves is (x · W) with row r multiplied by the factor d[r].

  The grid has 10 points. Point t works on rows 5000 t .. 5000 t + 4999: it reads those rows of x and of the
  column d, the whole of W, and writes those rows of the result. Entry (r, e) of a block is
  (∑ k, x[5000 t + r, k] · W[k, e]) · d[5000 t + r], which is entry (5000 t + r, e) of the one function of the whole
  arrays on the right; the ten blocks tile the 50000 rows, so the array ends holding that function.
-/
import proofs.«133735_j11390253269678_2_alg».proof.Proof.Gen.KernelIdeal.Frame
import proofs.«133735_j11390253269678_2_alg».proof.Proof.Spec
import proofs.«133735_j11390253269678_2_alg».proof.Proof.LibPlainMatmul
import proofs.«133735_j11390253269678_2_alg».proof.Proof.LibKeepdims
import Idealize.ShloMosaic.Lib.Pipeline.Value
import Idealize.ShloMosaic.Lib.ValueLayout

noncomputable section

namespace Cert.GCN.RegionsDense0

open Idealize.ShloMosaic Idealize.ShloMosaic.TcCoe Idealize.SL.Sem Idealize.ShloMosaic.ValueIdx
open Cert.KernelIdeal Cert.KernelIdeal.Gen Cert.GCN

/-- The zero offsets of a whole-buffer access, as a constant function. -/
theorem hz : (![0, 0] : Fin 2 → Nat) = fun _ => 0 := funext fun a => by fin_cases a <;> rfl

/-! ## The body's arithmetic at an entry -/

/-- Entry (r, e) of the body's result: the product row of x against column e of W, times the factor of row r.
    The change of float format is the identity on the extended reals, the product into the zero accumulator is the
    plain sum, and the column [5000, 1] spread over the 128 lanes reads its row's one entry. -/
theorem pay_apply (x0 : Vec Ideal S5000x128 .f32) (x1 : Vec Ideal S128x128 .f32) (x2 : Vec Ideal S5000x1 .f32)
    (r : Fin 5000) (e : Fin 128) :
    k0_pay1 (F := Ideal) x0 x1 x2 (ix2 r e) = (∑ k : Fin 128, x0 (ix2 r k) * x1 (ix2 k e)) * x2 (ix2 r (0 : Fin 1)) := by
  unfold k0_pay1
  have h1 := matmul_plain_zero_apply dot_S5000x128_S128x128_S5000x128_1_0_0_1_n_n rfl none
    (truncf .bf16 x0 bitsLt_bf16_f32) (truncf .bf16 x1 bitsLt_bf16_f32) r e
  have h2 := (Cert.LibKeepdims.broadcastTo_a1_ac_apply (shapeCast S5000x1 x2 shapeCasts_S5000x1_S5000x1) broadcasts_S5000x1_S5000x128 r e).trans
    (congrFun (shapeCast_self x2 shapeCasts_S5000x1_S5000x1) (ix2 r (0 : Fin 1)))
  exact congrArg₂ (· * ·) h1 h2

/-- A block of the result is a block of the whole-array function: if the three blocks the body reads are rows
    5000 q .. 5000 q + 4999 of A0, the whole of A1, and the same rows of the column A2, then entry y of the body's
    result is entry i of scaleRows (dense A0 A1) (colOf A2) whenever i is y moved down by 5000 q rows. -/
theorem block_apply (A0 : Mat 50000 128) (A1 : Mat 128 128) (A2 : Mat 50000 1)
    (x0 : Vec Ideal S5000x128 .f32) (x1 : Vec Ideal S128x128 .f32) (x2 : Vec Ideal S5000x1 .f32) (q : ℕ)
    (h0 : ∀ (y : S5000x128.Idx) (i : S50000x128.Idx), (i 0).val = 5000 * q + (y 0).val → (i 1).val = (y 1).val → x0 y = A0 i)
    (h1 : ∀ y : S128x128.Idx, x1 y = A1 y)
    (h2 : ∀ (y : S5000x1.Idx) (i : S50000x1.Idx), (i 0).val = 5000 * q + (y 0).val → x2 y = A2 i)
    (y : S5000x128.Idx) (i : S50000x128.Idx) (hi0 : (i 0).val = 5000 * q + (y 0).val) (hi1 : (i 1).val = (y 1).val) :
    k0_pay1 (F := Ideal) x0 x1 x2 y = scaleRows (dense A0 A1) (colOf A2) i := by
  obtain ⟨r, e, rfl⟩ : ∃ (r : Fin 5000) (e : Fin 128), y = ix2 r e := ⟨y 0, y 1, eq_ix2 y⟩
  refine (pay_apply x0 x1 x2 r e).trans ?_
  show _ = (∑ k : Fin 128, A0 (ix2 (i 0) k) * A1 (ix2 k (i 1))) * A2 (ix2 (i 0) (0 : Fin 1))
  have e1 : (i 1 : Fin 128) = e := Fin.ext hi1
  refine congrArg₂ (· * ·) (Finset.sum_congr rfl fun k _ => congrArg₂ (· * ·) (h0 _ _ hi0 rfl) ((h1 _).trans ?_)) (h2 _ _ hi0)
  rw [e1]

/-! ## The blocks the body reads, and the block it writes -/

variable (V : (c : Dev nD) → (b : Ref sig .tc) → Buf (Elt Ideal) ((c : Thread nD τ).loc b))

/-- The block indices over the grid: the row-blocked windows are at block (t, 0), the weight at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- The block of x at point t is rows 5000 t .. 5000 t + 4999 of x. -/
theorem iblk_x_apply (c : Dev nD) (t : Fin cfg0.N) (y : S5000x128.Idx) (i : S50000x128.Idx)
    (h0 : (i 0).val = 5000 * t.val + (y 0).val) (h1 : (i 1).val = (y 1).val) :
    (iblk0 (F := Ideal) V c 0 t : Vec Ideal S5000x128 .f32) y = (V c main_arg0 : S50000x128.Idx → EReal) i := by
  obtain ⟨e0, e1, -⟩ := idx_facts t
  unfold iblk0
  rw [View.read_apply]
  show V c main_arg0 _ = V c main_arg0 _
  refine congrArg _ (funext fun a => Fin.ext ?_)
  match a with
  | ⟨0, _⟩ => show win0_0.index t 0 * 5000 + 1 * (y 0).val = (i 0).val; rw [e0, h0]; omega
  | ⟨1, _⟩ => show win0_0.index t 1 * 128 + 1 * (y 1).val = (i 1).val; rw [e1, h1]; omega

/-- The block of W at every point is the whole of W. -/
theorem iblk_w_apply (c : Dev nD) (t : Fin cfg0.N) (y : S128x128.Idx) :
    (iblk0 (F := Ideal) V c 1 t : Vec Ideal S128x128 .f32) y = (V c main_arg3 : S128x128.Idx → EReal) y := by
  obtain ⟨-, -, e0, e1, -⟩ := idx_facts t
  unfold iblk0
  rw [View.read_apply]
  show V c main_arg3 _ = V c main_arg3 _
  refine congrArg _ (funext fun a => Fin.ext ?_)
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- The block of the column d at point t is rows 5000 t .. 5000 t + 4999 of d. -/
theorem iblk_d_apply (c : Dev nD) (t : Fin cfg0.N) (y : S5000x1.Idx) (i : S50000x1.Idx)
    (h0 : (i 0).val = 5000 * t.val + (y 0).val) :
    (iblk0 (F := Ideal) V c 2 t : Vec Ideal S5000x1 .f32) y = (V c main_v15 : S50000x1.Idx → EReal) i := by
  obtain ⟨-, -, -, -, e0, e1, -⟩ := idx_facts t
  unfold iblk0
  rw [View.read_apply]
  show V c main_v15 _ = V c main_v15 _
  refine congrArg _ (funext fun a => Fin.ext ?_)
  match a with
  | ⟨0, _⟩ => show win0_2.index t 0 * 5000 + 1 * (y 0).val = (i 0).val; rw [e0, h0]; omega
  | ⟨1, _⟩ =>
    show win0_2.index t 1 * 1 + 1 * (y 1).val = (i 1).val
    have hy : (y 1).val < 1 := (y 1).isLt
    have hi : (i 1).val < 1 := (i 1).isLt
    rw [e1]; omega

/-- What point t writes back is block t of the whole-array function. -/
theorem flushed_eq (c : Dev nD) (t : Fin cfg0.N) :
    (dat0 (F := Ideal) V c).flushed 3 t = ((cfg0.win 3).blk t).view.read (Elt Ideal)
      (scaleRows (dense (V c main_arg0) (V c main_arg3)) (colOf (V c main_v15))) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S5000x1) hz]
  obtain ⟨-, -, -, -, -, -, e0, e1⟩ := idx_facts t
  funext j
  show k0_pay1 (F := Ideal) (iblk0 V c 0 t) (iblk0 V c 1 t) (iblk0 V c 2 t) j
    = scaleRows (dense (V c main_arg0) (V c main_arg3)) (colOf (V c main_v15)) (((cfg0.win 3).blk t).view.emb j)
  refine block_apply (V c main_arg0) (V c main_arg3) (V c main_v15) (iblk0 V c 0 t) (iblk0 V c 1 t) (iblk0 V c 2 t) t.val
    (fun y i h0 h1 => iblk_x_apply V c t y i h0 h1) (fun y => iblk_w_apply V c t y) (fun y i h0 => iblk_d_apply V c t y i h0)
    j (((cfg0.win 3).blk t).view.emb j) ?_ ?_
  · show win0_3.index t 0 * 5000 + 1 * (j 0).val = 5000 * t.val + (j 0).val
    rw [e0]; omega
  · show win0_3.index t 1 * 128 + 1 * (j 1).val = (j 1).val
    rw [e1]; omega

/-! ## The ten blocks tile the array -/

/-- An index of the array is in point t's block iff each coordinate is in the block's range on its axis. -/
theorem mem_blk (t : Fin cfg0.N) (i : S50000x128.Idx) :
    i ∈ ((cfg0.win 3).blk t).view.set ↔ ∀ a : Fin 2, win0_3.index t a * S5000x128.size a ≤ (i a).val
      ∧ (i a).val < win0_3.index t a * S5000x128.size a + S5000x128.size a := by
  show i ∈ ((View.whole main_v16).slice (win0_3.rect t)).set ↔ _
  rw [View.set_slice_whole, Rect.mem_set_unit]
  exact Iff.rfl

/-- Row r of the array is in the block of point r / 5000. -/
theorem cover (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  refine ⟨t, flush0_3 t, ?_⟩
  obtain ⟨-, -, -, -, -, -, e0, e1⟩ := idx_facts t
  rw [mem_blk]
  intro a
  match a with
  | ⟨0, _⟩ =>
    show win0_3.index t 0 * 5000 ≤ (i 0).val ∧ (i 0).val < win0_3.index t 0 * 5000 + 5000
    rw [e0, ht]; omega
  | ⟨1, _⟩ =>
    show win0_3.index t 1 * 128 ≤ (i 1).val ∧ (i 1).val < win0_3.index t 1 * 128 + 128
    rw [e1]; omega

/-- The array region 0 leaves: (x · W) with row r scaled by the factor of node r. -/
theorem value (c : Dev nD) :
    (dat0 (F := Ideal) V c).arrAt 3 cfg0.N = scaleRows (dense (V c main_arg0) (V c main_arg3)) (colOf (V c main_v15)) :=
  (dat0 (F := Ideal) V c).arrAt_eq_of_cover 3 _ (fun t _ => flushed_eq V c t) (cover)

end Cert.GCN.RegionsDense0

end
-- ==== Proof.RegionsDense1.lean ====
/-
  Region 1, a dense layer behind an aggregation (width 128): the array it leaves is relu(agg · d + b) · W with row r
  multiplied by the factor d[r].

  The grid has 10 points. Point t works on rows 5000 t .. 5000 t + 4999: it reads those rows of the aggregated
  array and of the column d, the whole bias row b and the whole of W, and writes those rows of the result. Entry
  (r, e) of a block is (∑ k, max (agg[5000 t + r, k] · d[5000 t + r] + b[k]) 0 · W[k, e]) · d[5000 t + r], which is
  entry (5000 t + r, e) of the one function of the whole arrays on the right; the ten blocks tile the 50000 rows, so
  the array ends holding that function.
-/
import proofs.«133735_j11390253269678_2_alg».proof.Proof.Gen.KernelIdeal.Frame
import proofs.«133735_j11390253269678_2_alg».proof.Proof.Spec
import proofs.«133735_j11390253269678_2_alg».proof.Proof.LibPlainMatmul
import proofs.«133735_j11390253269678_2_alg».proof.Proof.LibKeepdims
import Idealize.ShloMosaic.Lib.Pipeline.Value
import Idealize.ShloMosaic.Lib.ValueLayout

noncomputable section

namespace Cert.GCN.RegionsDense1

open Idealize.ShloMosaic Idealize.ShloMosaic.TcCoe Idealize.SL.Sem Idealize.ShloMosaic.ValueIdx
open Cert.KernelIdeal Cert.KernelIdeal.Gen Cert.GCN

/-- The zero offsets of a whole-buffer access, as a constant function. -/
theorem hz : (![0, 0] : Fin 2 → Nat) = fun _ => 0 := funext fun a => by fin_cases a <;> rfl

/-! ## The body's arithmetic at an entry -/

/-- Entry (r, k) of the hidden block: the maximum with zero of agg[r, k] · d[r] + b[k]. The casts to the same shape
    are the identity, the column [5000, 1] spread over the lanes reads its row's one entry, the row [1, 128] spread
    over the rows reads its column's one entry, and the splat of the zero word is 0. -/
theorem hidden_apply (x0 : Vec Ideal S5000x128 .f32) (x1 : Vec Ideal S5000x1 .f32) (x2 : Vec Ideal S1x128 .f32)
    (r : Fin 5000) (k : Fin 128) :
    (truncf .bf16 (maximumf (addf (mulf (shapeCast S5000x128 x0 shapeCasts_S5000x128_S5000x128)
        (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
        (broadcast S5000x128 (Scalar.ofBits (F := Ideal) .f32 0x00000000#32))) bitsLt_bf16_f32 : FVec Ideal S5000x128 .bf16) (ix2 r k)
      = max (x0 (ix2 r k) * x1 (ix2 r (0 : Fin 1)) + x2 (ix2 (0 : Fin 1) k)) 0 := by
  have hA : shapeCast S5000x128 x0 shapeCasts_S5000x128_S5000x128 (ix2 r k) = x0 (ix2 r k) :=
    congrFun (shapeCast_self x0 shapeCasts_S5000x128_S5000x128) (ix2 r k)
  have hB : broadcastTo S5000x128 (shapeCast S5000x1 x1 shapeCasts_S5000x1_S5000x1) broadcasts_S5000x1_S5000x128 (ix2 r k)
      = x1 (ix2 r (0 : Fin 1)) :=
    (Cert.LibKeepdims.broadcastTo_a1_ac_apply (shapeCast S5000x1 x1 shapeCasts_S5000x1_S5000x1) broadcasts_S5000x1_S5000x128 r k).trans
      (congrFun (shapeCast_self x1 shapeCasts_S5000x1_S5000x1) (ix2 r (0 : Fin 1)))
  have hC : broadcastTo S5000x128 (shapeCast S1x128 x2 shapeCasts_S1x128_S1x128) broadcasts_S1x128_S5000x128 (ix2 r k)
      = x2 (ix2 (0 : Fin 1) k) :=
    (broadcastTo_1b_ab_apply (shapeCast S1x128 x2 shapeCasts_S1x128_S1x128) broadcasts_S1x128_S5000x128 r k).trans
      (congrFun (shapeCast_self x2 shapeCasts_S1x128_S1x128) (ix2 (0 : Fin 1) k))
  exact congrArg₂ max (congrArg₂ (· + ·) (congrArg₂ (· * ·) hA hB) hC) Ideal.ofBits_zero_f32

/-- Entry (r, e) of the body's result: the hidden row against column e of W, times the factor of row r. The
    product into the zero accumulator is the plain sum. -/
theorem pay_apply (x0 : Vec Ideal S5000x128 .f32) (x1 : Vec Ideal S5000x1 .f32) (x2 : Vec Ideal S1x128 .f32)
    (x3 : Vec Ideal S128x128 .f32) (x4 : Vec Ideal S5000x1 .f32) (r : Fin 5000) (e : Fin 128) :
    k1_pay1 (F := Ideal) x0 x1 x2 x3 x4 (ix2 r e)
      = (∑ k : Fin 128, max (x0 (ix2 r k) * x1 (ix2 r (0 : Fin 1)) + x2 (ix2 (0 : Fin 1) k)) 0 * x3 (ix2 k e))
        * x4 (ix2 r (0 : Fin 1)) := by
  unfold k1_pay1
  have h1 := matmul_plain_zero_apply dot_S5000x128_S128x128_S5000x128_1_0_0_1_n_n rfl none
    (truncf .bf16 (maximumf (addf (mulf (shapeCast S5000x128 x0 shapeCasts_S5000x128_S5000x128)
        (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
        (broadcast S5000x128 (Scalar.ofBits (F := Ideal) .f32 0x00000000#32))) bitsLt_bf16_f32)
    (truncf .bf16 x3 bitsLt_bf16_f32) r e
  have h2 := (Cert.LibKeepdims.broadcastTo_a1_ac_apply (shapeCast S5000x1 x4 shapeCasts_S5000x1_S5000x1) broadcasts_S5000x1_S5000x128 r e).trans
    (congrFun (shapeCast_self x4 shapeCasts_S5000x1_S5000x1) (ix2 r (0 : Fin 1)))
  refine (congrArg₂ (· * ·) h1 h2).trans ?_
  refine congrArg (· * x4 (ix2 r (0 : Fin 1))) (Finset.sum_congr rfl fun k _ => congrArg (· * x3 (ix2 k e)) ?_)
  exact hidden_apply x0 x1 x2 r k

/-- A block of the result is a block of the whole-array function: if the blocks the body reads are rows
    5000 q .. 5000 q + 4999 of A0 and of the column A1, the whole bias row A2 and the whole weight A3, then entry y of
    the body's result is entry i of fused A0 (colOf A1) (rowOf A2) A3 whenever i is y moved down by 5000 q rows. -/
theorem block_apply (A0 : Mat 50000 128) (A1 : Mat 50000 1) (A2 : Mat 1 128) (A3 : Mat 128 128)
    (x0 : Vec Ideal S5000x128 .f32) (x1 : Vec Ideal S5000x1 .f32) (x2 : Vec Ideal S1x128 .f32) (x3 : Vec Ideal S128x128 .f32) (q : ℕ)
    (h0 : ∀ (y : S5000x128.Idx) (i : S50000x128.Idx), (i 0).val = 5000 * q + (y 0).val → (i 1).val = (y 1).val → x0 y = A0 i)
    (h1 : ∀ (y : S5000x1.Idx) (i : S50000x1.Idx), (i 0).val = 5000 * q + (y 0).val → x1 y = A1 i)
    (h2 : ∀ y : S1x128.Idx, x2 y = A2 y)
    (h3 : ∀ y : S128x128.Idx, x3 y = A3 y)
    (y : S5000x128.Idx) (i : S50000x128.Idx) (hi0 : (i 0).val = 5000 * q + (y 0).val) (hi1 : (i 1).val = (y 1).val) :
    k1_pay1 (F := Ideal) x0 x1 x2 x3 x1 y = fused A0 (colOf A1) (rowOf A2) A3 i := by
  obtain ⟨r, e, rfl⟩ : ∃ (r : Fin 5000) (e : Fin 128), y = ix2 r e := ⟨y 0, y 1, eq_ix2 y⟩
  refine (pay_apply x0 x1 x2 x3 x1 r e).trans ?_
  show _ = (∑ k : Fin 128, max (A0 (ix2 (i 0) k) * A1 (ix2 (i 0) (0 : Fin 1)) + A2 (ix2 (0 : Fin 1) k)) 0 * A3 (ix2 k (i 1)))
    * A1 (ix2 (i 0) (0 : Fin 1))
  have e1 : (i 1 : Fin 128) = e := Fin.ext hi1
  refine congrArg₂ (· * ·) (Finset.sum_congr rfl fun k _ => congrArg₂ (· * ·)
    (congrArg₂ max (congrArg₂ (· + ·) (congrArg₂ (· * ·) (h0 _ _ hi0 rfl) (h1 _ _ hi0)) (h2 _)) rfl) ((h3 _).trans ?_)) (h1 _ _ hi0)
  rw [e1]

/-! ## The blocks the body reads, and the block it writes -/

variable (V : (c : Dev nD) → (b : Ref sig .tc) → Buf (Elt Ideal) ((c : Thread nD τ).loc b))

/-- The block indices over the grid: the row-blocked windows are at block (t, 0), the bias row and the weight at
    block (0, 0). -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The block of the aggregated rows at point t is rows 5000 t .. 5000 t + 4999 of the array. -/
theorem iblk_agg_apply (c : Dev nD) (t : Fin cfg1.N) (y : S5000x128.Idx) (i : S50000x128.Idx)
    (h0 : (i 0).val = 5000 * t.val + (y 0).val) (h1 : (i 1).val = (y 1).val) :
    (iblk1 (F := Ideal) V c 0 t : Vec Ideal S5000x128 .f32) y = (V c main_v26 : S50000x128.Idx → EReal) i := by
  obtain ⟨e0, e1, -⟩ := idx_facts t
  unfold iblk1
  rw [View.read_apply]
  show V c main_v26 _ = V c main_v26 _
  refine congrArg _ (funext fun a => Fin.ext ?_)
  match a with
  | ⟨0, _⟩ => show win1_0.index t 0 * 5000 + 1 * (y 0).val = (i 0).val; rw [e0, h0]; omega
  | ⟨1, _⟩ => show win1_0.index t 1 * 128 + 1 * (y 1).val = (i 1).val; rw [e1, h1]; omega

/-- The block of the column d at point t is rows 5000 t .. 5000 t + 4999 of d. -/
theorem iblk_d_apply (c : Dev nD) (t : Fin cfg1.N) (y : S5000x1.Idx) (i : S50000x1.Idx)
    (h0 : (i 0).val = 5000 * t.val + (y 0).val) :
    (iblk1 (F := Ideal) V c 1 t : Vec Ideal S5000x1 .f32) y = (V c main_v27 : S50000x1.Idx → EReal) i := by
  obtain ⟨-, -, e0, e1, -⟩ := idx_facts t
  unfold iblk1
  rw [View.read_apply]
  show V c main_v27 _ = V c main_v27 _
  refine congrArg _ (funext fun a => Fin.ext ?_)
  match a with
  | ⟨0, _⟩ => show win1_1.index t 0 * 5000 + 1 * (y 0).val = (i 0).val; rw [e0, h0]; omega
  | ⟨1, _⟩ =>
    show win1_1.index t 1 * 1 + 1 * (y 1).val = (i 1).val
    have hy : (y 1).val < 1 := (y 1).isLt
    have hi : (i 1).val < 1 := (i 1).isLt
    rw [e1]; omega

/-- The block of the bias row at every point is the whole row. -/
theorem iblk_b_apply (c : Dev nD) (t : Fin cfg1.N) (y : S1x128.Idx) :
    (iblk1 (F := Ideal) V c 2 t : Vec Ideal S1x128 .f32) y = (V c main_v28 : S1x128.Idx → EReal) y := by
  obtain ⟨-, -, -, -, e0, e1, -⟩ := idx_facts t
  unfold iblk1
  rw [View.read_apply]
  show V c main_v28 _ = V c main_v28 _
  refine congrArg _ (funext fun a => Fin.ext ?_)
  match a with
  | ⟨0, _⟩ => show win1_2.index t 0 * 1 + 1 * (y 0).val = (y 0).val; rw [e0]; omega
  | ⟨1, _⟩ => show win1_2.index t 1 * 128 + 1 * (y 1).val = (y 1).val; rw [e1]; omega

/-- The block of W at every point is the whole of W. -/
theorem iblk_w_apply (c : Dev nD) (t : Fin cfg1.N) (y : S128x128.Idx) :
    (iblk1 (F := Ideal) V c 3 t : Vec Ideal S128x128 .f32) y = (V c main_arg5 : S128x128.Idx → EReal) y := by
  obtain ⟨-, -, -, -, -, -, e0, e1, -⟩ := idx_facts t
  unfold iblk1
  rw [View.read_apply]
  show V c main_arg5 _ = V c main_arg5 _
  refine congrArg _ (funext fun a => Fin.ext ?_)
  match a with
  | ⟨0, _⟩ => show win1_3.index t 0 * 128 + 1 * (y 0).val = (y 0).val; rw [e0]; omega
  | ⟨1, _⟩ => show win1_3.index t 1 * 128 + 1 * (y 1).val = (y 1).val; rw [e1]; omega

/-- What point t writes back is block t of the whole-array function. -/
theorem flushed_eq (c : Dev nD) (t : Fin cfg1.N) :
    (dat1 (F := Ideal) V c).flushed 4 t = ((cfg1.win 4).blk t).view.read (Elt Ideal)
      (fused (V c main_v26) (colOf (V c main_v27)) (rowOf (V c main_v28)) (V c main_arg5)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S5000x1) hz,
    View.ld_unit_zero (S := S1x128) hz]
  obtain ⟨-, -, -, -, -, -, -, -, e0, e1⟩ := idx_facts t
  funext j
  show k1_pay1 (F := Ideal) (iblk1 V c 0 t) (iblk1 V c 1 t) (iblk1 V c 2 t) (iblk1 V c 3 t) (iblk1 V c 1 t) j
    = fused (V c main_v26) (colOf (V c main_v27)) (rowOf (V c main_v28)) (V c main_arg5) (((cfg1.win 4).blk t).view.emb j)
  refine block_apply (V c main_v26) (V c main_v27) (V c main_v28) (V c main_arg5)
    (iblk1 V c 0 t) (iblk1 V c 1 t) (iblk1 V c 2 t) (iblk1 V c 3 t) t.val
    (fun y i h0 h1 => iblk_agg_apply V c t y i h0 h1) (fun y i h0 => iblk_d_apply V c t y i h0)
    (fun y => iblk_b_apply V c t y) (fun y => iblk_w_apply V c t y)
    j (((cfg1.win 4).blk t).view.emb j) ?_ ?_
  · show win1_4.index t 0 * 5000 + 1 * (j 0).val = 5000 * t.val + (j 0).val
    rw [e0]; omega
  · show win1_4.index t 1 * 128 + 1 * (j 1).val = (j 1).val
    rw [e1]; omega

/-! ## The ten blocks tile the array -/

/-- An index of the array is in point t's block iff each coordinate is in the block's range on its axis. -/
theorem mem_blk (t : Fin cfg1.N) (i : S50000x128.Idx) :
    i ∈ ((cfg1.win 4).blk t).view.set ↔ ∀ a : Fin 2, win1_4.index t a * S5000x128.size a ≤ (i a).val
      ∧ (i a).val < win1_4.index t a * S5000x128.size a + S5000x128.size a := by
  show i ∈ ((View.whole main_v29).slice (win1_4.rect t)).set ↔ _
  rw [View.set_slice_whole, Rect.mem_set_unit]
  exact Iff.rfl

/-- Row r of the array is in the block of point r / 5000. -/
theorem cover (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  refine ⟨t, flush1_4 t, ?_⟩
  obtain ⟨-, -, -, -, -, -, -, -, e0, e1⟩ := idx_facts t
  rw [mem_blk]
  intro a
  match a with
  | ⟨0, _⟩ =>
    show win1_4.index t 0 * 5000 ≤ (i 0).val ∧ (i 0).val < win1_4.index t 0 * 5000 + 5000
    rw [e0, ht]; omega
  | ⟨1, _⟩ =>
    show win1_4.index t 1 * 128 ≤ (i 1).val ∧ (i 1).val < win1_4.index t 1 * 128 + 128
    rw [e1]; omega

/-- The array the region leaves: relu(agg · d + b) · W with row r scaled by the factor of node r. -/
theorem value (c : Dev nD) :
    (dat1 (F := Ideal) V c).arrAt 4 cfg1.N
      = fused (V c main_v26) (colOf (V c main_v27)) (rowOf (V c main_v28)) (V c main_arg5) :=
  (dat1 (F := Ideal) V c).arrAt_eq_of_cover 4 _ (fun t _ => flushed_eq V c t) (cover)

end Cert.GCN.RegionsDense1

end
-- ==== Proof.RegionsDense2.lean ====
/-
  Region 2, a dense layer behind an aggregation (width 64): the array it leaves is relu(agg · d + b) · W with row r
  multiplied by the factor d[r].

  The grid has 10 points. Point t works on rows 5000 t .. 5000 t + 4999: it reads those rows of the aggregated
  array and of the column d, the whole bias row b and the whole of W, and writes those rows of the result. Entry
  (r, e) of a block is (∑ k, max (agg[5000 t + r, k] · d[5000 t + r] + b[k]) 0 · W[k, e]) · d[5000 t + r], which is
  entry (5000 t + r, e) of the one function of the whole arrays on the right; the ten blocks tile the 50000 rows, so
  the array ends holding that function.
-/
import proofs.«133735_j11390253269678_2_alg».proof.Proof.Gen.KernelIdeal.Frame
import proofs.«133735_j11390253269678_2_alg».proof.Proof.Spec
import proofs.«133735_j11390253269678_2_alg».proof.Proof.LibPlainMatmul
import proofs.«133735_j11390253269678_2_alg».proof.Proof.LibKeepdims
import Idealize.ShloMosaic.Lib.Pipeline.Value
import Idealize.ShloMosaic.Lib.ValueLayout

noncomputable section

namespace Cert.GCN.RegionsDense2

open Idealize.ShloMosaic Idealize.ShloMosaic.TcCoe Idealize.SL.Sem Idealize.ShloMosaic.ValueIdx
open Cert.KernelIdeal Cert.KernelIdeal.Gen Cert.GCN

/-- The zero offsets of a whole-buffer access, as a constant function. -/
theorem hz : (![0, 0] : Fin 2 → Nat) = fun _ => 0 := funext fun a => by fin_cases a <;> rfl

/-! ## The body's arithmetic at an entry -/

/-- Entry (r, k) of the hidden block: the maximum with zero of agg[r, k] · d[r] + b[k]. The casts to the same shape
    are the identity, the column [5000, 1] spread over the lanes reads its row's one entry, the row [1, 128] spread
    over the rows reads its column's one entry, and the splat of the zero word is 0. -/
theorem hidden_apply (x0 : Vec Ideal S5000x128 .f32) (x1 : Vec Ideal S5000x1 .f32) (x2 : Vec Ideal S1x128 .f32)
    (r : Fin 5000) (k : Fin 128) :
    (truncf .bf16 (maximumf (addf (mulf (shapeCast S5000x128 x0 shapeCasts_S5000x128_S5000x128)
        (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
        (broadcast S5000x128 (Scalar.ofBits (F := Ideal) .f32 0x00000000#32))) bitsLt_bf16_f32 : FVec Ideal S5000x128 .bf16) (ix2 r k)
      = max (x0 (ix2 r k) * x1 (ix2 r (0 : Fin 1)) + x2 (ix2 (0 : Fin 1) k)) 0 := by
  have hA : shapeCast S5000x128 x0 shapeCasts_S5000x128_S5000x128 (ix2 r k) = x0 (ix2 r k) :=
    congrFun (shapeCast_self x0 shapeCasts_S5000x128_S5000x128) (ix2 r k)
  have hB : broadcastTo S5000x128 (shapeCast S5000x1 x1 shapeCasts_S5000x1_S5000x1) broadcasts_S5000x1_S5000x128 (ix2 r k)
      = x1 (ix2 r (0 : Fin 1)) :=
    (Cert.LibKeepdims.broadcastTo_a1_ac_apply (shapeCast S5000x1 x1 shapeCasts_S5000x1_S5000x1) broadcasts_S5000x1_S5000x128 r k).trans
      (congrFun (shapeCast_self x1 shapeCasts_S5000x1_S5000x1) (ix2 r (0 : Fin 1)))
  have hC : broadcastTo S5000x128 (shapeCast S1x128 x2 shapeCasts_S1x128_S1x128) broadcasts_S1x128_S5000x128 (ix2 r k)
      = x2 (ix2 (0 : Fin 1) k) :=
    (broadcastTo_1b_ab_apply (shapeCast S1x128 x2 shapeCasts_S1x128_S1x128) broadcasts_S1x128_S5000x128 r k).trans
      (congrFun (shapeCast_self x2 shapeCasts_S1x128_S1x128) (ix2 (0 : Fin 1) k))
  exact congrArg₂ max (congrArg₂ (· + ·) (congrArg₂ (· * ·) hA hB) hC) Ideal.ofBits_zero_f32

/-- Entry (r, e) of the body's result: the hidden row against column e of W, times the factor of row r. The
    product into the zero accumulator is the plain sum. -/
theorem pay_apply (x0 : Vec Ideal S5000x128 .f32) (x1 : Vec Ideal S5000x1 .f32) (x2 : Vec Ideal S1x128 .f32)
    (x3 : Vec Ideal S128x64 .f32) (x4 : Vec Ideal S5000x1 .f32) (r : Fin 5000) (e : Fin 64) :
    k2_pay1 (F := Ideal) x0 x1 x2 x3 x4 (ix2 r e)
      = (∑ k : Fin 128, max (x0 (ix2 r k) * x1 (ix2 r (0 : Fin 1)) + x2 (ix2 (0 : Fin 1) k)) 0 * x3 (ix2 k e))
        * x4 (ix2 r (0 : Fin 1)) := by
  unfold k2_pay1
  have h1 := matmul_plain_zero_apply dot_S5000x128_S128x64_S5000x64_1_0_0_1_n_n rfl none
    (truncf .bf16 (maximumf (addf (mulf (shapeCast S5000x128 x0 shapeCasts_S5000x128_S5000x128)
        (broadcastTo S5000x128 (shapeCast S5000x1 x1 shapeCasts_S5000x1_S5000x1) broadcasts_S5000x1_S5000x128))
        (broadcastTo S5000x128 (shapeCast S1x128 x2 shapeCasts_S1x128_S1x128) broadcasts_S1x128_S5000x128))
        (broadcast S5000x128 (Scalar.ofBits (F := Ideal) .f32 0x00000000#32))) bitsLt_bf16_f32)
    (truncf .bf16 x3 bitsLt_bf16_f32) r e
  have h2 := (Cert.LibKeepdims.broadcastTo_a1_ac_apply (shapeCast S5000x1 x4 shapeCasts_S5000x1_S5000x1) broadcasts_S5000x1_S5000x64 r e).trans
    (congrFun (shapeCast_self x4 shapeCasts_S5000x1_S5000x1) (ix2 r (0 : Fin 1)))
  refine (congrArg₂ (· * ·) h1 h2).trans ?_
  refine congrArg (· * x4 (ix2 r (0 : Fin 1))) (Finset.sum_congr rfl fun k _ => congrArg (· * x3 (ix2 k e)) ?_)
  exact hidden_apply x0 x1 x2 r k

/-- A block of the result is a block of the whole-array function: if the blocks the body reads are rows
    5000 q .. 5000 q + 4999 of A0 and of the column A1, the whole bias row A2 and the whole weight A3, then entry y of
    the body's result is entry i of fused A0 (colOf A1) (rowOf A2) A3 whenever i is y moved down by 5000 q rows. -/
theorem block_apply (A0 : Mat 50000 128) (A1 : Mat 50000 1) (A2 : Mat 1 128) (A3 : Mat 128 64)
    (x0 : Vec Ideal S5000x128 .f32) (x1 : Vec Ideal S5000x1 .f32) (x2 : Vec Ideal S1x128 .f32) (x3 : Vec Ideal S128x64 .f32) (q : ℕ)
    (h0 : ∀ (y : S5000x128.Idx) (i : S50000x128.Idx), (i 0).val = 5000 * q + (y 0).val → (i 1).val = (y 1).val → x0 y = A0 i)
    (h1 : ∀ (y : S5000x1.Idx) (i : S50000x1.Idx), (i 0).val = 5000 * q + (y 0).val → x1 y = A1 i)
    (h2 : ∀ y : S1x128.Idx, x2 y = A2 y)
    (h3 : ∀ y : S128x64.Idx, x3 y = A3 y)
    (y : S5000x64.Idx) (i : S50000x64.Idx) (hi0 : (i 0).val = 5000 * q + (y 0).val) (hi1 : (i 1).val = (y 1).val) :
    k2_pay1 (F := Ideal) x0 x1 x2 x3 x1 y = fused A0 (colOf A1) (rowOf A2) A3 i := by
  obtain ⟨r, e, rfl⟩ : ∃ (r : Fin 5000) (e : Fin 64), y = ix2 r e := ⟨y 0, y 1, eq_ix2 y⟩
  refine (pay_apply x0 x1 x2 x3 x1 r e).trans ?_
  show _ = (∑ k : Fin 128, max (A0 (ix2 (i 0) k) * A1 (ix2 (i 0) (0 : Fin 1)) + A2 (ix2 (0 : Fin 1) k)) 0 * A3 (ix2 k (i 1)))
    * A1 (ix2 (i 0) (0 : Fin 1))
  have e1 : (i 1 : Fin 64) = e := Fin.ext hi1
  refine congrArg₂ (· * ·) (Finset.sum_congr rfl fun k _ => congrArg₂ (· * ·)
    (congrArg₂ max (congrArg₂ (· + ·) (congrArg₂ (· * ·) (h0 _ _ hi0 rfl) (h1 _ _ hi0)) (h2 _)) rfl) ((h3 _).trans ?_)) (h1 _ _ hi0)
  rw [e1]

/-! ## The blocks the body reads, and the block it writes -/

variable (V : (c : Dev nD) → (b : Ref sig .tc) → Buf (Elt Ideal) ((c : Thread nD τ).loc b))

/-- The block indices over the grid: the row-blocked windows are at block (t, 0), the bias row and the weight at
    block (0, 0). -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val ∧ win2_4.index t (1 : Fin 2) = 0 :=
  (by decide +kernel : ∀ t : Fin grid2.N, _)

/-- The block of the aggregated rows at point t is rows 5000 t .. 5000 t + 4999 of the array. -/
theorem iblk_agg_apply (c : Dev nD) (t : Fin cfg2.N) (y : S5000x128.Idx) (i : S50000x128.Idx)
    (h0 : (i 0).val = 5000 * t.val + (y 0).val) (h1 : (i 1).val = (y 1).val) :
    (iblk2 (F := Ideal) V c 0 t : Vec Ideal S5000x128 .f32) y = (V c main_v39 : S50000x128.Idx → EReal) i := by
  obtain ⟨e0, e1, -⟩ := idx_facts t
  unfold iblk2
  rw [View.read_apply]
  show V c main_v39 _ = V c main_v39 _
  refine congrArg _ (funext fun a => Fin.ext ?_)
  match a with
  | ⟨0, _⟩ => show win2_0.index t 0 * 5000 + 1 * (y 0).val = (i 0).val; rw [e0, h0]; omega
  | ⟨1, _⟩ => show win2_0.index t 1 * 128 + 1 * (y 1).val = (i 1).val; rw [e1, h1]; omega

/-- The block of the column d at point t is rows 5000 t .. 5000 t + 4999 of d. -/
theorem iblk_d_apply (c : Dev nD) (t : Fin cfg2.N) (y : S5000x1.Idx) (i : S50000x1.Idx)
    (h0 : (i 0).val = 5000 * t.val + (y 0).val) :
    (iblk2 (F := Ideal) V c 1 t : Vec Ideal S5000x1 .f32) y = (V c main_v40 : S50000x1.Idx → EReal) i := by
  obtain ⟨-, -, e0, e1, -⟩ := idx_facts t
  unfold iblk2
  rw [View.read_apply]
  show V c main_v40 _ = V c main_v40 _
  refine congrArg _ (funext fun a => Fin.ext ?_)
  match a with
  | ⟨0, _⟩ => show win2_1.index t 0 * 5000 + 1 * (y 0).val = (i 0).val; rw [e0, h0]; omega
  | ⟨1, _⟩ =>
    show win2_1.index t 1 * 1 + 1 * (y 1).val = (i 1).val
    have hy : (y 1).val < 1 := (y 1).isLt
    have hi : (i 1).val < 1 := (i 1).isLt
    rw [e1]; omega

/-- The block of the bias row at every point is the whole row. -/
theorem iblk_b_apply (c : Dev nD) (t : Fin cfg2.N) (y : S1x128.Idx) :
    (iblk2 (F := Ideal) V c 2 t : Vec Ideal S1x128 .f32) y = (V c main_v41 : S1x128.Idx → EReal) y := by
  obtain ⟨-, -, -, -, e0, e1, -⟩ := idx_facts t
  unfold iblk2
  rw [View.read_apply]
  show V c main_v41 _ = V c main_v41 _
  refine congrArg _ (funext fun a => Fin.ext ?_)
  match a with
  | ⟨0, _⟩ => show win2_2.index t 0 * 1 + 1 * (y 0).val = (y 0).val; rw [e0]; omega
  | ⟨1, _⟩ => show win2_2.index t 1 * 128 + 1 * (y 1).val = (y 1).val; rw [e1]; omega

/-- The block of W at every point is the whole of W. -/
theorem iblk_w_apply (c : Dev nD) (t : Fin cfg2.N) (y : S128x64.Idx) :
    (iblk2 (F := Ideal) V c 3 t : Vec Ideal S128x64 .f32) y = (V c main_arg7 : S128x64.Idx → EReal) y := by
  obtain ⟨-, -, -, -, -, -, e0, e1, -⟩ := idx_facts t
  unfold iblk2
  rw [View.read_apply]
  show V c main_arg7 _ = V c main_arg7 _
  refine congrArg _ (funext fun a => Fin.ext ?_)
  match a with
  | ⟨0, _⟩ => show win2_3.index t 0 * 128 + 1 * (y 0).val = (y 0).val; rw [e0]; omega
  | ⟨1, _⟩ => show win2_3.index t 1 * 64 + 1 * (y 1).val = (y 1).val; rw [e1]; omega

/-- What point t writes back is block t of the whole-array function. -/
theorem flushed_eq (c : Dev nD) (t : Fin cfg2.N) :
    (dat2 (F := Ideal) V c).flushed 4 t = ((cfg2.win 4).blk t).view.read (Elt Ideal)
      (fused (V c main_v39) (colOf (V c main_v40)) (rowOf (V c main_v41)) (V c main_arg7)) := by
  show (cfg2.win 4).cut (grid2.coords t) ((dat2 V c).after 4 t) = _
  rw [after2_4]
  unfold out2_4
  rw [View.canon_unit_zero hz]
  simp only [View.ld_unit_zero (S := S5000x128) hz, View.ld_unit_zero (S := S128x64) hz, View.ld_unit_zero (S := S5000x1) hz,
    View.ld_unit_zero (S := S1x128) hz]
  obtain ⟨-, -, -, -, -, -, -, -, e0, e1⟩ := idx_facts t
  funext j
  show k2_pay1 (F := Ideal) (iblk2 V c 0 t) (iblk2 V c 1 t) (iblk2 V c 2 t) (iblk2 V c 3 t) (iblk2 V c 1 t) j
    = fused (V c main_v39) (colOf (V c main_v40)) (rowOf (V c main_v41)) (V c main_arg7) (((cfg2.win 4).blk t).view.emb j)
  refine block_apply (V c main_v39) (V c main_v40) (V c main_v41) (V c main_arg7)
    (iblk2 V c 0 t) (iblk2 V c 1 t) (iblk2 V c 2 t) (iblk2 V c 3 t) t.val
    (fun y i h0 h1 => iblk_agg_apply V c t y i h0 h1) (fun y i h0 => iblk_d_apply V c t y i h0)
    (fun y => iblk_b_apply V c t y) (fun y => iblk_w_apply V c t y)
    j (((cfg2.win 4).blk t).view.emb j) ?_ ?_
  · show win2_4.index t 0 * 5000 + 1 * (j 0).val = 5000 * t.val + (j 0).val
    rw [e0]; omega
  · show win2_4.index t 1 * 64 + 1 * (j 1).val = (j 1).val
    rw [e1]; omega

/-! ## The ten blocks tile the array -/

/-- An index of the array is in point t's block iff each coordinate is in the block's range on its axis. -/
theorem mem_blk (t : Fin cfg2.N) (i : S50000x64.Idx) :
    i ∈ ((cfg2.win 4).blk t).view.set ↔ ∀ a : Fin 2, win2_4.index t a * S5000x64.size a ≤ (i a).val
      ∧ (i a).val < win2_4.index t a * S5000x64.size a + S5000x64.size a := by
  show i ∈ ((View.whole main_v42).slice (win2_4.rect t)).set ↔ _
  rw [View.set_slice_whole, Rect.mem_set_unit]
  exact Iff.rfl

/-- Row r of the array is in the block of point r / 5000. -/
theorem cover (i : S50000x64.Idx) :
    ∃ t : Fin cfg2.N, (cfg2.win 4).flush t = true ∧ i ∈ ((cfg2.win 4).blk t).view.set := by
  have hi0 : (i 0).val < 50000 := (i 0).isLt
  have hi1 : (i 1).val < 64 := (i 1).isLt
  have hN : cfg2.N = 10 := N_2
  obtain ⟨t, ht⟩ : ∃ t : Fin cfg2.N, t.val = (i 0).val / 5000 := ⟨⟨(i 0).val / 5000, by rw [hN]; omega⟩, rfl⟩
  refine ⟨t, flush2_4 t, ?_⟩
  obtain ⟨-, -, -, -, -, -, -, -, e0, e1⟩ := idx_facts t
  rw [mem_blk]
  intro a
  match a with
  | ⟨0, _⟩ =>
    show win2_4.index t 0 * 5000 ≤ (i 0).val ∧ (i 0).val < win2_4.index t 0 * 5000 + 5000
    rw [e0, ht]; omega
  | ⟨1, _⟩ =>
    show win2_4.index t 1 * 64 ≤ (i 1).val ∧ (i 1).val < win2_4.index t 1 * 64 + 64
    rw [e1]; omega

/-- The array the region leaves: relu(agg · d + b) · W with row r scaled by the factor of node r. -/
theorem value (c : Dev nD) :
    (dat2 (F := Ideal) V c).arrAt 4 cfg2.N
      = fused (V c main_v39) (colOf (V c main_v40)) (rowOf (V c main_v41)) (V c main_arg7) :=
  (dat2 (F := Ideal) V c).arrAt_eq_of_cover 4 _ (fun t _ => flushed_eq V c t) (cover)

end Cert.GCN.RegionsDense2

end
-- ==== Proof.RegionsDense.lean ====
/-
  The arrays the three dense regions leave, each as one function of the arrays the region finds: block t of the
  output is rows 5000 t .. 5000 t + 4999, and row r of it depends only on row r of the row-blocked inputs and on the
  whole weight and bias arrays.
-/
import proofs.«133735_j11390253269678_2_alg».proof.Proof.Gen.KernelIdeal.Frame
import proofs.«133735_j11390253269678_2_alg».proof.Proof.Spec
import proofs.«133735_j11390253269678_2_alg».proof.Proof.RegionsDense0
import proofs.«133735_j11390253269678_2_alg».proof.Proof.RegionsDense1
import proofs.«133735_j11390253269678_2_alg».proof.Proof.RegionsDense2

noncomputable section

namespace Cert.GCN.Regions

open Idealize.ShloMosaic Idealize.ShloMosaic.TcCoe Idealize.SL.Sem Idealize.ShloMosaic.ValueIdx
open Cert.KernelIdeal Cert.KernelIdeal.Gen Cert.GCN

variable (V : (c : Dev nD) → (b : Ref sig .tc) → Buf (Elt Ideal) ((c : Thread nD τ).loc b))

/-- Region 0 leaves (x · W) with row r scaled by the factor of node r. -/
theorem region0 (c : Dev nD) :
    (dat0 (F := Ideal) V c).arrAt 3 cfg0.N = scaleRows (dense (V c main_arg0) (V c main_arg3)) (colOf (V c main_v15)) :=
  Cert.GCN.RegionsDense0.value V c

/-- Region 1 leaves relu(agg · d + b) · W with row r scaled by the factor of node r (width 128). -/
theorem region1 (c : Dev nD) :
    (dat1 (F := Ideal) V c).arrAt 4 cfg1.N = fused (V c main_v26) (colOf (V c main_v27)) (rowOf (V c main_v28)) (V c main_arg5) :=
  Cert.GCN.RegionsDense1.value V c

/-- Region 2 leaves relu(agg · d + b) · W with row r scaled by the factor of node r (width 64). -/
theorem region2 (c : Dev nD) :
    (dat2 (F := Ideal) V c).arrAt 4 cfg2.N = fused (V c main_v39) (colOf (V c main_v40)) (rowOf (V c main_v41)) (V c main_arg7) :=
  Cert.GCN.RegionsDense2.value V c

end Cert.GCN.Regions

end
-- ==== Proof.RegionsNorm.lean ====
/-
  The array the row-normalising region leaves: row r is agg[r] · d[r] + b divided by the larger of its Euclidean
  norm and 1e-12; block t of the output is rows 5000 t .. 5000 t + 4999 and holds every column of its rows.
-/
import proofs.«133735_j11390253269678_2_alg».proof.Proof.Gen.KernelIdeal.Frame
import proofs.«133735_j11390253269678_2_alg».proof.Proof.Spec
import proofs.«133735_j11390253269678_2_alg».proof.Proof.LibKeepdims
import Idealize.ShloMosaic.Lib.ValueLayout

noncomputable section

namespace Cert.GCN.Regions

open Idealize.ShloMosaic Idealize.ShloMosaic.TcCoe Idealize.SL.Sem Idealize.ShloMosaic.ValueIdx
open Cert.KernelIdeal Cert.KernelIdeal.Gen Cert.GCN
open scoped BigOperators

namespace Norm

/-- Entry (r, f) of a block scaled row by row by a column and shifted by a bias row. -/
theorem scaleShift_apply (x0 : Vec Ideal S5000x64 .f32) (x1 : Vec Ideal S5000x1 .f32) (x2 : Vec Ideal S1x64 .f32)
    (r : Fin 5000) (f : Fin 64) :
    addf (F := Ideal) (φ := .f32) (mulf (F := Ideal) (φ := .f32) (shapeCast S5000x64 x0 shapeCasts_S5000x64_S5000x64)
        (broadcastTo S5000x64 (shapeCast S5000x1 x1 shapeCasts_S5000x1_S5000x1) broadcasts_S5000x1_S5000x64))
      (broadcastTo S5000x64 (shapeCast S1x64 x2 shapeCasts_S1x64_S1x64) broadcasts_S1x64_S5000x64) (ix2 r f)
      = x0 (ix2 r f) * x1 (ix2 r (0 : Fin 1)) + x2 (ix2 (0 : Fin 1) f) := by
  rw [shapeCast_self, shapeCast_self, shapeCast_self]
  show x0 (ix2 r f) * broadcastTo S5000x64 x1 broadcasts_S5000x1_S5000x64 (ix2 r f)
      + broadcastTo S5000x64 x2 broadcasts_S1x64_S5000x64 (ix2 r f) = _
  rw [Cert.LibKeepdims.broadcastTo_a1_ac_apply, broadcastTo_1b_ab_apply]

/-- Entry (r, e) of a block divided row by row by the larger of the row's Euclidean norm and 1e-12. -/
theorem rowNorm_apply (v : FVec Ideal S5000x64 .f32) (r : Fin 5000) (e : Fin 64) :
    divf (F := Ideal) v (broadcastTo S5000x64 (maximumf (sqrt (shapeCast S5000x1
        (multiReduction .add [1] S5000 (mulf v v) 0x00000000#32 reduces_S5000x64_S5000 (.inl rfl) rfl) shapeCasts_S5000_S5000x1))
        (broadcast S5000x1 (Scalar.ofBits .f32 0x2B8CBCCC#32))) broadcasts_S5000x1_S5000x64) (ix2 r e)
      = Ideal.div (v (ix2 r e)) (max (Ideal.sqrt (∑ f : Fin 64, v (ix2 r f) * v (ix2 r f))) eps12) := by
  refine congrArg (Ideal.div (v (ix2 r e))) ?_
  refine (Cert.LibKeepdims.broadcastTo_a1_ac_apply _ _ r e).trans ?_
  refine congrArg (fun z => max (Ideal.sqrt z) eps12) ?_
  refine (Cert.LibKeepdims.shapeCast_a_a1_apply _ _ r 0).trans ?_
  exact Cert.LibKeepdims.multiReduction_add_lastAxis_apply (mulf v v) _ _ _ _ r

theorem k3_pay1_apply (x0 : Vec Ideal S5000x64 .f32) (x1 : Vec Ideal S5000x1 .f32) (x2 : Vec Ideal S1x64 .f32)
    (r : Fin 5000) (e : Fin 64) :
    k3_pay1 (F := Ideal) x0 x1 x2 (ix2 r e)
      = Ideal.div (x0 (ix2 r e) * x1 (ix2 r (0 : Fin 1)) + x2 (ix2 (0 : Fin 1) e))
          (max (Ideal.sqrt (∑ f : Fin 64, (x0 (ix2 r f) * x1 (ix2 r (0 : Fin 1)) + x2 (ix2 (0 : Fin 1) f))
            * (x0 (ix2 r f) * x1 (ix2 r (0 : Fin 1)) + x2 (ix2 (0 : Fin 1) f)))) eps12) := by
  unfold k3_pay1
  refine (rowNorm_apply _ r e).trans ?_
  simp only [scaleShift_apply]

/-- The payload of a block whose rows are rows of the arrays is the specification there. -/
theorem k3_pay1_eq_spec (x0 : Vec Ideal S5000x64 .f32) (x1 : Vec Ideal S5000x1 .f32) (x2 : Vec Ideal S1x64 .f32)
    (A : Mat 50000 64) (D : Mat 50000 1) (B : Mat 1 64) (r : Fin 5000) (e : Fin 64) (R : Fin 50000)
    (h0 : ∀ f : Fin 64, x0 (ix2 r f) = A (ix2 R f)) (h1 : x1 (ix2 r (0 : Fin 1)) = D (ix2 R (0 : Fin 1)))
    (h2 : ∀ f : Fin 64, x2 (ix2 (0 : Fin 1) f) = B (ix2 (0 : Fin 1) f)) :
    k3_pay1 (F := Ideal) x0 x1 x2 (ix2 r e) = normRows (addBias (scaleRows A (colOf D)) (rowOf B)) (ix2 R e) := by
  rw [k3_pay1_apply]
  simp only [h0, h1, h2]
  rfl

variable (V : (c : Dev nD) → (b : Ref sig .tc) → Buf (Elt Ideal) ((c : Thread nD τ).loc b))

theorem hz : (![0, 0] : Fin 2 → Nat) = fun _ => 0 := funext fun a => by fin_cases a <;> rfl

theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- Block t of the features is rows 5000 t .. 5000 t + 4999. -/
theorem iblk3_0_apply (c : Dev nD) (t : Fin cfg3.N) (r : Fin 5000) (f : Fin 64) (R : Fin 50000)
    (hR : R.val = 5000 * t.val + r.val) :
    (iblk3 (F := Ideal) V c 0 t : Vec Ideal S5000x64 .f32) (ix2 r f) = (V c main_v52 : S50000x64.Idx → EReal) (ix2 R f) := by
  obtain ⟨e0, e1, -⟩ := idx_facts3 t
  unfold iblk3
  rw [View.read_apply]
  show V c main_v52 _ = V c main_v52 _
  congr 1
  funext a
  apply Fin.ext
  match a with
  | ⟨0, _⟩ => show win3_0.index t (0 : Fin 2) * 5000 + 1 * r.val = R.val; rw [e0, hR]; omega
  | ⟨1, _⟩ => show win3_0.index t (1 : Fin 2) * 64 + 1 * f.val = f.val; rw [e1]; omega

/-- Block t of the factor column is its rows 5000 t .. 5000 t + 4999. -/
theorem iblk3_1_apply (c : Dev nD) (t : Fin cfg3.N) (r : Fin 5000) (R : Fin 50000)
    (hR : R.val = 5000 * t.val + r.val) :
    (iblk3 (F := Ideal) V c 1 t : Vec Ideal S5000x1 .f32) (ix2 r (0 : Fin 1)) = (V c main_v53 : S50000x1.Idx → EReal) (ix2 R (0 : Fin 1)) := by
  obtain ⟨-, -, e2, e3, -⟩ := idx_facts3 t
  unfold iblk3
  rw [View.read_apply]
  show V c main_v53 _ = V c main_v53 _
  congr 1
  funext a
  apply Fin.ext
  match a with
  | ⟨0, _⟩ => show win3_1.index t (0 : Fin 2) * 5000 + 1 * r.val = R.val; rw [e2, hR]; omega
  | ⟨1, _⟩ => show win3_1.index t (1 : Fin 2) * 1 + 1 * 0 = 0; rw [e3]

/-- Every block of the bias row is the whole row. -/
theorem iblk3_2_apply (c : Dev nD) (t : Fin cfg3.N) (f : Fin 64) :
    (iblk3 (F := Ideal) V c 2 t : Vec Ideal S1x64 .f32) (ix2 (0 : Fin 1) f) = (V c main_v54 : S1x64.Idx → EReal) (ix2 (0 : Fin 1) f) := by
  obtain ⟨-, -, -, -, e4, e5, -⟩ := idx_facts3 t
  unfold iblk3
  rw [View.read_apply]
  show V c main_v54 _ = V c main_v54 _
  congr 1
  funext a
  apply Fin.ext
  match a with
  | ⟨0, _⟩ => show win3_2.index t (0 : Fin 2) * 1 + 1 * 0 = 0; rw [e4]
  | ⟨1, _⟩ => show win3_2.index t (1 : Fin 2) * 64 + 1 * f.val = f.val; rw [e5]; omega

theorem flushed3_eq (c : Dev nD) (t : Fin cfg3.N) :
    (dat3 (F := Ideal) V c).flushed 3 t = ((cfg3.win 3).blk t).view.read (Elt Ideal)
      (normRows (addBias (scaleRows (V c main_v52) (colOf (V c main_v53))) (rowOf (V c main_v54)))) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz, View.ld_unit_zero (S := S1x64) hz]
  funext j
  have hr : (j 0).val < 5000 := (j 0).isLt
  have he : (j 1).val < 64 := (j 1).isLt
  have ht : t.val < 10 := t.isLt
  obtain ⟨-, -, -, -, -, -, e6, e7⟩ := idx_facts3 t
  have hx : (win3 3).xinj (grid3.coords t) j = ix2 (⟨(j 0).val, hr⟩ : Fin 5000) (⟨(j 1).val, he⟩ : Fin 64) :=
    funext fun a => by match a with | ⟨0, _⟩ => rfl | ⟨1, _⟩ => rfl
  have hy : ((View.whole main_v55).slice ((win3 3).rect t)).emb j
      = ix2 (⟨5000 * t.val + (j 0).val, by omega⟩ : Fin 50000) (⟨(j 1).val, he⟩ : Fin 64) := by
    funext a
    apply Fin.ext
    match a with
    | ⟨0, _⟩ => show win3_3.index t (0 : Fin 2) * 5000 + 1 * (j 0).val = 5000 * t.val + (j 0).val; rw [e6]; omega
    | ⟨1, _⟩ => show win3_3.index t (1 : Fin 2) * 64 + 1 * (j 1).val = (j 1).val; rw [e7]; omega
  show k3_pay1 (iblk3 V c 0 t) (iblk3 V c 1 t) (iblk3 V c 2 t) ((win3 3).xinj (grid3.coords t) j)
    = normRows (addBias (scaleRows (V c main_v52) (colOf (V c main_v53))) (rowOf (V c main_v54)))
        (((View.whole main_v55).slice ((win3 3).rect t)).emb j)
  rw [hx, hy]
  exact k3_pay1_eq_spec (iblk3 V c 0 t) (iblk3 V c 1 t) (iblk3 V c 2 t) (V c main_v52) (V c main_v53) (V c main_v54)
    ⟨(j 0).val, hr⟩ ⟨(j 1).val, he⟩ ⟨5000 * t.val + (j 0).val, by omega⟩
    (fun f => iblk3_0_apply V c t _ f _ rfl) (iblk3_1_apply V c t _ _ rfl) (fun f => iblk3_2_apply V c t f)

/-- An index of the output array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val
      ∧ (i a).val < win3_3.index t a * S5000x64.size a + S5000x64.size a := by
  show i ∈ ((View.whole main_v55).slice (win3_3.rect t)).set ↔ _
  rw [View.set_slice_whole, Rect.mem_set_unit]
  exact Iff.rfl

end Norm

variable (V : (c : Dev nD) → (b : Ref sig .tc) → Buf (Elt Ideal) ((c : Thread nD τ).loc b))

/-- Region 3 leaves the rows of agg · d + b normalised. -/
theorem region3 (c : Dev nD) :
    (dat3 (F := Ideal) V c).arrAt 3 cfg3.N = normRows (addBias (scaleRows (V c main_v52) (colOf (V c main_v53))) (rowOf (V c main_v54))) :=
  (dat3 (F := Ideal) V c).arrAt_eq_of_cover 3 _ (fun t _ => Norm.flushed3_eq V c t) fun i => by
    have hi0 : (i 0).val < 50000 := (i 0).isLt
    have hi1 : (i 1).val < 64 := (i 1).isLt
    obtain ⟨t, ht⟩ : ∃ t : Fin cfg3.N, t.val = (i 0).val / 5000 :=
      ⟨⟨(i 0).val / 5000, by show (i 0).val / 5000 < 10; omega⟩, rfl⟩
    obtain ⟨-, -, -, -, -, -, e6, e7⟩ := Norm.idx_facts3 t
    refine ⟨t, flush3_3 t, ?_⟩
    rw [Norm.mem_blk3]
    intro a
    match a with
    | ⟨0, _⟩ =>
      show win3_3.index t (0 : Fin 2) * 5000 ≤ (i 0).val ∧ (i 0).val < win3_3.index t (0 : Fin 2) * 5000 + 5000
      rw [e6, ht]; omega
    | ⟨1, _⟩ =>
      show win3_3.index t (1 : Fin 2) * 64 ≤ (i 1).val ∧ (i 1).val < win3_3.index t (1 : Fin 2) * 64 + 64
      rw [e7]; omega

end Cert.GCN.Regions

end
-- ==== Proof.LibAxisReads.lean ====
/-
  Broadcasts of scalars, vectors, rows and columns, and sums over either axis of a matrix, read at an index on the
  extended reals, for any extents.

  * A scalar (a rank-0 array) broadcast to any shape reads, at every index, its one entry; a constant scalar reads the
    value its word denotes.
  * A vector [a] made a column [a, 1] reads its entry of the row; a column [a, 1] spread over c columns reads the
    column's entry of the row. A vector [b] made a row [1, b] reads its entry of the column; a row [1, b] spread over
    a rows reads the row's entry of the column. (The host's `broadcast_in_dim` spellings: what `jnp.mean(axis=0)`,
    `jnp.var`, a bias add and a softmax's keepdims print as.)
  * A host sum of an [a, b] matrix over its first axis reads, at column e, the initial value plus the sum of the
    column's entries; over its last axis, at row i, the initial value plus the sum of the row's entries: the index
    with the summed coordinate put back is (r, e), respectively (i, f).
  * A vector sum (`multi_reduction <add>`) over the LEADING axis of an [a, b] matrix reads, at column e, the sum of
    that column (the accumulator word being the sum's neutral element, no initial term appears).
-/
import Idealize.ShloMosaic.Lib.ValueIdx
import Idealize.ShloMosaic.Lib.Pipeline.Value
import Idealize.ShloMosaic.PureOps.Ideal.Laws

noncomputable section

open scoped BigOperators

namespace Cert.LibAxisReads

open Idealize.ShloMosaic Idealize.ShloMosaic.ValueIdx

variable {α : Type}

/-- A rank-0 array broadcast to any shape reads its one entry everywhere. -/
theorem scalar_broadcast_apply {t : Shape} (dims : Fin 0 → Fin t.rank) (h : (⟨0, ![]⟩ : Shape).BroadcastsInDim t dims)
    (x : (⟨0, ![]⟩ : Shape).Idx → α) (j : t.Idx) : broadcastInDim t dims h x j = x ix0 :=
  broadcastInDim_apply dims h x j ix0 (fun a => a.elim0)

/-- A constant scalar broadcast to any shape reads, at every index, the value the constant's word denotes. -/
theorem const_broadcast_apply {t : Shape} {φ : FTy} (dims : Fin 0 → Fin t.rank) (h : (⟨0, ![]⟩ : Shape).BroadcastsInDim t dims)
    (b : BitVec φ.bits) (j : t.Idx) :
    broadcastInDim t dims h (constant (F := Ideal) ⟨0, ![]⟩ φ b) j = Ideal.ofBits φ b :=
  scalar_broadcast_apply dims h _ j

/-- A vector [a] made a column [a, 1] reads, at (r, u), the vector at r. -/
theorem vec_column_apply {a : ℕ} (v : (⟨1, ![a]⟩ : Shape).Idx → α)
    (h : (⟨1, ![a]⟩ : Shape).BroadcastsInDim ⟨2, ![a, 1]⟩ ![0]) (r : Fin a) (u : Fin 1) :
    broadcastInDim ⟨2, ![a, 1]⟩ ![0] h v (ix2 r u) = v (ix1 r) :=
  broadcastInDim_apply ![0] h v (ix2 r u) (ix1 r) (fun d => by
    match d with
    | ⟨0, _⟩ =>
      show r.val = if a = 1 then 0 else r.val
      split
      · have := r.isLt; omega
      · rfl)

/-- A vector [b] made a row [1, b] reads, at (u, e), the vector at e. -/
theorem vec_row_apply {b : ℕ} (v : (⟨1, ![b]⟩ : Shape).Idx → α)
    (h : (⟨1, ![b]⟩ : Shape).BroadcastsInDim ⟨2, ![1, b]⟩ ![1]) (u : Fin 1) (e : Fin b) :
    broadcastInDim ⟨2, ![1, b]⟩ ![1] h v (ix2 u e) = v (ix1 e) :=
  broadcastInDim_apply ![1] h v (ix2 u e) (ix1 e) (fun d => by
    match d with
    | ⟨0, _⟩ =>
      show e.val = if b = 1 then 0 else e.val
      split
      · have := e.isLt; omega
      · rfl)

/-- A row [1, b] spread over a rows reads, at (r, e), the row's entry of column e. -/
theorem row_spread_apply {a b : ℕ} (v : (⟨2, ![1, b]⟩ : Shape).Idx → α)
    (h : (⟨2, ![1, b]⟩ : Shape).BroadcastsInDim ⟨2, ![a, b]⟩ ![0, 1]) (r : Fin a) (e : Fin b) :
    broadcastInDim ⟨2, ![a, b]⟩ ![0, 1] h v (ix2 r e) = v (ix2 (0 : Fin 1) e) :=
  broadcastInDim_apply ![0, 1] h v (ix2 r e) (ix2 (0 : Fin 1) e) (fun d => by
    match d with
    | ⟨0, _⟩ =>
      show (0 : ℕ) = if (1 : ℕ) = 1 then 0 else r.val
      rw [if_pos rfl]
    | ⟨1, _⟩ =>
      show e.val = if b = 1 then 0 else e.val
      split
      · have := e.isLt; omega
      · rfl)

/-- A column [a, 1] spread over c columns reads, at (r, e), the column's entry of row r. -/
theorem column_spread_apply {a c : ℕ} (v : (⟨2, ![a, 1]⟩ : Shape).Idx → α)
    (h : (⟨2, ![a, 1]⟩ : Shape).BroadcastsInDim ⟨2, ![a, c]⟩ ![0, 1]) (r : Fin a) (e : Fin c) :
    broadcastInDim ⟨2, ![a, c]⟩ ![0, 1] h v (ix2 r e) = v (ix2 r (0 : Fin 1)) :=
  broadcastInDim_apply ![0, 1] h v (ix2 r e) (ix2 r (0 : Fin 1)) (fun d => by
    match d with
    | ⟨0, _⟩ =>
      show r.val = if a = 1 then 0 else r.val
      split
      · have := r.isLt; omega
      · rfl
    | ⟨1, _⟩ =>
      show (0 : ℕ) = if (1 : ℕ) = 1 then 0 else e.val
      rw [if_pos rfl])

/-- A host sum over the first axis of an [a, b] matrix reads, at column e, the initial value plus the sum of the
    column's entries. -/
theorem hostReduceAdd_firstAxis_apply {a b : ℕ} {φ : FTy} {u : Shape} (x : FVec Ideal ⟨2, ![a, b]⟩ φ) (init : u.Idx → Ideal φ)
    (h' : (⟨2, ![a, b]⟩ : Shape).ReducesTo [0] ⟨1, ![b]⟩) (h : (⟨2, ![a, b]⟩ : Shape).Reduces [0] ⟨1, ![b]⟩)
    (hu : 0 < u.numel) (e : Fin b) :
    Host.reduceAdd (F := Ideal) x init h' hu (ix1 e) = init (Shape.Idx.first hu) + ∑ r : Fin a, x (ix2 r e) := by
  refine (Ideal.hostReduceAdd_single h' h x (init (Shape.Idx.first hu)) (ix1 e)).trans ?_
  refine congrArg (fun z => init (Shape.Idx.first hu) + z) ?_
  exact Finset.sum_congr rfl fun r _ => congrArg x (funext fun d => Fin.ext (by
    match d with
    | ⟨0, _⟩ => rfl
    | ⟨1, _⟩ => rfl))

/-- A host sum over the last axis of an [a, b] matrix reads, at row i, the initial value plus the sum of the row's
    entries. -/
theorem hostReduceAdd_lastAxis_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) x init h' hu (ix1 i) = init (Shape.Idx.first hu) + ∑ f : Fin b, x (ix2 i f) := by
  refine (Ideal.hostReduceAdd_single h' h x (init (Shape.Idx.first hu)) (ix1 i)).trans ?_
  refine congrArg (fun z => init (Shape.Idx.first hu) + z) ?_
  exact Finset.sum_congr rfl fun f _ => congrArg x (funext fun d => Fin.ext (by
    match d with
    | ⟨0, _⟩ => rfl
    | ⟨1, _⟩ => rfl))

/-- On the extended reals a vector sum over the leading axis of an `[a, b]` matrix reads, at column `e`, the sum of
    that column's entries: the index over `e` with coordinate `r` put back on the summed axis is `(r, e)`. -/
theorem multiReduction_add_firstAxis_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (e : Fin b) :
    multiReduction .add [0] ⟨1, ![b]⟩ src acc h hφ hacc (ix1 e) = ∑ r : Fin a, src (ix2 r e) := by
  refine (Ideal.multiReduction_add_single src acc h hφ hacc (ix1 e)).trans ?_
  exact Finset.sum_congr rfl fun r _ => congrArg src (funext fun d => Fin.ext (by
    match d with
    | ⟨0, _⟩ => rfl
    | ⟨1, _⟩ => rfl))

end Cert.LibAxisReads

end
-- ==== Proof.RegionTarget.lean ====
/-
  The array the target region leaves: its one grid point holds every array whole, and the body is the target
  branch (batch normalisation of the 256 targets, two dense layers with a relu between them, the rows normalised).
-/
import proofs.«133735_j11390253269678_2_alg».proof.Proof.Gen.KernelIdeal.Frame
import proofs.«133735_j11390253269678_2_alg».proof.Proof.Spec
import proofs.«133735_j11390253269678_2_alg».proof.Proof.LibKeepdims
import proofs.«133735_j11390253269678_2_alg».proof.Proof.LibAxisReads
import proofs.«133735_j11390253269678_2_alg».proof.Proof.LibPlainMatmul
import Idealize.ShloMosaic.Lib.ValueLayout

noncomputable section

namespace Cert.GCN.Regions

open Idealize.ShloMosaic Idealize.ShloMosaic.TcCoe Idealize.SL.Sem Idealize.ShloMosaic.ValueIdx
open Cert.KernelIdeal Cert.KernelIdeal.Gen Cert.GCN
open scoped BigOperators

namespace Target

/-- The sum of a column of 256 numbers, kept as a 1 × 1 matrix and divided by 256. -/
theorem colMean_apply (v : FVec Ideal S256x1 .f32) (u t : Fin 1) :
    divf (F := Ideal) (shapeCast S1x1 (multiReduction .add [0] S1 v 0x00000000#32 reduces_S256x1_S1 (.inl rfl) rfl) shapeCasts_S1_S1x1)
        (broadcast S1x1 (Scalar.ofBits .f32 0x43800000#32)) (ix2 u t)
      = Ideal.div (∑ i : Fin 256, v (ix2 i u)) c256 := by
  refine congrArg (fun z => Ideal.div z c256) ?_
  refine (Cert.LibKeepdims.shapeCast_a_a1_apply _ _ u t).trans ?_
  exact Cert.LibAxisReads.multiReduction_add_firstAxis_apply v _ _ _ _ u

/-- A 1 × 1 matrix spread over 256 rows reads its one entry. -/
theorem spread11_apply (w : FVec Ideal S1x1 .f32) (r : Fin 256) (t : Fin 1) :
    broadcastTo S256x1 w broadcasts_S1x1_S256x1 (ix2 r t) = w (ix2 (0 : Fin 1) (0 : Fin 1)) := by
  obtain rfl : t = 0 := Subsingleton.elim t 0
  exact broadcastTo_1b_ab_apply w _ r 0

/-! ## The body's intermediate values, named -/

/-- The batch mean, as the body holds it: a 1 × 1 matrix. -/
def kMean (x0 : Vec Ideal S256x1 .f32) : FVec Ideal S1x1 .f32 :=
  divf (F := Ideal) (shapeCast S1x1 (multiReduction .add [0] S1 x0 0x00000000#32 reduces_S256x1_S1 (.inl rfl) rfl) shapeCasts_S1_S1x1)
    (broadcast S1x1 (Scalar.ofBits .f32 0x43800000#32))

/-- The column minus its mean. -/
def kCentered (x0 : Vec Ideal S256x1 .f32) : FVec Ideal S256x1 .f32 :=
  subf (F := Ideal) (φ := .f32) x0 (broadcastTo S256x1 (kMean x0) broadcasts_S1x1_S256x1)

/-- The batch variance, as the body holds it: a 1 × 1 matrix. -/
def kVar (x0 : Vec Ideal S256x1 .f32) : FVec Ideal S1x1 .f32 :=
  divf (F := Ideal) (shapeCast S1x1 (multiReduction .add [0] S1 (mulf (kCentered x0) (kCentered x0)) 0x00000000#32
      reduces_S256x1_S1 (.inl rfl) rfl) shapeCasts_S1_S1x1)
    (broadcast S1x1 (Scalar.ofBits .f32 0x43800000#32))

/-- The batch-normalised column. -/
def kBn (x0 : Vec Ideal S256x1 .f32) (x1 x2 : Vec Ideal S1x1 .f32) : FVec Ideal S256x1 .f32 :=
  addf (F := Ideal) (φ := .f32)
    (mulf (mulf (kCentered x0)
        (broadcastTo S256x1 (rsqrt (addf (kVar x0) (broadcast S1x1 (Scalar.ofBits .f32 0x3727C5AC#32)))) broadcasts_S1x1_S256x1))
      (broadcastTo S256x1 (shapeCast S1x1 x1 shapeCasts_S1x1_S1x1) broadcasts_S1x1_S256x1))
    (broadcastTo S256x1 (shapeCast S1x1 x2 shapeCasts_S1x1_S1x1) broadcasts_S1x1_S256x1)

/-- The hidden layer: the first dense layer of the normalised column, with its relu. -/
def kHidden (x0 : Vec Ideal S256x1 .f32) (x1 x2 : Vec Ideal S1x1 .f32) (x3 x4 : Vec Ideal S1x128 .f32) : FVec Ideal S256x128 .f32 :=
  maximumf (F := Ideal) (φ := .f32)
    (addf (matmul dot_S256x1_S1x128_S256x128_1_0_0_1_n_n none (truncf .bf16 (kBn x0 x1 x2) bitsLt_bf16_f32)
        (truncf .bf16 x3 bitsLt_bf16_f32) (constant S256x128 .f32 0x00000000#32))
      (broadcastTo S256x128 (shapeCast S1x128 x4 shapeCasts_S1x128_S1x128) broadcasts_S1x128_S256x128))
    (broadcast S256x128 (Scalar.ofBits .f32 0x00000000#32))

/-- The body's first part is the hidden layer. -/
theorem k4_pay2_eq (x0 : Vec Ideal S256x1 .f32) (x1 x2 : Vec Ideal S1x1 .f32) (x3 x4 : Vec Ideal S1x128 .f32) :
    k4_pay2 (F := Ideal) x0 x1 x2 x3 x4 = truncf .bf16 (kHidden x0 x1 x2 x3 x4) bitsLt_bf16_f32 := rfl

/-! ## Their entries -/

theorem kMean_apply (x0 : Vec Ideal S256x1 .f32) :
    kMean x0 (ix2 (0 : Fin 1) (0 : Fin 1)) = Ideal.div (∑ i : Fin 256, x0 (ix2 i (0 : Fin 1))) c256 :=
  colMean_apply x0 0 0

theorem kCentered_apply (x0 : Vec Ideal S256x1 .f32) (r : Fin 256) (t : Fin 1) :
    kCentered x0 (ix2 r t) = x0 (ix2 r t) - Ideal.div (∑ i : Fin 256, x0 (ix2 i (0 : Fin 1))) c256 := by
  show x0 (ix2 r t) - broadcastTo S256x1 (kMean x0) broadcasts_S1x1_S256x1 (ix2 r t) = _
  rw [spread11_apply, kMean_apply]

theorem kVar_apply (x0 : Vec Ideal S256x1 .f32) :
    kVar x0 (ix2 (0 : Fin 1) (0 : Fin 1))
      = Ideal.div (∑ i : Fin 256, (x0 (ix2 i (0 : Fin 1)) - Ideal.div (∑ i : Fin 256, x0 (ix2 i (0 : Fin 1))) c256)
          * (x0 (ix2 i (0 : Fin 1)) - Ideal.div (∑ i : Fin 256, x0 (ix2 i (0 : Fin 1))) c256)) c256 := by
  refine (colMean_apply (mulf (kCentered x0) (kCentered x0)) 0 0).trans ?_
  refine congrArg (fun z => Ideal.div z c256) ?_
  refine Finset.sum_congr rfl fun i _ => ?_
  show kCentered x0 (ix2 i (0 : Fin 1)) * kCentered x0 (ix2 i (0 : Fin 1)) = _
  rw [kCentered_apply]

theorem kBn_apply (x0 : Vec Ideal S256x1 .f32) (x1 x2 : Vec Ideal S1x1 .f32) (r : Fin 256) (t : Fin 1) :
    kBn x0 x1 x2 (ix2 r t)
      = (x0 (ix2 r t) - Ideal.div (∑ i : Fin 256, x0 (ix2 i (0 : Fin 1))) c256)
          * Ideal.rsqrt (Ideal.div (∑ i : Fin 256, (x0 (ix2 i (0 : Fin 1)) - Ideal.div (∑ i : Fin 256, x0 (ix2 i (0 : Fin 1))) c256)
              * (x0 (ix2 i (0 : Fin 1)) - Ideal.div (∑ i : Fin 256, x0 (ix2 i (0 : Fin 1))) c256)) c256 + eps5)
          * x1 (ix2 (0 : Fin 1) (0 : Fin 1)) + x2 (ix2 (0 : Fin 1) (0 : Fin 1)) := by
  show kCentered x0 (ix2 r t)
      * broadcastTo S256x1 (rsqrt (addf (kVar x0) (broadcast S1x1 (Scalar.ofBits .f32 0x3727C5AC#32)))) broadcasts_S1x1_S256x1 (ix2 r t)
      * broadcastTo S256x1 (shapeCast S1x1 x1 shapeCasts_S1x1_S1x1) broadcasts_S1x1_S256x1 (ix2 r t)
      + broadcastTo S256x1 (shapeCast S1x1 x2 shapeCasts_S1x1_S1x1) broadcasts_S1x1_S256x1 (ix2 r t) = _
  rw [spread11_apply, spread11_apply, spread11_apply, shapeCast_self, shapeCast_self, kCentered_apply]
  show _ * Ideal.rsqrt (kVar x0 (ix2 (0 : Fin 1) (0 : Fin 1)) + eps5) * _ + _ = _
  rw [kVar_apply]

theorem kHidden_apply (x0 : Vec Ideal S256x1 .f32) (x1 x2 : Vec Ideal S1x1 .f32) (x3 x4 : Vec Ideal S1x128 .f32)
    (r : Fin 256) (k : Fin 128) :
    kHidden x0 x1 x2 x3 x4 (ix2 r k)
      = max (∑ t : Fin 1, kBn x0 x1 x2 (ix2 r t) * x3 (ix2 t k) + x4 (ix2 (0 : Fin 1) k)) 0 := by
  show max (matmul dot_S256x1_S1x128_S256x128_1_0_0_1_n_n none (truncf .bf16 (kBn x0 x1 x2) bitsLt_bf16_f32)
        (truncf .bf16 x3 bitsLt_bf16_f32) (constant S256x128 .f32 0x00000000#32) (ix2 r k)
      + broadcastTo S256x128 (shapeCast S1x128 x4 shapeCasts_S1x128_S1x128) broadcasts_S1x128_S256x128 (ix2 r k))
      (Ideal.ofBits .f32 0x00000000#32) = _
  rw [Ideal.ofBits_zero_f32, shapeCast_self, broadcastTo_1b_ab_apply]
  refine congrArg (fun z => max (z + x4 (ix2 (0 : Fin 1) k)) 0) ?_
  exact matmul_plain_zero_apply dot_S256x1_S1x128_S256x128_1_0_0_1_n_n rfl none _ _ r k

/-- Entry (r, e) of a 256 × 64 block divided row by row by the larger of the row's Euclidean norm and 1e-12. -/
theorem rowNorm_apply (v : FVec Ideal S256x64 .f32) (r : Fin 256) (e : Fin 64) :
    divf (F := Ideal) v (broadcastTo S256x64 (maximumf (sqrt (shapeCast S256x1
        (multiReduction .add [1] S256 (mulf v v) 0x00000000#32 reduces_S256x64_S256 (.inl rfl) rfl) shapeCasts_S256_S256x1))
        (broadcast S256x1 (Scalar.ofBits .f32 0x2B8CBCCC#32))) broadcasts_S256x1_S256x64) (ix2 r e)
      = Ideal.div (v (ix2 r e)) (max (Ideal.sqrt (∑ f : Fin 64, v (ix2 r f) * v (ix2 r f))) eps12) := by
  refine congrArg (Ideal.div (v (ix2 r e))) ?_
  refine (Cert.LibKeepdims.broadcastTo_a1_ac_apply _ _ r e).trans ?_
  refine congrArg (fun z => max (Ideal.sqrt z) eps12) ?_
  refine (Cert.LibKeepdims.shapeCast_a_a1_apply _ _ r 0).trans ?_
  exact Cert.LibKeepdims.multiReduction_add_lastAxis_apply (mulf v v) _ _ _ _ r

/-- Entry (r, f) of the second dense layer: the hidden row times the weights, plus the bias. -/
theorem dense2_apply (h : FVec Ideal S256x128 .bf16) (x5 : Vec Ideal S128x64 .f32) (x6 : Vec Ideal S1x64 .f32)
    (r : Fin 256) (f : Fin 64) :
    addf (F := Ideal) (φ := .f32)
        (matmul dot_S256x128_S128x64_S256x64_1_0_0_1_n_n none h (truncf .bf16 x5 bitsLt_bf16_f32) (constant S256x64 .f32 0x00000000#32))
        (broadcastTo S256x64 (shapeCast S1x64 x6 shapeCasts_S1x64_S1x64) broadcasts_S1x64_S256x64) (ix2 r f)
      = ∑ k : Fin 128, h (ix2 r k) * x5 (ix2 k f) + x6 (ix2 (0 : Fin 1) f) := by
  show matmul dot_S256x128_S128x64_S256x64_1_0_0_1_n_n none h (truncf .bf16 x5 bitsLt_bf16_f32) (constant S256x64 .f32 0x00000000#32) (ix2 r f)
      + broadcastTo S256x64 (shapeCast S1x64 x6 shapeCasts_S1x64_S1x64) broadcasts_S1x64_S256x64 (ix2 r f) = _
  rw [shapeCast_self, broadcastTo_1b_ab_apply]
  refine congrArg (fun z => z + x6 (ix2 (0 : Fin 1) f)) ?_
  exact matmul_plain_zero_apply dot_S256x128_S128x64_S256x64_1_0_0_1_n_n rfl none _ _ r f

/-- The body's second part: the second dense layer of the hidden rows, the rows normalised. -/
theorem k4_pay1_apply (h : FVec Ideal S256x128 .bf16) (x5 : Vec Ideal S128x64 .f32) (x6 : Vec Ideal S1x64 .f32)
    (r : Fin 256) (e : Fin 64) :
    k4_pay1 (F := Ideal) h x5 x6 (ix2 r e)
      = Ideal.div (∑ k : Fin 128, h (ix2 r k) * x5 (ix2 k e) + x6 (ix2 (0 : Fin 1) e))
          (max (Ideal.sqrt (∑ f : Fin 64, (∑ k : Fin 128, h (ix2 r k) * x5 (ix2 k f) + x6 (ix2 (0 : Fin 1) f))
            * (∑ k : Fin 128, h (ix2 r k) * x5 (ix2 k f) + x6 (ix2 (0 : Fin 1) f)))) eps12) := by
  unfold k4_pay1
  refine (rowNorm_apply _ r e).trans ?_
  simp only [dense2_apply]

/-- The whole body at entry (r, e) is the target branch there. -/
theorem payload_eq_target (x0 : Vec Ideal S256x1 .f32) (x1 x2 : Vec Ideal S1x1 .f32) (x3 x4 : Vec Ideal S1x128 .f32)
    (x5 : Vec Ideal S128x64 .f32) (x6 : Vec Ideal S1x64 .f32) (r : Fin 256) (e : Fin 64) :
    k4_pay1 (F := Ideal) (k4_pay2 x0 x1 x2 x3 x4) x5 x6 (ix2 r e)
      = target x0 (rowOf x1) (rowOf x2) x3 (rowOf x4) x5 (rowOf x6) (ix2 r e) := by
  rw [k4_pay1_apply, k4_pay2_eq]
  simp only [truncf_apply, kHidden_apply, kBn_apply]
  rfl

/-- The same, for blocks that are the arrays. -/
theorem payload_eq_target_of (x0 : Vec Ideal S256x1 .f32) (x1 x2 : Vec Ideal S1x1 .f32) (x3 x4 : Vec Ideal S1x128 .f32)
    (x5 : Vec Ideal S128x64 .f32) (x6 : Vec Ideal S1x64 .f32)
    (A0 : Mat 256 1) (A1 A2 : Mat 1 1) (A3 A4 : Mat 1 128) (A5 : Mat 128 64) (A6 : Mat 1 64)
    (h0 : x0 = A0) (h1 : x1 = A1) (h2 : x2 = A2) (h3 : x3 = A3) (h4 : x4 = A4) (h5 : x5 = A5) (h6 : x6 = A6)
    (r : Fin 256) (e : Fin 64) :
    k4_pay1 (F := Ideal) (k4_pay2 x0 x1 x2 x3 x4) x5 x6 (ix2 r e)
      = target A0 (rowOf A1) (rowOf A2) A3 (rowOf A4) A5 (rowOf A6) (ix2 r e) := by
  subst h0 h1 h2 h3 h4 h5 h6
  exact payload_eq_target x0 x1 x2 x3 x4 x5 x6 r e

variable (V : (c : Dev nD) → (b : Ref sig .tc) → Buf (Elt Ideal) ((c : Thread nD τ).loc b))

theorem hz : (![0, 0] : Fin 2 → Nat) = fun _ => 0 := funext fun a => by fin_cases a <;> rfl

/-- Every window's one block starts at the origin of its array. -/
theorem idx4_0 : ∀ t : Fin cfg4.N, win4_0.index t (0 : Fin 2) = 0 ∧ win4_0.index t (1 : Fin 2) = 0 :=
  (by decide +kernel : ∀ t : Fin grid4.N, _)
theorem idx4_1 : ∀ t : Fin cfg4.N, win4_1.index t (0 : Fin 2) = 0 ∧ win4_1.index t (1 : Fin 2) = 0 :=
  (by decide +kernel : ∀ t : Fin grid4.N, _)
theorem idx4_2 : ∀ t : Fin cfg4.N, win4_2.index t (0 : Fin 2) = 0 ∧ win4_2.index t (1 : Fin 2) = 0 :=
  (by decide +kernel : ∀ t : Fin grid4.N, _)
theorem idx4_3 : ∀ t : Fin cfg4.N, win4_3.index t (0 : Fin 2) = 0 ∧ win4_3.index t (1 : Fin 2) = 0 :=
  (by decide +kernel : ∀ t : Fin grid4.N, _)
theorem idx4_4 : ∀ t : Fin cfg4.N, win4_4.index t (0 : Fin 2) = 0 ∧ win4_4.index t (1 : Fin 2) = 0 :=
  (by decide +kernel : ∀ t : Fin grid4.N, _)
theorem idx4_5 : ∀ t : Fin cfg4.N, win4_5.index t (0 : Fin 2) = 0 ∧ win4_5.index t (1 : Fin 2) = 0 :=
  (by decide +kernel : ∀ t : Fin grid4.N, _)
theorem idx4_6 : ∀ t : Fin cfg4.N, win4_6.index t (0 : Fin 2) = 0 ∧ win4_6.index t (1 : Fin 2) = 0 :=
  (by decide +kernel : ∀ t : Fin grid4.N, _)
theorem idx4_7 : ∀ t : Fin cfg4.N, win4_7.index t (0 : Fin 2) = 0 ∧ win4_7.index t (1 : Fin 2) = 0 :=
  (by decide +kernel : ∀ t : Fin grid4.N, _)

theorem iblk4_0_eq (c : Dev nD) (t : Fin cfg4.N) :
    (iblk4 (F := Ideal) V c 0 t : Vec Ideal S256x1 .f32) = (V c main_arg1 : S256x1.Idx → EReal) := by
  obtain ⟨e0, e1⟩ := idx4_0 t
  funext x
  unfold iblk4
  rw [View.read_apply]
  show V c main_arg1 _ = V c main_arg1 _
  congr 1
  funext a
  apply Fin.ext
  match a with
  | ⟨0, _⟩ => show win4_0.index t (0 : Fin 2) * 256 + 1 * (x 0).val = (x 0).val; rw [e0]; omega
  | ⟨1, _⟩ => show win4_0.index t (1 : Fin 2) * 1 + 1 * (x 1).val = (x 1).val; rw [e1]; omega

theorem iblk4_1_eq (c : Dev nD) (t : Fin cfg4.N) :
    (iblk4 (F := Ideal) V c 1 t : Vec Ideal S1x1 .f32) = (V c main_v56 : S1x1.Idx → EReal) := by
  obtain ⟨e0, e1⟩ := idx4_1 t
  funext x
  unfold iblk4
  rw [View.read_apply]
  show V c main_v56 _ = V c main_v56 _
  congr 1
  funext a
  apply Fin.ext
  match a with
  | ⟨0, _⟩ => show win4_1.index t (0 : Fin 2) * 1 + 1 * (x 0).val = (x 0).val; rw [e0]; omega
  | ⟨1, _⟩ => show win4_1.index t (1 : Fin 2) * 1 + 1 * (x 1).val = (x 1).val; rw [e1]; omega

theorem iblk4_2_eq (c : Dev nD) (t : Fin cfg4.N) :
    (iblk4 (F := Ideal) V c 2 t : Vec Ideal S1x1 .f32) = (V c main_v57 : S1x1.Idx → EReal) := by
  obtain ⟨e0, e1⟩ := idx4_2 t
  funext x
  unfold iblk4
  rw [View.read_apply]
  show V c main_v57 _ = V c main_v57 _
  congr 1
  funext a
  apply Fin.ext
  match a with
  | ⟨0, _⟩ => show win4_2.index t (0 : Fin 2) * 1 + 1 * (x 0).val = (x 0).val; rw [e0]; omega
  | ⟨1, _⟩ => show win4_2.index t (1 : Fin 2) * 1 + 1 * (x 1).val = (x 1).val; rw [e1]; omega

theorem iblk4_3_eq (c : Dev nD) (t : Fin cfg4.N) :
    (iblk4 (F := Ideal) V c 3 t : Vec Ideal S1x128 .f32) = (V c main_arg11 : S1x128.Idx → EReal) := by
  obtain ⟨e0, e1⟩ := idx4_3 t
  funext x
  unfold iblk4
  rw [View.read_apply]
  show V c main_arg11 _ = V c main_arg11 _
  congr 1
  funext a
  apply Fin.ext
  match a with
  | ⟨0, _⟩ => show win4_3.index t (0 : Fin 2) * 1 + 1 * (x 0).val = (x 0).val; rw [e0]; omega
  | ⟨1, _⟩ => show win4_3.index t (1 : Fin 2) * 128 + 1 * (x 1).val = (x 1).val; rw [e1]; omega

theorem iblk4_4_eq (c : Dev nD) (t : Fin cfg4.N) :
    (iblk4 (F := Ideal) V c 4 t : Vec Ideal S1x128 .f32) = (V c main_v58 : S1x128.Idx → EReal) := by
  obtain ⟨e0, e1⟩ := idx4_4 t
  funext x
  unfold iblk4
  rw [View.read_apply]
  show V c main_v58 _ = V c main_v58 _
  congr 1
  funext a
  apply Fin.ext
  match a with
  | ⟨0, _⟩ => show win4_4.index t (0 : Fin 2) * 1 + 1 * (x 0).val = (x 0).val; rw [e0]; omega
  | ⟨1, _⟩ => show win4_4.index t (1 : Fin 2) * 128 + 1 * (x 1).val = (x 1).val; rw [e1]; omega

theorem iblk4_5_eq (c : Dev nD) (t : Fin cfg4.N) :
    (iblk4 (F := Ideal) V c 5 t : Vec Ideal S128x64 .f32) = (V c main_arg13 : S128x64.Idx → EReal) := by
  obtain ⟨e0, e1⟩ := idx4_5 t
  funext x
  unfold iblk4
  rw [View.read_apply]
  show V c main_arg13 _ = V c main_arg13 _
  congr 1
  funext a
  apply Fin.ext
  match a with
  | ⟨0, _⟩ => show win4_5.index t (0 : Fin 2) * 128 + 1 * (x 0).val = (x 0).val; rw [e0]; omega
  | ⟨1, _⟩ => show win4_5.index t (1 : Fin 2) * 64 + 1 * (x 1).val = (x 1).val; rw [e1]; omega

theorem iblk4_6_eq (c : Dev nD) (t : Fin cfg4.N) :
    (iblk4 (F := Ideal) V c 6 t : Vec Ideal S1x64 .f32) = (V c main_v59 : S1x64.Idx → EReal) := by
  obtain ⟨e0, e1⟩ := idx4_6 t
  funext x
  unfold iblk4
  rw [View.read_apply]
  show V c main_v59 _ = V c main_v59 _
  congr 1
  funext a
  apply Fin.ext
  match a with
  | ⟨0, _⟩ => show win4_6.index t (0 : Fin 2) * 1 + 1 * (x 0).val = (x 0).val; rw [e0]; omega
  | ⟨1, _⟩ => show win4_6.index t (1 : Fin 2) * 64 + 1 * (x 1).val = (x 1).val; rw [e1]; omega

theorem flushed4_eq (c : Dev nD) (t : Fin cfg4.N) :
    (dat4 (F := Ideal) V c).flushed 7 t = ((cfg4.win 7).blk t).view.read (Elt Ideal)
      (target (V c main_arg1) (rowOf (V c main_v56)) (rowOf (V c main_v57)) (V c main_arg11)
        (rowOf (V c main_v58)) (V c main_arg13) (rowOf (V c main_v59))) := by
  show (cfg4.win 7).cut (grid4.coords t) ((dat4 V c).after 7 t) = _
  rw [after4_7]
  unfold out4_7
  rw [View.canon_unit_zero hz]
  simp only [View.ld_unit_zero (S := S256x1) hz, View.ld_unit_zero (S := S1x1) hz, View.ld_unit_zero (S := S1x128) hz,
    View.ld_unit_zero (S := S128x64) hz, View.ld_unit_zero (S := S1x64) hz]
  funext j
  have hr : (j 0).val < 256 := (j 0).isLt
  have he : (j 1).val < 64 := (j 1).isLt
  obtain ⟨e0, e1⟩ := idx4_7 t
  have hx : (win4 7).xinj (grid4.coords t) j = ix2 (⟨(j 0).val, hr⟩ : Fin 256) (⟨(j 1).val, he⟩ : Fin 64) :=
    funext fun a => by match a with | ⟨0, _⟩ => rfl | ⟨1, _⟩ => rfl
  have hy : ((View.whole main_v60).slice ((win4 7).rect t)).emb j
      = ix2 (⟨(j 0).val, hr⟩ : Fin 256) (⟨(j 1).val, he⟩ : Fin 64) := by
    funext a
    apply Fin.ext
    match a with
    | ⟨0, _⟩ => show win4_7.index t (0 : Fin 2) * 256 + 1 * (j 0).val = (j 0).val; rw [e0]; omega
    | ⟨1, _⟩ => show win4_7.index t (1 : Fin 2) * 64 + 1 * (j 1).val = (j 1).val; rw [e1]; omega
  show k4_pay1 (k4_pay2 (iblk4 V c 0 t) (iblk4 V c 1 t) (iblk4 V c 2 t) (iblk4 V c 3 t) (iblk4 V c 4 t)) (iblk4 V c 5 t)
        (iblk4 V c 6 t) ((win4 7).xinj (grid4.coords t) j)
    = target (V c main_arg1) (rowOf (V c main_v56)) (rowOf (V c main_v57)) (V c main_arg11) (rowOf (V c main_v58))
        (V c main_arg13) (rowOf (V c main_v59)) (((View.whole main_v60).slice ((win4 7).rect t)).emb j)
  rw [hx, hy]
  exact payload_eq_target_of (iblk4 V c 0 t) (iblk4 V c 1 t) (iblk4 V c 2 t) (iblk4 V c 3 t) (iblk4 V c 4 t) (iblk4 V c 5 t)
    (iblk4 V c 6 t) (V c main_arg1) (V c main_v56) (V c main_v57) (V c main_arg11) (V c main_v58) (V c main_arg13) (V c main_v59)
    (iblk4_0_eq V c t) (iblk4_1_eq V c t) (iblk4_2_eq V c t) (iblk4_3_eq V c t) (iblk4_4_eq V c t) (iblk4_5_eq V c t)
    (iblk4_6_eq V c t) ⟨(j 0).val, hr⟩ ⟨(j 1).val, he⟩

/-- An index of the output array is in the one point's block iff each coordinate is in the block's range on its axis. -/
theorem mem_blk4 (t : Fin cfg4.N) (i : S256x64.Idx) :
    i ∈ ((cfg4.win 7).blk t).view.set ↔ ∀ a : Fin 2, win4_7.index t a * S256x64.size a ≤ (i a).val
      ∧ (i a).val < win4_7.index t a * S256x64.size a + S256x64.size a := by
  show i ∈ ((View.whole main_v60).slice (win4_7.rect t)).set ↔ _
  rw [View.set_slice_whole, Rect.mem_set_unit]
  exact Iff.rfl

end Target

variable (V : (c : Dev nD) → (b : Ref sig .tc) → Buf (Elt Ideal) ((c : Thread nD τ).loc b))

/-- Region 4 leaves the target embeddings. -/
theorem region4 (c : Dev nD) :
    (dat4 (F := Ideal) V c).arrAt 7 cfg4.N = target (V c main_arg1) (rowOf (V c main_v56)) (rowOf (V c main_v57)) (V c main_arg11)
      (rowOf (V c main_v58)) (V c main_arg13) (rowOf (V c main_v59)) :=
  (dat4 (F := Ideal) V c).arrAt_eq_of_cover 7 _ (fun t _ => Target.flushed4_eq V c t) fun i => by
    have hi0 : (i 0).val < 256 := (i 0).isLt
    have hi1 : (i 1).val < 64 := (i 1).isLt
    obtain ⟨e0, e1⟩ := Target.idx4_7 t4_0
    refine ⟨t4_0, flush4_7 t4_0, ?_⟩
    rw [Target.mem_blk4]
    intro a
    match a with
    | ⟨0, _⟩ =>
      show win4_7.index t4_0 (0 : Fin 2) * 256 ≤ (i 0).val ∧ (i 0).val < win4_7.index t4_0 (0 : Fin 2) * 256 + 256
      rw [e0]; omega
    | ⟨1, _⟩ =>
      show win4_7.index t4_0 (1 : Fin 2) * 64 ≤ (i 1).val ∧ (i 1).val < win4_7.index t4_0 (1 : Fin 2) * 64 + 64
      rw [e1]; omega

end Cert.GCN.Regions

end
-- ==== Proof.KernelRunValues.lean ====
/-
  The two results of the program read through its twelve segments.

  Each lemma names what one buffer holds at one boundary, as a function of the launch arrays: a host stretch's result
  by the stretch's fold at the contents of the boundary before it, a region's output by the region's law at its entry
  contents, a buffer a segment does not touch by carrying it across. The node embeddings come out as three layers,
  each a dense product scaled by the nodes' factor and aggregated over the edges, then the normalised rows; the target
  embeddings come out of the last region alone.
-/
import proofs.«133735_j11390253269678_2_alg».proof.Proof.KernelRunCarry
import proofs.«133735_j11390253269678_2_alg».proof.Proof.KernelRunHost
import proofs.«133735_j11390253269678_2_alg».proof.Proof.RegionsDense
import proofs.«133735_j11390253269678_2_alg».proof.Proof.RegionsNorm
import proofs.«133735_j11390253269678_2_alg».proof.Proof.RegionTarget
import proofs.«133735_j11390253269678_2_alg».proof.Proof.LibKeepdims

set_option maxRecDepth 16384

noncomputable section

namespace Cert.GCN.Kern

open Idealize.ShloMosaic Idealize.ShloMosaic.TcCoe Idealize.SL.Sem Idealize.ShloMosaic.ValueIdx
open Cert.KernelIdeal Cert.KernelIdeal.Facts₀ Cert.KernelIdeal.Facts Cert.KernelIdeal.Gen Cert.GCN

/-- The column of a vector recast as an [a, 1] matrix is the vector. -/
theorem colOf_cast {a : ℕ} (d : Row a) (h : (⟨1, ![a]⟩ : Shape).ShapeCasts ⟨2, ![a, 1]⟩) :
    colOf (shapeCast ⟨2, ![a, 1]⟩ d h) = d := funext fun i =>
  (Cert.LibKeepdims.shapeCast_a_a1_apply d h (i 0) (0 : Fin 1)).trans (congrArg d (eq_ix1 i).symm)

/-- The row of a vector recast as a [1, b] matrix is the vector. -/
theorem rowOf_cast {b : ℕ} (v : Row b) (h : (⟨1, ![b]⟩ : Shape).ShapeCasts ⟨2, ![1, b]⟩) :
    rowOf (shapeCast ⟨2, ![1, b]⟩ v h) = v := funext fun i =>
  (shapeCast_a_1a_apply v h (0 : Fin 1) (i 0)).trans (congrArg v (eq_ix1 i).symm)

/-! ## The layers -/

/-- The first dense product, row r scaled by the factor of node r. -/
def lay0 (x : Mat 50000 128) (ei : IVec S2x800000 32) (W1 : Mat 128 128) : Mat 50000 128 := scaleRows (dense x W1) (dK ei)
/-- The second layer's prologue on the first aggregation. -/
def lay1 (x : Mat 50000 128) (ei : IVec S2x800000 32) (W1 : Mat 128 128) (b1 : Row 128) (W2 : Mat 128 128) : Mat 50000 128 :=
  fused (agg128 ei (lay0 x ei W1)) (dK ei) b1 W2
/-- The third layer's prologue on the second aggregation. -/
def lay2 (x : Mat 50000 128) (ei : IVec S2x800000 32) (W1 : Mat 128 128) (b1 : Row 128) (W2 : Mat 128 128) (b2 : Row 128)
    (W3 : Mat 128 64) : Mat 50000 64 :=
  fused (agg128 ei (lay1 x ei W1 b1 W2)) (dK ei) b2 W3

/-- The node embeddings are the normalised rows of the third aggregation, scaled and biased. -/
theorem xK_eq (x : Mat 50000 128) (ei : IVec S2x800000 32) (W1 : Mat 128 128) (b1 : Row 128) (W2 : Mat 128 128) (b2 : Row 128)
    (W3 : Mat 128 64) (b3 : Row 64) :
    xK x ei W1 b1 W2 b2 W3 b3 = normRows (addBias (scaleRows (agg64 ei (lay2 x ei W1 b1 W2 b2 W3)) (dK ei)) b3) := rfl

variable (m : (ℓ : Loc nD τ sig) → Buf (Elt Ideal) ℓ) (ρ : Dev nD → PrngReg) (c : Dev nD)

/-! ## After the first stretch -/

theorem B1_v3 : W1 m ρ c (Proc.devRef .tc main_v3) = srcK (m ((c.tc : Thread nD τ).loc main_arg2)) := h0_v3 (W0 m ρ c)
theorem B1_v6 : W1 m ρ c (Proc.devRef .tc main_v6) = dstK (m ((c.tc : Thread nD τ).loc main_arg2)) := h0_v6 (W0 m ρ c)
theorem B1_v12 : W1 m ρ c (Proc.devRef .tc main_v12) = cmpf .ogt (degK (m ((c.tc : Thread nD τ).loc main_arg2))) z1 := h0_v12 (W0 m ρ c)
theorem B1_v13 : W1 m ρ c (Proc.devRef .tc main_v13) = Host.rsqrt (F := Ideal) (degK (m ((c.tc : Thread nD τ).loc main_arg2))) := h0_v13 (W0 m ρ c)
theorem B1_cst2 : W1 m ρ c (Proc.devRef .tc main_cst_2) = constant (F := Ideal) S_ .f32 0x00000000#32 := h0_cst2 (W0 m ρ c)

/-- The nodes' factor, after the select. -/
theorem B2_v14 : W2 m ρ c (Proc.devRef .tc main_v14) = dK (m ((c.tc : Thread nD τ).loc main_arg2)) := by
  refine (h01_v14 (W1 m ρ c)).trans ?_
  rw [B1_v12 m ρ c, B1_v13 m ρ c, B1_cst2 m ρ c]; rfl

/-! ## The edge endpoints and the factor, carried to the later stretches -/

theorem C4_v3 : W4 m ρ c (Proc.devRef .tc main_v3) = srcK (m ((c.tc : Thread nD τ).loc main_arg2)) :=
  (S4 m ρ c main_v3 (by decide)).trans ((S3 m ρ c main_v3 (by decide)).trans ((S2 m ρ c main_v3 (by decide)).trans (B1_v3 m ρ c)))
theorem C6_v3 : W6 m ρ c (Proc.devRef .tc main_v3) = srcK (m ((c.tc : Thread nD τ).loc main_arg2)) :=
  (S6 m ρ c main_v3 (by decide)).trans ((S5 m ρ c main_v3 (by decide)).trans (C4_v3 m ρ c))
theorem C8_v3 : W8 m ρ c (Proc.devRef .tc main_v3) = srcK (m ((c.tc : Thread nD τ).loc main_arg2)) :=
  (S8 m ρ c main_v3 (by decide)).trans ((S7 m ρ c main_v3 (by decide)).trans (C6_v3 m ρ c))
theorem C4_v6 : W4 m ρ c (Proc.devRef .tc main_v6) = dstK (m ((c.tc : Thread nD τ).loc main_arg2)) :=
  (S4 m ρ c main_v6 (by decide)).trans ((S3 m ρ c main_v6 (by decide)).trans ((S2 m ρ c main_v6 (by decide)).trans (B1_v6 m ρ c)))
theorem C6_v6 : W6 m ρ c (Proc.devRef .tc main_v6) = dstK (m ((c.tc : Thread nD τ).loc main_arg2)) :=
  (S6 m ρ c main_v6 (by decide)).trans ((S5 m ρ c main_v6 (by decide)).trans (C4_v6 m ρ c))
theorem C8_v6 : W8 m ρ c (Proc.devRef .tc main_v6) = dstK (m ((c.tc : Thread nD τ).loc main_arg2)) :=
  (S8 m ρ c main_v6 (by decide)).trans ((S7 m ρ c main_v6 (by decide)).trans (C6_v6 m ρ c))
theorem C4_v14 : W4 m ρ c (Proc.devRef .tc main_v14) = dK (m ((c.tc : Thread nD τ).loc main_arg2)) :=
  (S4 m ρ c main_v14 (by decide)).trans ((S3 m ρ c main_v14 (by decide)).trans (B2_v14 m ρ c))
theorem C6_v14 : W6 m ρ c (Proc.devRef .tc main_v14) = dK (m ((c.tc : Thread nD τ).loc main_arg2)) :=
  (S6 m ρ c main_v14 (by decide)).trans ((S5 m ρ c main_v14 (by decide)).trans (C4_v14 m ρ c))
theorem C8_v14 : W8 m ρ c (Proc.devRef .tc main_v14) = dK (m ((c.tc : Thread nD τ).loc main_arg2)) :=
  (S8 m ρ c main_v14 (by decide)).trans ((S7 m ρ c main_v14 (by decide)).trans (C6_v14 m ρ c))

/-! ## Region 0 -/

theorem B3_v15 : W3 m ρ c (Proc.devRef .tc main_v15) = shapeCast S50000x1 (dK (m ((c.tc : Thread nD τ).loc main_arg2))) Facts₀.shapeCasts_S50000_S50000x1 :=
  (h02_v15 (W2 m ρ c)).trans (congrArg (fun d => shapeCast S50000x1 d Facts₀.shapeCasts_S50000_S50000x1) (B2_v14 m ρ c))

theorem B4_v16 : W4 m ρ c (Proc.devRef .tc main_v16) = lay0 (m ((c.tc : Thread nD τ).loc main_arg0)) (m ((c.tc : Thread nD τ).loc main_arg2)) (m ((c.tc : Thread nD τ).loc main_arg3)) := by
  refine (W4_arr m ρ c 3).trans ((Regions.region0 (V3 m ρ) c).trans ?_)
  rw [show V3 m ρ c main_arg0 = m ((c.tc : Thread nD τ).loc main_arg0) from L3 m ρ c main_arg0 (by decide),
    show V3 m ρ c main_arg3 = m ((c.tc : Thread nD τ).loc main_arg3) from L3 m ρ c main_arg3 (by decide),
    show V3 m ρ c main_v15 = _ from B3_v15 m ρ c, colOf_cast]
  rfl

/-! ## Region 1 -/

theorem B5_v26 : W5 m ρ c (Proc.devRef .tc main_v26) = agg128 (m ((c.tc : Thread nD τ).loc main_arg2)) (lay0 (m ((c.tc : Thread nD τ).loc main_arg0)) (m ((c.tc : Thread nD τ).loc main_arg2)) (m ((c.tc : Thread nD τ).loc main_arg3))) := by
  refine (h1_v26 (W4 m ρ c)).trans ?_
  rw [C4_v3 m ρ c, C4_v6 m ρ c, B4_v16 m ρ c]; rfl
theorem B5_v27 : W5 m ρ c (Proc.devRef .tc main_v27) = shapeCast S50000x1 (dK (m ((c.tc : Thread nD τ).loc main_arg2))) Facts₀.shapeCasts_S50000_S50000x1 :=
  (h1_v27 (W4 m ρ c)).trans (congrArg (fun d => shapeCast S50000x1 d Facts₀.shapeCasts_S50000_S50000x1) (C4_v14 m ρ c))
theorem B5_v28 : W5 m ρ c (Proc.devRef .tc main_v28) = shapeCast S1x128 (m ((c.tc : Thread nD τ).loc main_arg4)) Facts₀.shapeCasts_S128_S1x128 :=
  (h1_v28 (W4 m ρ c)).trans (congrArg (fun d => shapeCast S1x128 d Facts₀.shapeCasts_S128_S1x128) (L4 m ρ c main_arg4 (by decide)))

theorem B6_v29 : W6 m ρ c (Proc.devRef .tc main_v29) = lay1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) := by
  refine (W6_arr m ρ c 4).trans ((Regions.region1 (V5 m ρ) c).trans ?_)
  rw [show V5 m ρ c main_v26 = _ from B5_v26 m ρ c, show V5 m ρ c main_v27 = _ from B5_v27 m ρ c,
    show V5 m ρ c main_v28 = _ from B5_v28 m ρ c,
    show V5 m ρ c main_arg5 = m ((c.tc : Thread nD τ).loc main_arg5) from L5 m ρ c main_arg5 (by decide), colOf_cast, rowOf_cast]
  rfl

/-! ## Region 2 -/

theorem B7_v39 : W7 m ρ c (Proc.devRef .tc main_v39) = agg128 (m ((c.tc : Thread nD τ).loc main_arg2)) (lay1 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5))) := by
  refine (h2_v39 (W6 m ρ c)).trans ?_
  rw [C6_v3 m ρ c, C6_v6 m ρ c, B6_v29 m ρ c]; rfl
theorem B7_v40 : W7 m ρ c (Proc.devRef .tc main_v40) = shapeCast S50000x1 (dK (m ((c.tc : Thread nD τ).loc main_arg2))) Facts₀.shapeCasts_S50000_S50000x1 :=
  (h2_v40 (W6 m ρ c)).trans (congrArg (fun d => shapeCast S50000x1 d Facts₀.shapeCasts_S50000_S50000x1) (C6_v14 m ρ c))
theorem B7_v41 : W7 m ρ c (Proc.devRef .tc main_v41) = shapeCast S1x128 (m ((c.tc : Thread nD τ).loc main_arg6)) Facts₀.shapeCasts_S128_S1x128 :=
  (h2_v41 (W6 m ρ c)).trans (congrArg (fun d => shapeCast S1x128 d Facts₀.shapeCasts_S128_S1x128) (L6 m ρ c main_arg6 (by decide)))

theorem B8_v42 : W8 m ρ c (Proc.devRef .tc main_v42)
    = lay2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 4).trans ((Regions.region2 (V7 m ρ) c).trans ?_)
  rw [show V7 m ρ c main_v39 = _ from B7_v39 m ρ c, show V7 m ρ c main_v40 = _ from B7_v40 m ρ c,
    show V7 m ρ c main_v41 = _ from B7_v41 m ρ c,
    show V7 m ρ c main_arg7 = m ((c.tc : Thread nD τ).loc main_arg7) from L7 m ρ c main_arg7 (by decide), colOf_cast, rowOf_cast]
  rfl

/-! ## Region 3: the node embeddings -/

theorem B9_v52 : W9 m ρ c (Proc.devRef .tc main_v52)
    = agg64 (m ((c.tc : Thread nD τ).loc main_arg2)) (lay2 (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))) := by
  refine (h3_v52 (W8 m ρ c)).trans ?_
  rw [C8_v3 m ρ c, C8_v6 m ρ c, B8_v42 m ρ c]; rfl
theorem B9_v53 : W9 m ρ c (Proc.devRef .tc main_v53) = shapeCast S50000x1 (dK (m ((c.tc : Thread nD τ).loc main_arg2))) Facts₀.shapeCasts_S50000_S50000x1 :=
  (h3_v53 (W8 m ρ c)).trans (congrArg (fun d => shapeCast S50000x1 d Facts₀.shapeCasts_S50000_S50000x1) (C8_v14 m ρ c))
theorem B9_v54 : W9 m ρ c (Proc.devRef .tc main_v54) = shapeCast S1x64 (m ((c.tc : Thread nD τ).loc main_arg8)) Facts₀.shapeCasts_S64_S1x64 :=
  (h3_v54 (W8 m ρ c)).trans (congrArg (fun d => shapeCast S1x64 d Facts₀.shapeCasts_S64_S1x64) (L8 m ρ c main_arg8 (by decide)))

/-- The first result: the node embeddings. -/
theorem value55 : W12 (F := Ideal) m ρ c (Proc.devRef .tc main_v55)
    = xK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  refine (S12 m ρ c main_v55 (by decide)).trans ((S11 m ρ c main_v55 (by decide)).trans ?_)
  refine (W10_arr m ρ c 3).trans ((Regions.region3 (V9 m ρ) c).trans ?_)
  rw [show V9 m ρ c main_v52 = _ from B9_v52 m ρ c, show V9 m ρ c main_v53 = _ from B9_v53 m ρ c,
    show V9 m ρ c main_v54 = _ from B9_v54 m ρ c, colOf_cast, rowOf_cast]
  rfl

/-! ## Region 4: the target embeddings -/

theorem B11_v56 : W11 m ρ c (Proc.devRef .tc main_v56) = shapeCast S1x1 (m ((c.tc : Thread nD τ).loc main_arg9)) Facts₀.shapeCasts_S1_S1x1 :=
  (h4_v56 (W10 m ρ c)).trans (congrArg (fun d => shapeCast S1x1 d Facts₀.shapeCasts_S1_S1x1) (L10 m ρ c main_arg9 (by decide)))
theorem B11_v57 : W11 m ρ c (Proc.devRef .tc main_v57) = shapeCast S1x1 (m ((c.tc : Thread nD τ).loc main_arg10)) Facts₀.shapeCasts_S1_S1x1 :=
  (h4_v57 (W10 m ρ c)).trans (congrArg (fun d => shapeCast S1x1 d Facts₀.shapeCasts_S1_S1x1) (L10 m ρ c main_arg10 (by decide)))
theorem B11_v58 : W11 m ρ c (Proc.devRef .tc main_v58) = shapeCast S1x128 (m ((c.tc : Thread nD τ).loc main_arg12)) Facts₀.shapeCasts_S128_S1x128 :=
  (h4_v58 (W10 m ρ c)).trans (congrArg (fun d => shapeCast S1x128 d Facts₀.shapeCasts_S128_S1x128) (L10 m ρ c main_arg12 (by decide)))
theorem B11_v59 : W11 m ρ c (Proc.devRef .tc main_v59) = shapeCast S1x64 (m ((c.tc : Thread nD τ).loc main_arg14)) Facts₀.shapeCasts_S64_S1x64 :=
  (h4_v59 (W10 m ρ c)).trans (congrArg (fun d => shapeCast S1x64 d Facts₀.shapeCasts_S64_S1x64) (L10 m ρ c main_arg14 (by decide)))

/-- The second result: the target embeddings. -/
theorem value60 : W12 (F := Ideal) m ρ c (Proc.devRef .tc main_v60)
    = target (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  refine (W12_arr m ρ c 7).trans ((Regions.region4 (V11 m ρ) c).trans ?_)
  rw [show V11 m ρ c main_arg1 = m ((c.tc : Thread nD τ).loc main_arg1) from L11 m ρ c main_arg1 (by decide),
    show V11 m ρ c main_arg11 = m ((c.tc : Thread nD τ).loc main_arg11) from L11 m ρ c main_arg11 (by decide),
    show V11 m ρ c main_arg13 = m ((c.tc : Thread nD τ).loc main_arg13) from L11 m ρ c main_arg13 (by decide),
    show V11 m ρ c main_v56 = _ from B11_v56 m ρ c, show V11 m ρ c main_v57 = _ from B11_v57 m ρ c,
    show V11 m ρ c main_v58 = _ from B11_v58 m ρ c, show V11 m ρ c main_v59 = _ from B11_v59 m ρ c]
  rw [rowOf_cast, rowOf_cast, rowOf_cast, rowOf_cast]

end Cert.GCN.Kern

end
-- ==== Proof.KernelRun.lean ====
/-
  The program's run with its two results named: from any memory with zero counters every weakly fair execution
  terminates, nothing faulting, the node embeddings and the target embeddings are the functions of the launch arrays
  read off the program's segments, and every argument array ends as launched.
-/
import proofs.«133735_j11390253269678_2_alg».proof.Proof.KernelRunEnd
import proofs.«133735_j11390253269678_2_alg».proof.Proof.KernelRunValues

set_option maxRecDepth 16384

noncomputable section

namespace Cert.GCN.Kern

open Idealize.ShloMosaic Idealize.ShloMosaic.TcCoe Idealize.SL.Sem Idealize.ShloMosaic.ValueIdx
open Cert.KernelIdeal Cert.KernelIdeal.Gen Cert.GCN

theorem run (m : (ℓ : Loc nD τ sig) → Buf (Elt Ideal) ℓ) (ρ : Dev nD → PrngReg) :
    θ_run (Cert.KernelIdeal.defs (F := Ideal)) (onTc (τ := τ) (main (F := Ideal))) ⟨m, fun _ => 0, ρ⟩ (fun r => ∀ c : Dev nD,
      r.2.mem ((c.tc : Thread nD τ).loc main_v55)
        = xK (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v60)
        = target (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run _ _ _).mono (fun r h c =>
    ⟨(h c main_v55 (by decide)).trans (value55 m ρ c),
     (h c main_v60 (by decide)).trans (value60 m ρ c),
     (h c main_arg0 (by decide)).trans (W12_main_arg0 m ρ c),
     (h c main_arg1 (by decide)).trans (W12_main_arg1 m ρ c),
     (h c main_arg2 (by decide)).trans (W12_main_arg2 m ρ c),
     (h c main_arg3 (by decide)).trans (W12_main_arg3 m ρ c),
     (h c main_arg4 (by decide)).trans (W12_main_arg4 m ρ c),
     (h c main_arg5 (by decide)).trans (W12_main_arg5 m ρ c),
     (h c main_arg6 (by decide)).trans (W12_main_arg6 m ρ c),
     (h c main_arg7 (by decide)).trans (W12_main_arg7 m ρ c),
     (h c main_arg8 (by decide)).trans (W12_main_arg8 m ρ c),
     (h c main_arg9 (by decide)).trans (W12_main_arg9 m ρ c),
     (h c main_arg10 (by decide)).trans (W12_main_arg10 m ρ c),
     (h c main_arg11 (by decide)).trans (W12_main_arg11 m ρ c),
     (h c main_arg12 (by decide)).trans (W12_main_arg12 m ρ c),
     (h c main_arg13 (by decide)).trans (W12_main_arg13 m ρ c),
     (h c main_arg14 (by decide)).trans (W12_main_arg14 m ρ c)⟩)
    (run_end m ρ)

end Cert.GCN.Kern

end
-- ==== Proof.RefOps.lean ====
/-
  The reference program's 221 host operations, in program order, as six consecutive lists (the functions it
  calls written out at their calls, each operation at the buffer of the value it defines), and their concatenation.
-/
import proofs.«133735_j11390253269678_2_alg».proof.ReferenceIdeal
import proofs.«133735_j11390253269678_2_alg».proof.Proof.Gen.ReferenceIdeal
import Idealize.ShloMosaic.Lib.StableHlo.Run

noncomputable section

namespace Cert.GCN.Ref

open Cert.ReferenceIdeal Cert.ReferenceIdeal.Gen Idealize.ShloMosaic Idealize.ShloMosaic.TcCoe Idealize.SL.Sem Idealize.ShloMosaic.StableHlo

variable {F : FTy → Type} [FloatOps F]

/-- The edge lists and the degree factor: the source column (the first row of the edge array followed by every node index), the destination column (the second row followed by every node index), the number of edges arriving at each node, and its inverse square root, zero where no edge arrives. (21 operations.) -/
abbrev opsP : List (HloOp τ sig (Elt F)) :=
  [ StableHlo.nullary main_v0 (iotaInDim S50000 32 0),
    StableHlo.unary main_arg2 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg2 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.TRef.unary (.of main_cst_2 : StableHlo.TRef sig ⟨S_, .f32⟩) main_call0.v0 id,
    StableHlo.TRef.unary main_call0.v0 main_call0.v1 (broadcastInDim S50000 ![] bcast_S_S50000),
    StableHlo.TRef.ternary (.of main_v12 : StableHlo.TRef sig ⟨S50000, .i1⟩) (.of main_v13 : StableHlo.TRef sig ⟨S50000, .f32⟩) main_call0.v1 main_call0.v2 select ]

/-- Layer 1: the product of the node features with the first weight matrix, the edge factor d[src e] * d[dst e], the rows gathered at the sources and scaled by it, their sums at the destinations from zero, the bias row added, the maximum with zero. (42 operations.) -/
abbrev opsL1 : List (HloOp τ sig (Elt F)) :=
  [ StableHlo.binary main_arg0 main_arg3 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c (constantI S_ 32 0#32),
    StableHlo.unary main_c main_v16 (broadcastInDim S850000 ![] bcast_S_S850000 : (⟨S_, .i32⟩ : BufTy).Contents (Elt F) → (⟨S850000, .i32⟩ : BufTy).Contents (Elt F)),
    StableHlo.binary main_v3 main_v16 main_v17 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v18 (broadcastInDim S850000 ![] bcast_S_S850000 : (⟨S_, .i32⟩ : BufTy).Contents (Elt F) → (⟨S850000, .i32⟩ : BufTy).Contents (Elt F)),
    StableHlo.binary main_v3 main_v18 main_v19 (addi : (⟨S850000, .i32⟩ : BufTy).Contents (Elt F) → (⟨S850000, .i32⟩ : BufTy).Contents (Elt F) → (⟨S850000, .i32⟩ : BufTy).Contents (Elt F)),
    StableHlo.ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v20 main_v21 (broadcastInDim S850000x1 ![0] bcast_S850000_S850000x1_0 : (⟨S850000, .i32⟩ : BufTy).Contents (Elt F) → (⟨S850000x1, .i32⟩ : BufTy).Contents (Elt F)),
    StableHlo.binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v23 (broadcastInDim S850000 ![] bcast_S_S850000 : (⟨S_, .i32⟩ : BufTy).Contents (Elt F) → (⟨S850000, .i32⟩ : BufTy).Contents (Elt F)),
    StableHlo.binary main_v6 main_v23 main_v24 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v25 (broadcastInDim S850000 ![] bcast_S_S850000 : (⟨S_, .i32⟩ : BufTy).Contents (Elt F) → (⟨S850000, .i32⟩ : BufTy).Contents (Elt F)),
    StableHlo.binary main_v6 main_v25 main_v26 (addi : (⟨S850000, .i32⟩ : BufTy).Contents (Elt F) → (⟨S850000, .i32⟩ : BufTy).Contents (Elt F) → (⟨S850000, .i32⟩ : BufTy).Contents (Elt F)),
    StableHlo.ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v27 main_v28 (broadcastInDim S850000x1 ![0] bcast_S850000_S850000x1_0 : (⟨S850000, .i32⟩ : BufTy).Contents (Elt F) → (⟨S850000x1, .i32⟩ : BufTy).Contents (Elt F)),
    StableHlo.binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v22 main_v29 main_v30 (mulf : (⟨S850000, .f32⟩ : BufTy).Contents (Elt F) → (⟨S850000, .f32⟩ : BufTy).Contents (Elt F) → (⟨S850000, .f32⟩ : BufTy).Contents (Elt F)),
    StableHlo.unary main_v30 main_v31 (broadcastInDim S850000x1 ![0] bcast_S850000_S850000x1_0 : (⟨S850000, .f32⟩ : BufTy).Contents (Elt F) → (⟨S850000x1, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v15 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v31 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v38 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg4 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.TRef.nullary main_call1.cst (constant S_ .f32 0x00000000#32),
    StableHlo.TRef.unary main_call1.cst main_call1.v0 (broadcastInDim S50000x128 ![] bcast_S_S50000x128),
    StableHlo.TRef.binary (.of main_v46 : StableHlo.TRef sig ⟨S50000x128, .f32⟩) main_call1.v0 main_call1.v1 maximumf ]

/-- Layer 2: the same over layer 1's result with the second weight matrix and bias. (42 operations.) -/
abbrev opsL2 : List (HloOp τ sig (Elt F)) :=
  [ StableHlo.binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_11 (constantI S_ 32 0#32),
    StableHlo.unary main_c_11 main_v56 (broadcastInDim S850000 ![] bcast_S_S850000 : (⟨S_, .i32⟩ : BufTy).Contents (Elt F) → (⟨S850000, .i32⟩ : BufTy).Contents (Elt F)),
    StableHlo.binary main_v6 main_v56 main_v57 (cmpi .slt : (⟨S850000, .i32⟩ : BufTy).Contents (Elt F) → (⟨S850000, .i32⟩ : BufTy).Contents (Elt F) → (⟨S850000, .i1⟩ : BufTy).Contents (Elt F)),
    StableHlo.nullary main_c_12 (constantI S_ 32 50000#32),
    StableHlo.unary main_c_12 main_v58 (broadcastInDim S850000 ![] bcast_S_S850000 : (⟨S_, .i32⟩ : BufTy).Contents (Elt F) → (⟨S850000, .i32⟩ : BufTy).Contents (Elt F)),
    StableHlo.binary main_v6 main_v58 main_v59 (addi : (⟨S850000, .i32⟩ : BufTy).Contents (Elt F) → (⟨S850000, .i32⟩ : BufTy).Contents (Elt F) → (⟨S850000, .i32⟩ : BufTy).Contents (Elt F)),
    StableHlo.ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v60 main_v61 (broadcastInDim S850000x1 ![0] bcast_S850000_S850000x1_0 : (⟨S850000, .i32⟩ : BufTy).Contents (Elt F) → (⟨S850000x1, .i32⟩ : BufTy).Contents (Elt F)),
    StableHlo.binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v55 main_v62 main_v63 (mulf : (⟨S850000, .f32⟩ : BufTy).Contents (Elt F) → (⟨S850000, .f32⟩ : BufTy).Contents (Elt F) → (⟨S850000, .f32⟩ : BufTy).Contents (Elt F)),
    StableHlo.unary main_v63 main_v64 (broadcastInDim S850000x1 ![0] bcast_S850000_S850000x1_0 : (⟨S850000, .f32⟩ : BufTy).Contents (Elt F) → (⟨S850000x1, .f32⟩ : BufTy).Contents (Elt F)),
    StableHlo.nullary main_c_13 (constantI S_ 32 0#32),
    StableHlo.unary main_c_13 main_v65 (broadcastInDim S850000 ![] bcast_S_S850000 : (⟨S_, .i32⟩ : BufTy).Contents (Elt F) → (⟨S850000, .i32⟩ : BufTy).Contents (Elt F)),
    StableHlo.binary main_v3 main_v65 main_v66 (cmpi .slt : (⟨S850000, .i32⟩ : BufTy).Contents (Elt F) → (⟨S850000, .i32⟩ : BufTy).Contents (Elt F) → (⟨S850000, .i1⟩ : BufTy).Contents (Elt F)),
    StableHlo.nullary main_c_14 (constantI S_ 32 50000#32),
    StableHlo.unary main_c_14 main_v67 (broadcastInDim S850000 ![] bcast_S_S850000 : (⟨S_, .i32⟩ : BufTy).Contents (Elt F) → (⟨S850000, .i32⟩ : BufTy).Contents (Elt F)),
    StableHlo.binary main_v3 main_v67 main_v68 (addi : (⟨S850000, .i32⟩ : BufTy).Contents (Elt F) → (⟨S850000, .i32⟩ : BufTy).Contents (Elt F) → (⟨S850000, .i32⟩ : BufTy).Contents (Elt F)),
    StableHlo.ternary main_v66 main_v68 main_v3 main_v69 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v69 main_v70 (broadcastInDim S850000x1 ![0] bcast_S850000_S850000x1_0 : (⟨S850000, .i32⟩ : BufTy).Contents (Elt F) → (⟨S850000x1, .i32⟩ : BufTy).Contents (Elt F)),
    StableHlo.binary main_v48 main_v70 main_v71 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v64 main_v72 (broadcastInDim S850000x128 ![0, 1] bcast_S850000x1_S850000x128_0_1 : (⟨S850000x1, .f32⟩ : BufTy).Contents (Elt F) → (⟨S850000x128, .f32⟩ : BufTy).Contents (Elt F)),
    StableHlo.binary main_v71 main_v72 main_v73 (mulf : (⟨S850000x128, .f32⟩ : BufTy).Contents (Elt F) → (⟨S850000x128, .f32⟩ : BufTy).Contents (Elt F) → (⟨S850000x128, .f32⟩ : BufTy).Contents (Elt F)),
    StableHlo.nullary main_cst_15 (constant S_ .f32 0x00000000#32),
    StableHlo.unary main_cst_15 main_v74 (broadcastInDim S50000x128 ![] bcast_S_S50000x128 : (⟨S_, .f32⟩ : BufTy).Contents (Elt F) → (⟨S50000x128, .f32⟩ : BufTy).Contents (Elt F)),
    StableHlo.unary main_v6 main_v75 (broadcastInDim S850000x1 ![0] bcast_S850000_S850000x1_0 : (⟨S850000, .i32⟩ : BufTy).Contents (Elt F) → (⟨S850000x1, .i32⟩ : BufTy).Contents (Elt F)),
    StableHlo.ternary main_v74 main_v75 main_v73 main_v76 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v77 (broadcastInDim S1x128 ![1] bcast_S128_S1x128_1 : (⟨S128, .f32⟩ : BufTy).Contents (Elt F) → (⟨S1x128, .f32⟩ : BufTy).Contents (Elt F)),
    StableHlo.unary main_v77 main_v78 (broadcastInDim S50000x128 ![0, 1] bcast_S1x128_S50000x128_0_1 : (⟨S1x128, .f32⟩ : BufTy).Contents (Elt F) → (⟨S50000x128, .f32⟩ : BufTy).Contents (Elt F)),
    StableHlo.binary main_v76 main_v78 main_v79 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v79 : StableHlo.TRef sig ⟨S50000x128, .f32⟩) main_call2.v0 main_call2.v1 maximumf ]

/-- Layer 3: the same over layer 2's result with the third weight matrix and bias (width 64), without the maximum with zero. (39 operations.) -/
abbrev opsL3 : List (HloOp τ sig (Elt F)) :=
  [ StableHlo.binary main_v80 main_arg7 main_v81 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.nullary main_c_16 (constantI S_ 32 0#32),
    StableHlo.unary main_c_16 main_v82 (broadcastInDim S850000 ![] bcast_S_S850000 : (⟨S_, .i32⟩ : BufTy).Contents (Elt F) → (⟨S850000, .i32⟩ : BufTy).Contents (Elt F)),
    StableHlo.binary main_v3 main_v82 main_v83 (cmpi .slt : (⟨S850000, .i32⟩ : BufTy).Contents (Elt F) → (⟨S850000, .i32⟩ : BufTy).Contents (Elt F) → (⟨S850000, .i1⟩ : BufTy).Contents (Elt F)),
    StableHlo.nullary main_c_17 (constantI S_ 32 50000#32),
    StableHlo.unary main_c_17 main_v84 (broadcastInDim S850000 ![] bcast_S_S850000 : (⟨S_, .i32⟩ : BufTy).Contents (Elt F) → (⟨S850000, .i32⟩ : BufTy).Contents (Elt F)),
    StableHlo.binary main_v3 main_v84 main_v85 (addi : (⟨S850000, .i32⟩ : BufTy).Contents (Elt F) → (⟨S850000, .i32⟩ : BufTy).Contents (Elt F) → (⟨S850000, .i32⟩ : BufTy).Contents (Elt F)),
    StableHlo.ternary main_v83 main_v85 main_v3 main_v86 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v86 main_v87 (broadcastInDim S850000x1 ![0] bcast_S850000_S850000x1_0 : (⟨S850000, .i32⟩ : BufTy).Contents (Elt F) → (⟨S850000x1, .i32⟩ : BufTy).Contents (Elt F)),
    StableHlo.binary main_v14 main_v87 main_v88 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_18 (constantI S_ 32 0#32),
    StableHlo.unary main_c_18 main_v89 (broadcastInDim S850000 ![] bcast_S_S850000 : (⟨S_, .i32⟩ : BufTy).Contents (Elt F) → (⟨S850000, .i32⟩ : BufTy).Contents (Elt F)),
    StableHlo.binary main_v6 main_v89 main_v90 (cmpi .slt : (⟨S850000, .i32⟩ : BufTy).Contents (Elt F) → (⟨S850000, .i32⟩ : BufTy).Contents (Elt F) → (⟨S850000, .i1⟩ : BufTy).Contents (Elt F)),
    StableHlo.nullary main_c_19 (constantI S_ 32 50000#32),
    StableHlo.unary main_c_19 main_v91 (broadcastInDim S850000 ![] bcast_S_S850000 : (⟨S_, .i32⟩ : BufTy).Contents (Elt F) → (⟨S850000, .i32⟩ : BufTy).Contents (Elt F)),
    StableHlo.binary main_v6 main_v91 main_v92 (addi : (⟨S850000, .i32⟩ : BufTy).Contents (Elt F) → (⟨S850000, .i32⟩ : BufTy).Contents (Elt F) → (⟨S850000, .i32⟩ : BufTy).Contents (Elt F)),
    StableHlo.ternary main_v90 main_v92 main_v6 main_v93 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v93 main_v94 (broadcastInDim S850000x1 ![0] bcast_S850000_S850000x1_0 : (⟨S850000, .i32⟩ : BufTy).Contents (Elt F) → (⟨S850000x1, .i32⟩ : BufTy).Contents (Elt F)),
    StableHlo.binary main_v14 main_v94 main_v95 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v88 main_v95 main_v96 (mulf : (⟨S850000, .f32⟩ : BufTy).Contents (Elt F) → (⟨S850000, .f32⟩ : BufTy).Contents (Elt F) → (⟨S850000, .f32⟩ : BufTy).Contents (Elt F)),
    StableHlo.unary main_v96 main_v97 (broadcastInDim S850000x1 ![0] bcast_S850000_S850000x1_0 : (⟨S850000, .f32⟩ : BufTy).Contents (Elt F) → (⟨S850000x1, .f32⟩ : BufTy).Contents (Elt F)),
    StableHlo.nullary main_c_20 (constantI S_ 32 0#32),
    StableHlo.unary main_c_20 main_v98 (broadcastInDim S850000 ![] bcast_S_S850000 : (⟨S_, .i32⟩ : BufTy).Contents (Elt F) → (⟨S850000, .i32⟩ : BufTy).Contents (Elt F)),
    StableHlo.binary main_v3 main_v98 main_v99 (cmpi .slt : (⟨S850000, .i32⟩ : BufTy).Contents (Elt F) → (⟨S850000, .i32⟩ : BufTy).Contents (Elt F) → (⟨S850000, .i1⟩ : BufTy).Contents (Elt F)),
    StableHlo.nullary main_c_21 (constantI S_ 32 50000#32),
    StableHlo.unary main_c_21 main_v100 (broadcastInDim S850000 ![] bcast_S_S850000 : (⟨S_, .i32⟩ : BufTy).Contents (Elt F) → (⟨S850000, .i32⟩ : BufTy).Contents (Elt F)),
    StableHlo.binary main_v3 main_v100 main_v101 (addi : (⟨S850000, .i32⟩ : BufTy).Contents (Elt F) → (⟨S850000, .i32⟩ : BufTy).Contents (Elt F) → (⟨S850000, .i32⟩ : BufTy).Contents (Elt F)),
    StableHlo.ternary main_v99 main_v101 main_v3 main_v102 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v102 main_v103 (broadcastInDim S850000x1 ![0] bcast_S850000_S850000x1_0 : (⟨S850000, .i32⟩ : BufTy).Contents (Elt F) → (⟨S850000x1, .i32⟩ : BufTy).Contents (Elt F)),
    StableHlo.binary main_v81 main_v103 main_v104 ((fun x i => Host.gather gather_S50000x64_S850000x1_S850000x64_1_0_n_n_0_1_164 x i) : (⟨S50000x64, .f32⟩ : BufTy).Contents (Elt F) → (⟨S850000x1, .i32⟩ : BufTy).Contents (Elt F) → (⟨S850000x64, .f32⟩ : BufTy).Contents (Elt F)),
    StableHlo.unary main_v97 main_v105 (broadcastInDim S850000x64 ![0, 1] bcast_S850000x1_S850000x64_0_1 : (⟨S850000x1, .f32⟩ : BufTy).Contents (Elt F) → (⟨S850000x64, .f32⟩ : BufTy).Contents (Elt F)),
    StableHlo.binary main_v104 main_v105 main_v106 (mulf : (⟨S850000x64, .f32⟩ : BufTy).Contents (Elt F) → (⟨S850000x64, .f32⟩ : BufTy).Contents (Elt F) → (⟨S850000x64, .f32⟩ : BufTy).Contents (Elt F)),
    StableHlo.nullary main_cst_22 (constant S_ .f32 0x00000000#32),
    StableHlo.unary main_cst_22 main_v107 (broadcastInDim S50000x64 ![] bcast_S_S50000x64 : (⟨S_, .f32⟩ : BufTy).Contents (Elt F) → (⟨S50000x64, .f32⟩ : BufTy).Contents (Elt F)),
    StableHlo.unary main_v6 main_v108 (broadcastInDim S850000x1 ![0] bcast_S850000_S850000x1_0 : (⟨S850000, .i32⟩ : BufTy).Contents (Elt F) → (⟨S850000x1, .i32⟩ : BufTy).Contents (Elt F)),
    StableHlo.ternary main_v107 main_v108 main_v106 main_v109 ((fun x i u => Host.scatterAdd scatter_S50000x64_S850000x1_S850000x64_1_0_0_1 x i u) : (⟨S50000x64, .f32⟩ : BufTy).Contents (Elt F) → (⟨S850000x1, .i32⟩ : BufTy).Contents (Elt F) → (⟨S850000x64, .f32⟩ : BufTy).Contents (Elt F) → (⟨S50000x64, .f32⟩ : BufTy).Contents (Elt F)),
    StableHlo.unary main_arg8 main_v110 (broadcastInDim S1x64 ![1] bcast_S64_S1x64_1 : (⟨S64, .f32⟩ : BufTy).Contents (Elt F) → (⟨S1x64, .f32⟩ : BufTy).Contents (Elt F)),
    StableHlo.unary main_v110 main_v111 (broadcastInDim S50000x64 ![0, 1] bcast_S1x64_S50000x64_0_1 : (⟨S1x64, .f32⟩ : BufTy).Contents (Elt F) → (⟨S50000x64, .f32⟩ : BufTy).Contents (Elt F)),
    StableHlo.binary main_v109 main_v111 main_v112 (addf : (⟨S50000x64, .f32⟩ : BufTy).Contents (Elt F) → (⟨S50000x64, .f32⟩ : BufTy).Contents (Elt F) → (⟨S50000x64, .f32⟩ : BufTy).Contents (Elt F)) ]

/-- The row normalisation of layer 3's result: the Euclidean norm of every row, its maximum with 1e-12, the division. (11 operations.) -/
abbrev opsN : List (HloOp τ sig (Elt F)) :=
  [ StableHlo.TRef.binary (.of main_v112 : StableHlo.TRef sig ⟨S50000x64, .f32⟩) (.of main_v112 : StableHlo.TRef sig ⟨S50000x64, .f32⟩) main_call3.v0 mulf,
    StableHlo.TRef.nullary main_call3.cst (constant S_ .f32 0x00000000#32),
    StableHlo.TRef.binary main_call3.v0 main_call3.cst main_call3.v1 (fun x v => Host.reduceAdd x v reducesTo_S50000x64_S50000_d1 h_S_),
    StableHlo.TRef.unary main_call3.v1 main_call3.v2 (broadcastInDim S50000x1 ![0] bcast_S50000_S50000x1_0),
    StableHlo.TRef.unary main_call3.v2 main_call3.v3 Host.sqrt,
    StableHlo.nullary main_cst_23 (constant S_ .f32 0x2B8CBCCC#32),
    StableHlo.TRef.unary (.of main_cst_23 : StableHlo.TRef sig ⟨S_, .f32⟩) main_call4.v0 id,
    StableHlo.TRef.unary main_call4.v0 main_call4.v1 (broadcastInDim S50000x1 ![] bcast_S_S50000x1),
    StableHlo.TRef.binary main_call4.v1 (.of main_v113 : StableHlo.TRef sig ⟨S50000x1, .f32⟩) main_call4.v2 maximumf,
    StableHlo.unary main_v114 main_v115 (broadcastInDim S50000x64 ![0, 1] bcast_S50000x1_S50000x64_0_1 : (⟨S50000x1, .f32⟩ : BufTy).Contents (Elt F) → (⟨S50000x64, .f32⟩ : BufTy).Contents (Elt F)),
    StableHlo.binary main_v112 main_v115 main_v116 (Host.divf : (⟨S50000x64, .f32⟩ : BufTy).Contents (Elt F) → (⟨S50000x64, .f32⟩ : BufTy).Contents (Elt F) → (⟨S50000x64, .f32⟩ : BufTy).Contents (Elt F)) ]

/-- The target branch: the batch mean and variance of the 256 targets, their normalisation with scale and shift, two dense layers with the maximum with zero between them, the row normalisation. (66 operations.) -/
abbrev opsY : List (HloOp τ sig (Elt F)) :=
  [ StableHlo.nullary main_cst_24 (constant S_ .f32 0x00000000#32),
    StableHlo.binary main_arg1 main_cst_24 main_v117 ((fun x v => Host.reduceAdd x v reducesTo_S256x1_S1_d0 h_S_) : (⟨S256x1, .f32⟩ : BufTy).Contents (Elt F) → (⟨S_, .f32⟩ : BufTy).Contents (Elt F) → (⟨S1, .f32⟩ : BufTy).Contents (Elt F)),
    StableHlo.unary main_v117 main_v118 (broadcastInDim S1x1 ![1] bcast_S1_S1x1_1 : (⟨S1, .f32⟩ : BufTy).Contents (Elt F) → (⟨S1x1, .f32⟩ : BufTy).Contents (Elt F)),
    StableHlo.nullary main_cst_25 (constant S_ .f32 0x43800000#32),
    StableHlo.unary main_cst_25 main_v119 (broadcastInDim S1x1 ![] bcast_S_S1x1 : (⟨S_, .f32⟩ : BufTy).Contents (Elt F) → (⟨S1x1, .f32⟩ : BufTy).Contents (Elt F)),
    StableHlo.binary main_v118 main_v119 main_v120 (Host.divf : (⟨S1x1, .f32⟩ : BufTy).Contents (Elt F) → (⟨S1x1, .f32⟩ : BufTy).Contents (Elt F) → (⟨S1x1, .f32⟩ : BufTy).Contents (Elt F)),
    StableHlo.nullary main_c_26 (constantI S_ 32 0#32),
    StableHlo.TRef.nullary main_call5.cst (constant S_ .f32 0x00000000#32),
    StableHlo.TRef.binary (.of main_arg1 : StableHlo.TRef sig ⟨S256x1, .f32⟩) main_call5.cst main_call5.v0 (fun x v => Host.reduceAdd x v reducesTo_S256x1_S1_d0 h_S_),
    StableHlo.TRef.unary main_call5.v0 main_call5.v1 (broadcastInDim S1x1 ![1] bcast_S1_S1x1_1),
    StableHlo.TRef.nullary main_call5.cst_0 (constant S_ .f32 0x43800000#32),
    StableHlo.TRef.unary main_call5.cst_0 main_call5.v2 (broadcastInDim S1x1 ![] bcast_S_S1x1),
    StableHlo.TRef.binary main_call5.v1 main_call5.v2 main_call5.v3 Host.divf,
    StableHlo.TRef.unary main_call5.v3 main_call5.v4 (broadcastInDim S256x1 ![0, 1] bcast_S1x1_S256x1_0_1),
    StableHlo.TRef.binary (.of main_arg1 : StableHlo.TRef sig ⟨S256x1, .f32⟩) main_call5.v4 main_call5.v5 subf,
    StableHlo.TRef.binary main_call5.v5 main_call5.v5 main_call5.v6 mulf,
    StableHlo.TRef.unary (.of main_c_26 : StableHlo.TRef sig ⟨S_, .i32⟩) main_call5.v7 (sitofp .f32),
    StableHlo.TRef.nullary main_call5.cst_1 (constant S_ .f32 0x43800000#32),
    StableHlo.TRef.binary main_call5.cst_1 main_call5.v7 main_call5.v8 subf,
    StableHlo.TRef.nullary main_call5.cst_2 (constant S_ .f32 0x00000000#32),
    StableHlo.TRef.binary main_call5.v6 main_call5.cst_2 main_call5.v9 (fun x v => Host.reduceAdd x v reducesTo_S256x1_S1_d0 h_S_),
    StableHlo.TRef.unary main_call5.v9 main_call5.v10 (broadcastInDim S1x1 ![1] bcast_S1_S1x1_1),
    StableHlo.TRef.unary main_call5.v8 main_call5.v11 (broadcastInDim S1x1 ![] bcast_S_S1x1),
    StableHlo.TRef.binary main_call5.v10 main_call5.v11 main_call5.v12 Host.divf,
    StableHlo.TRef.nullary main_call5.cst_3 (constant S_ .f32 0x00000000#32),
    StableHlo.TRef.binary main_call5.v8 main_call5.cst_3 main_call5.v13 (cmpf .ogt),
    StableHlo.TRef.nullary main_call5.cst_4 (constant S_ .f32 0x7FC00000#32),
    StableHlo.TRef.unary main_call5.cst_4 main_call5.call0.v0 id,
    StableHlo.TRef.unary main_call5.call0.v0 main_call5.call0.v1 (broadcastInDim S1x1 ![] bcast_S_S1x1),
    StableHlo.TRef.ternary main_call5.v13 main_call5.v12 main_call5.call0.v1 main_call5.call0.v2 (fun p a b => select (broadcastInDim S1x1 ![] bcast_S_S1x1 p) a b),
    StableHlo.unary main_v120 main_v122 (broadcastInDim S256x1 ![0, 1] bcast_S1x1_S256x1_0_1 : (⟨S1x1, .f32⟩ : BufTy).Contents (Elt F) → (⟨S256x1, .f32⟩ : BufTy).Contents (Elt F)),
    StableHlo.binary main_arg1 main_v122 main_v123 (subf : (⟨S256x1, .f32⟩ : BufTy).Contents (Elt F) → (⟨S256x1, .f32⟩ : BufTy).Contents (Elt F) → (⟨S256x1, .f32⟩ : BufTy).Contents (Elt F)),
    StableHlo.nullary main_cst_27 (constant S_ .f32 0x3727C5AC#32),
    StableHlo.unary main_cst_27 main_v124 (broadcastInDim S1x1 ![] bcast_S_S1x1 : (⟨S_, .f32⟩ : BufTy).Contents (Elt F) → (⟨S1x1, .f32⟩ : BufTy).Contents (Elt F)),
    StableHlo.binary main_v121 main_v124 main_v125 (addf : (⟨S1x1, .f32⟩ : BufTy).Contents (Elt F) → (⟨S1x1, .f32⟩ : BufTy).Contents (Elt F) → (⟨S1x1, .f32⟩ : BufTy).Contents (Elt F)),
    StableHlo.unary main_v125 main_v126 (Host.rsqrt : (⟨S1x1, .f32⟩ : BufTy).Contents (Elt F) → (⟨S1x1, .f32⟩ : BufTy).Contents (Elt F)),
    StableHlo.unary main_v126 main_v127 (broadcastInDim S256x1 ![0, 1] bcast_S1x1_S256x1_0_1 : (⟨S1x1, .f32⟩ : BufTy).Contents (Elt F) → (⟨S256x1, .f32⟩ : BufTy).Contents (Elt F)),
    StableHlo.binary main_v123 main_v127 main_v128 (mulf : (⟨S256x1, .f32⟩ : BufTy).Contents (Elt F) → (⟨S256x1, .f32⟩ : BufTy).Contents (Elt F) → (⟨S256x1, .f32⟩ : BufTy).Contents (Elt F)),
    StableHlo.unary main_arg9 main_v129 (broadcastInDim S1x1 ![1] bcast_S1_S1x1_1 : (⟨S1, .f32⟩ : BufTy).Contents (Elt F) → (⟨S1x1, .f32⟩ : BufTy).Contents (Elt F)),
    StableHlo.unary main_v129 main_v130 (broadcastInDim S256x1 ![0, 1] bcast_S1x1_S256x1_0_1 : (⟨S1x1, .f32⟩ : BufTy).Contents (Elt F) → (⟨S256x1, .f32⟩ : BufTy).Contents (Elt F)),
    StableHlo.binary main_v128 main_v130 main_v131 (mulf : (⟨S256x1, .f32⟩ : BufTy).Contents (Elt F) → (⟨S256x1, .f32⟩ : BufTy).Contents (Elt F) → (⟨S256x1, .f32⟩ : BufTy).Contents (Elt F)),
    StableHlo.unary main_arg10 main_v132 (broadcastInDim S1x1 ![1] bcast_S1_S1x1_1 : (⟨S1, .f32⟩ : BufTy).Contents (Elt F) → (⟨S1x1, .f32⟩ : BufTy).Contents (Elt F)),
    StableHlo.unary main_v132 main_v133 (broadcastInDim S256x1 ![0, 1] bcast_S1x1_S256x1_0_1 : (⟨S1x1, .f32⟩ : BufTy).Contents (Elt F) → (⟨S256x1, .f32⟩ : BufTy).Contents (Elt F)),
    StableHlo.binary main_v131 main_v133 main_v134 (addf : (⟨S256x1, .f32⟩ : BufTy).Contents (Elt F) → (⟨S256x1, .f32⟩ : BufTy).Contents (Elt F) → (⟨S256x1, .f32⟩ : BufTy).Contents (Elt F)),
    StableHlo.binary main_v134 main_arg11 main_v135 ((fun l r => Host.dotGeneral dot_S256x1_S1x128_S256x128_1_0_0_1_n_n none l r) : (⟨S256x1, .f32⟩ : BufTy).Contents (Elt F) → (⟨S1x128, .f32⟩ : BufTy).Contents (Elt F) → (⟨S256x128, .f32⟩ : BufTy).Contents (Elt F)),
    StableHlo.unary main_arg12 main_v136 (broadcastInDim S1x128 ![1] bcast_S128_S1x128_1 : (⟨S128, .f32⟩ : BufTy).Contents (Elt F) → (⟨S1x128, .f32⟩ : BufTy).Contents (Elt F)),
    StableHlo.unary main_v136 main_v137 (broadcastInDim S256x128 ![0, 1] bcast_S1x128_S256x128_0_1 : (⟨S1x128, .f32⟩ : BufTy).Contents (Elt F) → (⟨S256x128, .f32⟩ : BufTy).Contents (Elt F)),
    StableHlo.binary main_v135 main_v137 main_v138 (addf : (⟨S256x128, .f32⟩ : BufTy).Contents (Elt F) → (⟨S256x128, .f32⟩ : BufTy).Contents (Elt F) → (⟨S256x128, .f32⟩ : BufTy).Contents (Elt F)),
    StableHlo.TRef.nullary main_call6.cst (constant S_ .f32 0x00000000#32),
    StableHlo.TRef.unary main_call6.cst main_call6.v0 (broadcastInDim S256x128 ![] bcast_S_S256x128),
    StableHlo.TRef.binary (.of main_v138 : StableHlo.TRef sig ⟨S256x128, .f32⟩) main_call6.v0 main_call6.v1 maximumf,
    StableHlo.binary main_v139 main_arg13 main_v140 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)),
    StableHlo.unary main_arg14 main_v141 (broadcastInDim S1x64 ![1] bcast_S64_S1x64_1 : (⟨S64, .f32⟩ : BufTy).Contents (Elt F) → (⟨S1x64, .f32⟩ : BufTy).Contents (Elt F)),
    StableHlo.unary main_v141 main_v142 (broadcastInDim S256x64 ![0, 1] bcast_S1x64_S256x64_0_1 : (⟨S1x64, .f32⟩ : BufTy).Contents (Elt F) → (⟨S256x64, .f32⟩ : BufTy).Contents (Elt F)),
    StableHlo.binary main_v140 main_v142 main_v143 (addf : (⟨S256x64, .f32⟩ : BufTy).Contents (Elt F) → (⟨S256x64, .f32⟩ : BufTy).Contents (Elt F) → (⟨S256x64, .f32⟩ : BufTy).Contents (Elt F)),
    StableHlo.TRef.binary (.of main_v143 : StableHlo.TRef sig ⟨S256x64, .f32⟩) (.of main_v143 : StableHlo.TRef sig ⟨S256x64, .f32⟩) main_call7.v0 mulf,
    StableHlo.TRef.nullary main_call7.cst (constant S_ .f32 0x00000000#32),
    StableHlo.TRef.binary main_call7.v0 main_call7.cst main_call7.v1 (fun x v => Host.reduceAdd x v reducesTo_S256x64_S256_d1 h_S_),
    StableHlo.TRef.unary main_call7.v1 main_call7.v2 (broadcastInDim S256x1 ![0] bcast_S256_S256x1_0),
    StableHlo.TRef.unary main_call7.v2 main_call7.v3 Host.sqrt,
    StableHlo.nullary main_cst_28 (constant S_ .f32 0x2B8CBCCC#32),
    StableHlo.TRef.unary (.of main_cst_28 : StableHlo.TRef sig ⟨S_, .f32⟩) main_call8.v0 id,
    StableHlo.TRef.unary main_call8.v0 main_call8.v1 (broadcastInDim S256x1 ![] bcast_S_S256x1),
    StableHlo.TRef.binary main_call8.v1 (.of main_v144 : StableHlo.TRef sig ⟨S256x1, .f32⟩) main_call8.v2 maximumf,
    StableHlo.unary main_v145 main_v146 (broadcastInDim S256x64 ![0, 1] bcast_S256x1_S256x64_0_1 : (⟨S256x1, .f32⟩ : BufTy).Contents (Elt F) → (⟨S256x64, .f32⟩ : BufTy).Contents (Elt F)),
    StableHlo.binary main_v143 main_v146 main_v147 (Host.divf : (⟨S256x64, .f32⟩ : BufTy).Contents (Elt F) → (⟨S256x64, .f32⟩ : BufTy).Contents (Elt F) → (⟨S256x64, .f32⟩ : BufTy).Contents (Elt F)) ]

/-- The whole program: the six lists in order. -/
abbrev ops : List (HloOp τ sig (Elt F)) := opsP ++ opsL1 ++ opsL2 ++ opsL3 ++ opsN ++ opsY

end Cert.GCN.Ref

end
-- ==== Proof.RefRun.lean ====
/-
  The reference program run: its @main is the straight line of the 221 operations of RefOps, every weakly fair
  execution of it terminates with each buffer at the operations' fold over the launch contents, the fold splits along
  the six lists, and each list leaves every buffer it does not write as it was.
-/
import proofs.«133735_j11390253269678_2_alg».proof.Proof.RefOps
import Idealize.ShloMosaic.Lib.StableHlo.Run
import Idealize.ShloMosaic.Lib.Pipeline.Frame

noncomputable section

namespace Cert.GCN.Ref

open Cert.ReferenceIdeal Cert.ReferenceIdeal.Gen Idealize.ShloMosaic Idealize.ShloMosaic.TcCoe Idealize.SL.Sem Idealize.ShloMosaic.StableHlo

variable {F : FTy → Type} [FloatOps F]

-- both sides are the same chain of steps once the calls are unfolded and sequencing is evaluated; the chain is 221 long
set_option maxRecDepth 100000 in
set_option maxHeartbeats 4000000 in
/-- @main is the straight line of the 221 operations: the functions' bodies at their calls, the records at their
    fields and the concatenation of the six lists all compute. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

/-! ## Every operation's buffers are TensorCore device buffers -/

theorem opsP_sub : (opsP : List (HloOp τ sig (Elt F))).Forall fun op => op.bufs ⊆ tcRefs τ sig :=
  ⟨nullary_bufs_sub .., unary_bufs_sub .., reshape_bufs_sub .., binary_bufs_sub .., unary_bufs_sub .., reshape_bufs_sub ..,
    binary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., nullary_bufs_sub ..,
    unary_bufs_sub .., unary_bufs_sub .., ternary_bufs_sub ..⟩

theorem opsL1_sub : (opsL1 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..⟩

theorem opsL2_sub : (opsL2 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub .., nullary_bufs_sub .., unary_bufs_sub .., binary_bufs_sub ..⟩

theorem opsL3_sub : (opsL3 : List (HloOp τ sig (Elt F))).Forall fun op => op.bufs ⊆ tcRefs τ sig :=
  ⟨binary_bufs_sub .., nullary_bufs_sub .., unary_bufs_sub .., binary_bufs_sub .., nullary_bufs_sub .., unary_bufs_sub ..,
    binary_bufs_sub .., ternary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., binary_bufs_sub .., unary_bufs_sub .., nullary_bufs_sub .., unary_bufs_sub .., binary_bufs_sub ..,
    nullary_bufs_sub .., unary_bufs_sub .., binary_bufs_sub .., ternary_bufs_sub .., unary_bufs_sub .., binary_bufs_sub ..,
    unary_bufs_sub .., binary_bufs_sub .., nullary_bufs_sub .., unary_bufs_sub .., unary_bufs_sub .., ternary_bufs_sub ..,
    unary_bufs_sub .., unary_bufs_sub .., binary_bufs_sub ..⟩

theorem opsN_sub : (opsN : List (HloOp τ sig (Elt F))).Forall fun op => op.bufs ⊆ tcRefs τ sig :=
  ⟨binary_bufs_sub .., nullary_bufs_sub .., binary_bufs_sub .., unary_bufs_sub .., unary_bufs_sub .., nullary_bufs_sub ..,
    unary_bufs_sub .., unary_bufs_sub .., binary_bufs_sub .., unary_bufs_sub .., binary_bufs_sub ..⟩

theorem opsY_sub : (opsY : List (HloOp τ sig (Elt F))).Forall fun op => op.bufs ⊆ tcRefs τ sig :=
  ⟨nullary_bufs_sub .., binary_bufs_sub .., unary_bufs_sub .., nullary_bufs_sub .., unary_bufs_sub .., binary_bufs_sub ..,
    nullary_bufs_sub .., nullary_bufs_sub .., binary_bufs_sub .., unary_bufs_sub .., nullary_bufs_sub .., unary_bufs_sub ..,
    binary_bufs_sub .., unary_bufs_sub .., binary_bufs_sub .., binary_bufs_sub .., unary_bufs_sub .., nullary_bufs_sub ..,
    binary_bufs_sub .., nullary_bufs_sub .., binary_bufs_sub .., unary_bufs_sub .., unary_bufs_sub .., binary_bufs_sub ..,
    nullary_bufs_sub .., binary_bufs_sub .., nullary_bufs_sub .., unary_bufs_sub .., unary_bufs_sub .., ternary_bufs_sub ..,
    unary_bufs_sub .., binary_bufs_sub .., nullary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., binary_bufs_sub .., nullary_bufs_sub .., binary_bufs_sub .., unary_bufs_sub .., unary_bufs_sub ..,
    nullary_bufs_sub .., unary_bufs_sub .., unary_bufs_sub .., binary_bufs_sub .., unary_bufs_sub .., binary_bufs_sub ..⟩

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append (forall_append (forall_append (forall_append (forall_append opsP_sub opsL1_sub) opsL2_sub) opsL3_sub) opsN_sub) opsY_sub

/-- At the compiled mesh, for any float values, from any memory with zero counters: every weakly fair execution of
    @main on the TensorCores terminates, and every final state has each TensorCore buffer at the operations' fold over
    the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-! ## The fold along the six lists -/

theorem after_chunks (V : Valuation τ sig (Elt F)) :
    after ops V = after opsY (after opsN (after opsL3 (after opsL2 (after opsL1 (after opsP V))))) := by
  simp only [ops, after_append]

/-! ## What each list writes, and that it keeps the rest -/

theorem writes_sub {W : List (Ref sig .tc)} {op : HloOp τ sig (Elt F)} {y : Ref sig .tc}
    (hw : op.writes = {Proc.devRef .tc y}) (hy : y ∈ W) : op.writes ⊆ (W.map (Proc.devRef (τ := τ) .tc)).toFinset := by
  rw [hw, Finset.singleton_subset_iff, List.mem_toFinset]; exact List.mem_map_of_mem hy

/-- The buffers opsP writes: one per operation, in order. -/
abbrev wP : List (Ref sig .tc) :=
  [main_v0, main_v1, main_v2, main_v3, main_v4, main_v5, main_v6, main_cst,
   main_v7, main_cst_0, main_v8, main_v9, main_v10, main_cst_1, main_v11, main_v12,
   main_v13, main_cst_2, main_call0_v0, main_call0_v1, main_v14]

theorem opsP_writes : (opsP : List (HloOp τ sig (Elt F))).Forall fun op =>
    op.writes ⊆ (wP.map (Proc.devRef (τ := τ) .tc)).toFinset :=
  ⟨writes_sub (nullary_writes ..) (by decide), writes_sub (unary_writes ..) (by decide), writes_sub (reshape_writes ..) (by decide),
    writes_sub (binary_writes ..) (by decide), writes_sub (unary_writes ..) (by decide), writes_sub (reshape_writes ..) (by decide),
    writes_sub (binary_writes ..) (by decide), writes_sub (nullary_writes ..) (by decide), writes_sub (unary_writes ..) (by decide),
    writes_sub (nullary_writes ..) (by decide), writes_sub (unary_writes ..) (by decide), writes_sub (unary_writes ..) (by decide),
    writes_sub (ternary_writes ..) (by decide), writes_sub (nullary_writes ..) (by decide), writes_sub (unary_writes ..) (by decide),
    writes_sub (binary_writes ..) (by decide), writes_sub (unary_writes ..) (by decide), writes_sub (nullary_writes ..) (by decide),
    writes_sub (unary_writes ..) (by decide), writes_sub (unary_writes ..) (by decide), writes_sub (ternary_writes ..) (by decide)⟩

/-- opsP leaves a buffer it does not write as it was. -/
theorem kept_P (V : Valuation τ sig (Elt F)) {r : Ref sig .tc} (hr : r ∉ wP) :
    after opsP V (r : DevRef τ sig) = V (r : DevRef τ sig) :=
  after_of_writes_sub opsP V opsP_writes hr

/-- The buffers opsL1 writes: one per operation, in order. -/
abbrev wL1 : List (Ref sig .tc) :=
  [main_v15, main_c, main_v16, main_v17, main_c_3, main_v18, main_v19, main_v20,
   main_v21, main_v22, main_c_4, main_v23, main_v24, main_c_5, main_v25, main_v26,
   main_v27, main_v28, main_v29, main_v30, main_v31, main_c_6, main_v32, main_v33,
   main_c_7, main_v34, main_v35, main_v36, main_v37, main_v38, main_v39, main_v40,
   main_cst_8, main_v41, main_v42, main_v43, main_v44, main_v45, main_v46, main_call1_cst,
   main_call1_v0, main_v47]

theorem opsL1_writes : (opsL1 : List (HloOp τ sig (Elt F))).Forall fun op =>
    op.writes ⊆ (wL1.map (Proc.devRef (τ := τ) .tc)).toFinset :=
  ⟨writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (binary_writes ..) (by decide), writes_sub (unary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (unary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide)⟩

/-- opsL1 leaves a buffer it does not write as it was. -/
theorem kept_L1 (V : Valuation τ sig (Elt F)) {r : Ref sig .tc} (hr : r ∉ wL1) :
    after opsL1 V (r : DevRef τ sig) = V (r : DevRef τ sig) :=
  after_of_writes_sub opsL1 V opsL1_writes hr

/-- The buffers opsL2 writes: one per operation, in order. -/
abbrev wL2 : List (Ref sig .tc) :=
  [main_v48, main_c_9, main_v49, main_v50, main_c_10, main_v51, main_v52, main_v53,
   main_v54, main_v55, main_c_11, main_v56, main_v57, main_c_12, main_v58, main_v59,
   main_v60, main_v61, main_v62, main_v63, main_v64, main_c_13, main_v65, main_v66,
   main_c_14, main_v67, main_v68, main_v69, main_v70, main_v71, main_v72, main_v73,
   main_cst_15, main_v74, main_v75, main_v76, main_v77, main_v78, main_v79, main_call2_cst,
   main_call2_v0, main_v80]

theorem opsL2_writes : (opsL2 : List (HloOp τ sig (Elt F))).Forall fun op =>
    op.writes ⊆ (wL2.map (Proc.devRef (τ := τ) .tc)).toFinset :=
  ⟨writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (binary_writes ..) (by decide), writes_sub (unary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (unary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide)⟩

/-- opsL2 leaves a buffer it does not write as it was. -/
theorem kept_L2 (V : Valuation τ sig (Elt F)) {r : Ref sig .tc} (hr : r ∉ wL2) :
    after opsL2 V (r : DevRef τ sig) = V (r : DevRef τ sig) :=
  after_of_writes_sub opsL2 V opsL2_writes hr

/-- The buffers opsL3 writes: one per operation, in order. -/
abbrev wL3 : List (Ref sig .tc) :=
  [main_v81, main_c_16, main_v82, main_v83, main_c_17, main_v84, main_v85, main_v86,
   main_v87, main_v88, main_c_18, main_v89, main_v90, main_c_19, main_v91, main_v92,
   main_v93, main_v94, main_v95, main_v96, main_v97, main_c_20, main_v98, main_v99,
   main_c_21, main_v100, main_v101, main_v102, main_v103, main_v104, main_v105, main_v106,
   main_cst_22, main_v107, main_v108, main_v109, main_v110, main_v111, main_v112]

theorem opsL3_writes : (opsL3 : List (HloOp τ sig (Elt F))).Forall fun op =>
    op.writes ⊆ (wL3.map (Proc.devRef (τ := τ) .tc)).toFinset :=
  ⟨writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (nullary_writes ..) (by decide), writes_sub (unary_writes ..) (by decide),
    writes_sub (binary_writes ..) (by decide), writes_sub (nullary_writes ..) (by decide), writes_sub (unary_writes ..) (by decide),
    writes_sub (binary_writes ..) (by decide), writes_sub (ternary_writes ..) (by decide), writes_sub (unary_writes ..) (by decide),
    writes_sub (binary_writes ..) (by decide), writes_sub (binary_writes ..) (by decide), writes_sub (unary_writes ..) (by decide),
    writes_sub (nullary_writes ..) (by decide), writes_sub (unary_writes ..) (by decide), writes_sub (binary_writes ..) (by decide),
    writes_sub (nullary_writes ..) (by decide), writes_sub (unary_writes ..) (by decide), writes_sub (binary_writes ..) (by decide),
    writes_sub (ternary_writes ..) (by decide), writes_sub (unary_writes ..) (by decide), writes_sub (binary_writes ..) (by decide),
    writes_sub (unary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (unary_writes ..) (by decide), writes_sub (binary_writes ..) (by decide)⟩

/-- opsL3 leaves a buffer it does not write as it was. -/
theorem kept_L3 (V : Valuation τ sig (Elt F)) {r : Ref sig .tc} (hr : r ∉ wL3) :
    after opsL3 V (r : DevRef τ sig) = V (r : DevRef τ sig) :=
  after_of_writes_sub opsL3 V opsL3_writes hr

/-- The buffers opsN writes: one per operation, in order. -/
abbrev wN : List (Ref sig .tc) :=
  [main_call3_v0, main_call3_cst, main_call3_v1, main_call3_v2, main_v113, main_cst_23, main_call4_v0, main_call4_v1,
   main_v114, main_v115, main_v116]

theorem opsN_writes : (opsN : List (HloOp τ sig (Elt F))).Forall fun op =>
    op.writes ⊆ (wN.map (Proc.devRef (τ := τ) .tc)).toFinset :=
  ⟨writes_sub (binary_writes ..) (by decide), writes_sub (nullary_writes ..) (by decide), writes_sub (binary_writes ..) (by decide),
    writes_sub (unary_writes ..) (by decide), writes_sub (unary_writes ..) (by decide), writes_sub (nullary_writes ..) (by decide),
    writes_sub (unary_writes ..) (by decide), writes_sub (unary_writes ..) (by decide), writes_sub (binary_writes ..) (by decide),
    writes_sub (unary_writes ..) (by decide), writes_sub (binary_writes ..) (by decide)⟩

/-- opsN leaves a buffer it does not write as it was. -/
theorem kept_N (V : Valuation τ sig (Elt F)) {r : Ref sig .tc} (hr : r ∉ wN) :
    after opsN V (r : DevRef τ sig) = V (r : DevRef τ sig) :=
  after_of_writes_sub opsN V opsN_writes hr

/-- The buffers opsY writes: one per operation, in order. -/
abbrev wY : List (Ref sig .tc) :=
  [main_cst_24, main_v117, main_v118, main_cst_25, main_v119, main_v120, main_c_26, main_call5_cst,
   main_call5_v0, main_call5_v1, main_call5_cst_0, main_call5_v2, main_call5_v3, main_call5_v4, main_call5_v5, main_call5_v6,
   main_call5_v7, main_call5_cst_1, main_call5_v8, main_call5_cst_2, main_call5_v9, main_call5_v10, main_call5_v11, main_call5_v12,
   main_call5_cst_3, main_call5_v13, main_call5_cst_4, main_call5_call0_v0, main_call5_call0_v1, main_v121, main_v122, main_v123,
   main_cst_27, main_v124, main_v125, main_v126, main_v127, main_v128, main_v129, main_v130,
   main_v131, main_v132, main_v133, main_v134, main_v135, main_v136, main_v137, main_v138,
   main_call6_cst, main_call6_v0, main_v139, main_v140, main_v141, main_v142, main_v143, main_call7_v0,
   main_call7_cst, main_call7_v1, main_call7_v2, main_v144, main_cst_28, main_call8_v0, main_call8_v1, main_v145,
   main_v146, main_v147]

theorem opsY_writes : (opsY : List (HloOp τ sig (Elt F))).Forall fun op =>
    op.writes ⊆ (wY.map (Proc.devRef (τ := τ) .tc)).toFinset :=
  ⟨writes_sub (nullary_writes ..) (by decide), writes_sub (binary_writes ..) (by decide), writes_sub (unary_writes ..) (by decide),
    writes_sub (nullary_writes ..) (by decide), writes_sub (unary_writes ..) (by decide), writes_sub (binary_writes ..) (by decide),
    writes_sub (nullary_writes ..) (by decide), writes_sub (nullary_writes ..) (by decide), writes_sub (binary_writes ..) (by decide),
    writes_sub (unary_writes ..) (by decide), writes_sub (nullary_writes ..) (by decide), writes_sub (unary_writes ..) (by decide),
    writes_sub (binary_writes ..) (by decide), writes_sub (unary_writes ..) (by decide), writes_sub (binary_writes ..) (by decide),
    writes_sub (binary_writes ..) (by decide), writes_sub (unary_writes ..) (by decide), writes_sub (nullary_writes ..) (by decide),
    writes_sub (binary_writes ..) (by decide), writes_sub (nullary_writes ..) (by decide), writes_sub (binary_writes ..) (by decide),
    writes_sub (unary_writes ..) (by decide), writes_sub (unary_writes ..) (by decide), writes_sub (binary_writes ..) (by decide),
    writes_sub (nullary_writes ..) (by decide), writes_sub (binary_writes ..) (by decide), writes_sub (nullary_writes ..) (by decide),
    writes_sub (unary_writes ..) (by decide), writes_sub (unary_writes ..) (by decide), writes_sub (ternary_writes ..) (by decide),
    writes_sub (unary_writes ..) (by decide), writes_sub (binary_writes ..) (by decide), writes_sub (nullary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (unary_writes ..) (by decide),
    writes_sub (unary_writes ..) (by decide), writes_sub (binary_writes ..) (by decide), writes_sub (binary_writes ..) (by decide),
    writes_sub (unary_writes ..) (by decide), writes_sub (unary_writes ..) (by decide), writes_sub (binary_writes ..) (by decide),
    writes_sub (nullary_writes ..) (by decide), writes_sub (unary_writes ..) (by decide), writes_sub (binary_writes ..) (by decide),
    writes_sub (binary_writes ..) (by decide), writes_sub (unary_writes ..) (by decide), writes_sub (unary_writes ..) (by decide),
    writes_sub (binary_writes ..) (by decide), writes_sub (binary_writes ..) (by decide), writes_sub (nullary_writes ..) (by decide),
    writes_sub (binary_writes ..) (by decide), writes_sub (unary_writes ..) (by decide), writes_sub (unary_writes ..) (by decide),
    writes_sub (nullary_writes ..) (by decide), writes_sub (unary_writes ..) (by decide), writes_sub (unary_writes ..) (by decide),
    writes_sub (binary_writes ..) (by decide), writes_sub (unary_writes ..) (by decide), writes_sub (binary_writes ..) (by decide)⟩

/-- opsY leaves a buffer it does not write as it was. -/
theorem kept_Y (V : Valuation τ sig (Elt F)) {r : Ref sig .tc} (hr : r ∉ wY) :
    after opsY V (r : DevRef τ sig) = V (r : DevRef τ sig) :=
  after_of_writes_sub opsY V opsY_writes hr

/-- The whole program leaves a buffer none of the six lists writes as it was. -/
theorem kept_ops (V : Valuation τ sig (Elt F)) {r : Ref sig .tc} (hP : r ∉ wP) (hL1 : r ∉ wL1) (hL2 : r ∉ wL2) (hL3 : r ∉ wL3)
    (hN : r ∉ wN) (hY : r ∉ wY) : after ops V (r : DevRef τ sig) = V (r : DevRef τ sig) := by
  rw [after_chunks, kept_Y _ hY, kept_N _ hN, kept_L3 _ hL3, kept_L2 _ hL2, kept_L1 _ hL1, kept_P _ hP]

/-- The program's fifteen arguments are never written. -/
theorem arg0_kept (V : Valuation τ sig (Elt F)) : after ops V (main_arg0 : DevRef τ sig) = V (main_arg0 : DevRef τ sig) :=
  kept_ops V (by decide) (by decide) (by decide) (by decide) (by decide) (by decide)
theorem arg1_kept (V : Valuation τ sig (Elt F)) : after ops V (main_arg1 : DevRef τ sig) = V (main_arg1 : DevRef τ sig) :=
  kept_ops V (by decide) (by decide) (by decide) (by decide) (by decide) (by decide)
theorem arg2_kept (V : Valuation τ sig (Elt F)) : after ops V (main_arg2 : DevRef τ sig) = V (main_arg2 : DevRef τ sig) :=
  kept_ops V (by decide) (by decide) (by decide) (by decide) (by decide) (by decide)
theorem arg3_kept (V : Valuation τ sig (Elt F)) : after ops V (main_arg3 : DevRef τ sig) = V (main_arg3 : DevRef τ sig) :=
  kept_ops V (by decide) (by decide) (by decide) (by decide) (by decide) (by decide)
theorem arg4_kept (V : Valuation τ sig (Elt F)) : after ops V (main_arg4 : DevRef τ sig) = V (main_arg4 : DevRef τ sig) :=
  kept_ops V (by decide) (by decide) (by decide) (by decide) (by decide) (by decide)
theorem arg5_kept (V : Valuation τ sig (Elt F)) : after ops V (main_arg5 : DevRef τ sig) = V (main_arg5 : DevRef τ sig) :=
  kept_ops V (by decide) (by decide) (by decide) (by decide) (by decide) (by decide)
theorem arg6_kept (V : Valuation τ sig (Elt F)) : after ops V (main_arg6 : DevRef τ sig) = V (main_arg6 : DevRef τ sig) :=
  kept_ops V (by decide) (by decide) (by decide) (by decide) (by decide) (by decide)
theorem arg7_kept (V : Valuation τ sig (Elt F)) : after ops V (main_arg7 : DevRef τ sig) = V (main_arg7 : DevRef τ sig) :=
  kept_ops V (by decide) (by decide) (by decide) (by decide) (by decide) (by decide)
theorem arg8_kept (V : Valuation τ sig (Elt F)) : after ops V (main_arg8 : DevRef τ sig) = V (main_arg8 : DevRef τ sig) :=
  kept_ops V (by decide) (by decide) (by decide) (by decide) (by decide) (by decide)
theorem arg9_kept (V : Valuation τ sig (Elt F)) : after ops V (main_arg9 : DevRef τ sig) = V (main_arg9 : DevRef τ sig) :=
  kept_ops V (by decide) (by decide) (by decide) (by decide) (by decide) (by decide)
theorem arg10_kept (V : Valuation τ sig (Elt F)) : after ops V (main_arg10 : DevRef τ sig) = V (main_arg10 : DevRef τ sig) :=
  kept_ops V (by decide) (by decide) (by decide) (by decide) (by decide) (by decide)
theorem arg11_kept (V : Valuation τ sig (Elt F)) : after ops V (main_arg11 : DevRef τ sig) = V (main_arg11 : DevRef τ sig) :=
  kept_ops V (by decide) (by decide) (by decide) (by decide) (by decide) (by decide)
theorem arg12_kept (V : Valuation τ sig (Elt F)) : after ops V (main_arg12 : DevRef τ sig) = V (main_arg12 : DevRef τ sig) :=
  kept_ops V (by decide) (by decide) (by decide) (by decide) (by decide) (by decide)
theorem arg13_kept (V : Valuation τ sig (Elt F)) : after ops V (main_arg13 : DevRef τ sig) = V (main_arg13 : DevRef τ sig) :=
  kept_ops V (by decide) (by decide) (by decide) (by decide) (by decide) (by decide)
theorem arg14_kept (V : Valuation τ sig (Elt F)) : after ops V (main_arg14 : DevRef τ sig) = V (main_arg14 : DevRef τ sig) :=
  kept_ops V (by decide) (by decide) (by decide) (by decide) (by decide) (by decide)

end Cert.GCN.Ref

end
-- ==== Proof.LibDenseRows.lean ====
/-
  A dense layer x ↦ x·W + b and a ReLU, read row by row on the extended reals, for any extents.

  A matrix [M, N] is taken apart into its rows (`rows v r : Fin N → EReal`). On rows,
  `matvec W x` is the row vector x·W (entry e is ∑ k, x k · W k e), `dense W b x` adds the bias b to it, and
  `relu x` is the entrywise maximum with 0. The lemmas below read the vector operations a kernel body spells such a layer
  with, row by row: a plain [M, K] × [K, N] matrix product into the zero accumulator is `matvec` of each row of the
  left operand; adding a [1, N] row broadcast over the M rows adds that one row to every row; the maximum with the splat
  of the zero word is `relu` of every row; a change of float format is the identity. No finiteness is used anywhere:
  every statement is an equation between the same sums and maxima of extended reals, term by term.
-/
import Idealize.ShloMosaic.Lib.ValueIdx
import Idealize.ShloMosaic.Lib.ValueLayout
import Idealize.ShloMosaic.PureOps.Ideal.Laws
import proofs.«133735_j11390253269678_2_alg».proof.Proof.LibPlainMatmul

noncomputable section

namespace Cert.LibDenseRows

open Idealize.ShloMosaic Idealize.ShloMosaic.ValueIdx

/-! ## Rows, and the layer on a row -/

/-- Row `r` of an [M, N] matrix, as a function of the column. -/
def rows {M N : ℕ} (v : (⟨2, ![M, N]⟩ : Shape).Idx → EReal) (r : Fin M) : Fin N → EReal := fun e => v (ix2 r e)

theorem rows_apply {M N : ℕ} (v : (⟨2, ![M, N]⟩ : Shape).Idx → EReal) (r : Fin M) (e : Fin N) :
    rows v r e = v (ix2 r e) := rfl

/-- A rank-1 array [N] as a function of its one coordinate. -/
def vec {N : ℕ} (b : (⟨1, ![N]⟩ : Shape).Idx → EReal) : Fin N → EReal := fun e => b (ix1 e)

/-- The row vector x·W: entry `e` is ∑ k, x k · W k e. -/
def matvec {K N : ℕ} (W : Fin K → Fin N → EReal) (x : Fin K → EReal) : Fin N → EReal := fun e => ∑ k : Fin K, x k * W k e

/-- A dense layer on a row: x·W + b. -/
def dense {K N : ℕ} (W : Fin K → Fin N → EReal) (b : Fin N → EReal) (x : Fin K → EReal) : Fin N → EReal :=
  fun e => matvec W x e + b e

/-- ReLU on a row: the entrywise maximum with 0. -/
def relu {N : ℕ} (x : Fin N → EReal) : Fin N → EReal := fun e => max (x e) 0

/-! ## A kernel body's vector operations, row by row -/

/-- A plain [M, K] × [K, N] product into the zero accumulator: row `r` of the product is row `r` of the left operand
    times the right operand. -/
theorem rows_matmul_zero {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (matmul d prec x w (constant (F := Ideal) ⟨2, ![M, N]⟩ .f32 0x00000000#32)) r = matvec (rows w) (rows x r) :=
  funext fun e => matmul_plain_zero_apply d hd prec x w r e

/-- Adding a [1, N] row broadcast over the M rows adds that row to every row. -/
theorem rows_add_broadcast_row {M N : ℕ} {φ : FTy} (u : FVec Ideal ⟨2, ![M, N]⟩ φ) (b : FVec Ideal ⟨2, ![1, N]⟩ φ)
    (h : (⟨2, ![1, N]⟩ : Shape).Broadcasts ⟨2, ![M, N]⟩) (r : Fin M) :
    rows (addf u (broadcastTo ⟨2, ![M, N]⟩ b h)) r = fun e => rows u r e + rows b 0 e :=
  funext fun e => by
    show u (ix2 r e) + broadcastTo ⟨2, ![M, N]⟩ b h (ix2 r e) = u (ix2 r e) + b (ix2 (0 : Fin 1) e)
    rw [broadcastTo_1b_ab_apply]

/-- The maximum with the splat of the zero word is ReLU of every row. -/
theorem rows_max_zero {M N : ℕ} (v : FVec Ideal ⟨2, ![M, N]⟩ .f32) (r : Fin M) :
    rows (maximumf v (broadcast ⟨2, ![M, N]⟩ (Scalar.ofBits (F := Ideal) .f32 0x00000000#32))) r = relu (rows v r) :=
  funext fun e => by
    show max (v (ix2 r e)) (Ideal.ofBits .f32 0x00000000#32) = max (v (ix2 r e)) 0
    rw [Ideal.ofBits_zero_f32]

/-- A narrowing of the float format is the identity on the extended reals. -/
theorem truncf_eq {s : Shape} {φ ψ : FTy} (a : FVec Ideal s φ) (h : ψ.bits < φ.bits) : (truncf ψ a h : FVec Ideal s ψ) = a := rfl

/-- The kernel's whole layer: a plain product into the zero accumulator plus a broadcast bias row is `dense` of every
    row. -/
theorem rows_matmul_bias {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨2, ![1, N]⟩ .f32)
    (h : (⟨2, ![1, N]⟩ : Shape).Broadcasts ⟨2, ![M, N]⟩) (r : Fin M) :
    rows (addf (matmul d prec x w (constant (F := Ideal) ⟨2, ![M, N]⟩ .f32 0x00000000#32)) (broadcastTo ⟨2, ![M, N]⟩ b h)) r
      = dense (rows w) (rows b 0) (rows x r) :=
  (rows_add_broadcast_row _ b h r).trans (funext fun e => by
    show rows (matmul d prec x w (constant (F := Ideal) ⟨2, ![M, N]⟩ .f32 0x00000000#32)) r e + rows b 0 e = matvec (rows w) (rows x r) e + rows b 0 e
    rw [rows_matmul_zero d hd prec x w r])

end Cert.LibDenseRows

end
-- ==== Proof.LibHostDenseRows.lean ====
/-
  A dense layer x ↦ x·W + b and a ReLU as a host program spells them, read row by row on the extended reals, for any
  extents.

  On the host the layer is a `dot_general` of an [M, K] matrix with a [K, N] matrix contracted row by column, plus a
  bias vector [N] broadcast first to one row [1, N] and then over the M rows; the ReLU is the entrywise maximum with
  the zero constant broadcast to the whole matrix. On the extended reals the product's entry (r, e) is
  ∑ k < K, x[r, k] · W[k, e] with nothing else added, so row r of the layer is `dense W b` of row r of x, and the
  maximum is `relu` of every row: the same sums and maxima, term by term, with no finiteness used. The last lemma
  reads a vector [N] recast as the one row of a [1, N] matrix, which is how a kernel body spells the same bias.
-/
import Idealize.ShloMosaic.Lib.ValueIdx
import Idealize.ShloMosaic.Lib.ValueLayout
import Idealize.ShloMosaic.Lib.Pipeline.Value
import Idealize.ShloMosaic.PureOps.Ideal.Laws
import proofs.«133735_j11390253269678_2_alg».proof.Proof.LibDenseRows

noncomputable section

namespace Cert.LibHostDenseRows

open Idealize.ShloMosaic Idealize.ShloMosaic.ValueIdx Cert.LibDenseRows

/-- Entry (r, e) of a plain host product [M, K] × [K, N] is ∑ k, lhs[r, k] · rhs[k, e]. The dimension record may be
    any record equal to the plain one. -/
theorem hostDot_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (e : Fin N) :
    Host.dotGeneral (F := Ideal) d prec lhs rhs (ix2 r e) = ∑ k : Fin K, lhs (ix2 r k) * rhs (ix2 k e) := by
  subst hd
  show FloatOps.dotGeneral (DotDims.plain M K N) prec .single lhs rhs (ix2 r e) = _
  rw [Ideal.dotGeneral_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r e) ((contrEquiv1 (DotDims.plain M K N) K rfl rfl).symm k) = ix2 r k :=
    funext fun a => Fin.ext (by
      match a with
      | ⟨0, _⟩ => rfl
      | ⟨1, _⟩ => exact hk)
  have er : (DotDims.plain M K N).rhsIdx (ix2 r e) ((contrEquiv1 (DotDims.plain M K N) K rfl rfl).symm k) = ix2 k e :=
    funext fun a => Fin.ext (by
      match a with
      | ⟨0, _⟩ => exact hk
      | ⟨1, _⟩ => rfl)
  rw [el, er]

/-- Row `r` of a plain host product is row `r` of the left operand times the right operand. -/
theorem rows_hostDot {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (r : Fin M) :
    rows (Host.dotGeneral (F := Ideal) d prec x w) r = matvec (rows w) (rows x r) :=
  funext fun e => hostDot_plain_apply d hd prec x w r e

/-- A vector [N] broadcast to one row [1, N] and that row over M rows: every row is the vector. -/
theorem rows_broadcast_vec {M N : ℕ} (b : (⟨1, ![N]⟩ : Shape).Idx → EReal)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (broadcastInDim ⟨2, ![M, N]⟩ ![0, 1] h2 (broadcastInDim ⟨2, ![1, N]⟩ ![1] h1 b)) r = vec b :=
  funext fun e => by
    show broadcastInDim ⟨2, ![M, N]⟩ ![0, 1] h2 (broadcastInDim ⟨2, ![1, N]⟩ ![1] h1 b) (ix2 r e) = b (ix1 e)
    rw [broadcastInDim_apply ![0, 1] h2 _ (ix2 r e) (ix2 (0 : Fin 1) e) (fun a => by
      match a with
      | ⟨0, _⟩ => show (0 : ℕ) = if (1 : ℕ) = 1 then 0 else r.val; rw [if_pos rfl]
      | ⟨1, _⟩ =>
        show e.val = if N = 1 then 0 else e.val
        split
        · have := e.isLt; omega
        · rfl)]
    exact broadcastInDim_apply ![1] h1 b (ix2 (0 : Fin 1) e) (ix1 e) (fun a => by
      match a with
      | ⟨0, _⟩ =>
        show e.val = if N = 1 then 0 else e.val
        split
        · have := e.isLt; omega
        · rfl)

/-- The host's whole layer: a plain product plus the bias vector broadcast over the rows is `dense` of every row. -/
theorem rows_hostDense {M K N : ℕ} {φ₁ φ₂ : FTy} (d : DotDims ⟨2, ![M, K]⟩ ⟨2, ![K, N]⟩ ⟨2, ![M, N]⟩)
    (hd : d = DotDims.plain M K N) (prec : Option ContractPrecision)
    (x : FVec Ideal ⟨2, ![M, K]⟩ φ₁) (w : FVec Ideal ⟨2, ![K, N]⟩ φ₂) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (r : Fin M) :
    rows (addf (Host.dotGeneral (F := Ideal) d prec x w)
        (broadcastInDim ⟨2, ![M, N]⟩ ![0, 1] h2 (broadcastInDim ⟨2, ![1, N]⟩ ![1] h1 b))) r
      = dense (rows w) (vec b) (rows x r) :=
  funext fun e => by
    show rows (Host.dotGeneral (F := Ideal) d prec x w) r e
        + rows (broadcastInDim ⟨2, ![M, N]⟩ ![0, 1] h2 (broadcastInDim ⟨2, ![1, N]⟩ ![1] h1 b)) r e
      = matvec (rows w) (rows x r) e + vec b e
    rw [rows_hostDot d hd prec x w r, rows_broadcast_vec b h1 h2 r]

/-- The maximum with the zero constant broadcast to the whole matrix is ReLU of every row. -/
theorem rows_max_zero_const {M N : ℕ} (v : FVec Ideal ⟨2, ![M, N]⟩ .f32)
    (h : (⟨0, ![]⟩ : Shape).BroadcastsInDim ⟨2, ![M, N]⟩ ![]) (r : Fin M) :
    rows (maximumf v (broadcastInDim ⟨2, ![M, N]⟩ ![] h (constant (F := Ideal) ⟨0, ![]⟩ .f32 0x00000000#32))) r
      = relu (rows v r) :=
  funext fun e => by
    show max (v (ix2 r e)) (broadcastInDim ⟨2, ![M, N]⟩ ![] h (constant (F := Ideal) ⟨0, ![]⟩ .f32 0x00000000#32) (ix2 r e))
      = max (v (ix2 r e)) 0
    have hz : broadcastInDim ⟨2, ![M, N]⟩ ![] h (constant (F := Ideal) ⟨0, ![]⟩ .f32 0x00000000#32) (ix2 r e)
        = Ideal.ofBits .f32 0x00000000#32 :=
      broadcastInDim_apply _ h _ (ix2 r e) (fun a => a.elim0) (fun a => a.elim0)
    rw [hz, Ideal.ofBits_zero_f32]

/-- A vector [N] recast as the one row of a [1, N] matrix: that row is the vector. -/
theorem rows_shapeCast_vec {N : ℕ} (b : (⟨1, ![N]⟩ : Shape).Idx → EReal)
    (h : (⟨1, ![N]⟩ : Shape).ShapeCasts ⟨2, ![1, N]⟩) :
    rows (shapeCast ⟨2, ![1, N]⟩ b h) (0 : Fin 1) = vec b :=
  funext fun e => shapeCast_a_1a_apply b h 0 e

end Cert.LibHostDenseRows

end
-- ==== Proof.RefForms.lean ====
/-
  The host operations a reference program spells a graph convolution layer with, read as the functions of the shared
  specification, for any extents.

  * A plain host product [M, K] × [K, N] is the matrix product  dense .
  * The rows gathered at the sources, multiplied by the edge weight  d[src e] · d[dst e]  that is first formed as a
    vector over the edges, made a column and spread over the feature columns, are, entry by entry, the gathered entry
    times the two gathered factors of its edge; scattering them from zero at the destinations is  aggWeighted .
  * Adding a bias vector made one row and spread over all rows is  addBias ; the maximum with the broadcast zero
    constant is  relu .
  * Dividing every entry by the larger of a constant 1e-12 and the square root of its row's sum of squares (the sum made
    a column, the column spread over the feature columns) is  normRows .

  Every statement is an equation of functions on the extended reals, proved index by index; nothing is assumed finite.
-/
import Idealize.ShloMosaic.Lib.ValueIdx
import Idealize.ShloMosaic.Lib.Pipeline.Value
import Idealize.ShloMosaic.PureOps.Ideal.Laws
import proofs.«133735_j11390253269678_2_alg».proof.Proof.Spec
import proofs.«133735_j11390253269678_2_alg».proof.Proof.LibAxisReads
import proofs.«133735_j11390253269678_2_alg».proof.Proof.LibHostDenseRows

noncomputable section

open scoped BigOperators

namespace Cert.GCN.Ref

open Idealize.ShloMosaic Idealize.ShloMosaic.ValueIdx Cert.GCN Cert.LibAxisReads Cert.LibHostDenseRows

/-- A plain host product is the matrix product. -/
theorem hostDot_eq_dense {M K N : ℕ} (d : DotDims ⟨2, ![M, K]⟩ ⟨2, ![K, N]⟩ ⟨2, ![M, N]⟩)
    (hd : d = DotDims.plain M K N) (prec : Option ContractPrecision) (l : Mat M K) (r : Mat K N) :
    Host.dotGeneral (F := Ideal) (φ₁ := .f32) (φ₂ := .f32) d prec l r = dense l r := by
  funext j
  obtain ⟨p, q, rfl⟩ : ∃ (p : Fin M) (q : Fin N), j = ix2 p q := ⟨j 0, j 1, eq_ix2 j⟩
  exact hostDot_plain_apply d hd prec l r p q

/-- The gathered rows times the edge weights, the weights formed as a vector over the edges, made a column and spread
    over the feature columns: entry (e, c) is the gathered entry times the two gathered factors of edge e. -/
theorem weighted_rows_eq {N E C : ℕ} (dG : GatherDims ⟨2, ![N, C]⟩ ⟨2, ![E, 1]⟩ ⟨2, ![E, C]⟩)
    (dg : GatherDims ⟨1, ![N]⟩ ⟨2, ![E, 1]⟩ ⟨1, ![E]⟩) (scol dwrap : IVec ⟨2, ![E, 1]⟩ 32) (d : Row N) (H : Mat N C)
    (h1 : (⟨1, ![E]⟩ : Shape).BroadcastsInDim ⟨2, ![E, 1]⟩ ![0])
    (h2 : (⟨2, ![E, 1]⟩ : Shape).BroadcastsInDim ⟨2, ![E, C]⟩ ![0, 1]) :
    mulf (F := Ideal) (φ := .f32) (Host.gather dG H scol)
        (broadcastInDim ⟨2, ![E, C]⟩ ![0, 1] h2 (broadcastInDim ⟨2, ![E, 1]⟩ ![0] h1
          (mulf (F := Ideal) (φ := .f32) (Host.gather dg d scol) (Host.gather dg d dwrap))))
      = fun j => Host.gather dG H scol j * (Host.gather dg d scol (ix1 (j 0)) * Host.gather dg d dwrap (ix1 (j 0))) := by
  funext j
  obtain ⟨p, q, rfl⟩ : ∃ (p : Fin E) (q : Fin C), j = ix2 p q := ⟨j 0, j 1, eq_ix2 j⟩
  refine congrArg (fun z : EReal => Host.gather dG H scol (ix2 p q) * z) ?_
  rw [column_spread_apply, vec_column_apply]
  rfl

/-- The reference's aggregation, as the host spells it, is  aggWeighted . -/
theorem scatter_weighted_eq {N E C : ℕ} (dS : ScatterDims ⟨2, ![N, C]⟩ ⟨2, ![E, 1]⟩ ⟨2, ![E, C]⟩)
    (dG : GatherDims ⟨2, ![N, C]⟩ ⟨2, ![E, 1]⟩ ⟨2, ![E, C]⟩)
    (dg : GatherDims ⟨1, ![N]⟩ ⟨2, ![E, 1]⟩ ⟨1, ![E]⟩) (z : Mat N C) (scol dcol dwrap : IVec ⟨2, ![E, 1]⟩ 32)
    (d : Row N) (H : Mat N C)
    (h1 : (⟨1, ![E]⟩ : Shape).BroadcastsInDim ⟨2, ![E, 1]⟩ ![0])
    (h2 : (⟨2, ![E, 1]⟩ : Shape).BroadcastsInDim ⟨2, ![E, C]⟩ ![0, 1]) :
    Host.scatterAdd (F := Ideal) (φ := .f32) dS z dcol
        (mulf (F := Ideal) (φ := .f32) (Host.gather dG H scol)
          (broadcastInDim ⟨2, ![E, C]⟩ ![0, 1] h2 (broadcastInDim ⟨2, ![E, 1]⟩ ![0] h1
            (mulf (F := Ideal) (φ := .f32) (Host.gather dg d scol) (Host.gather dg d dwrap)))))
      = aggWeighted dS dG dg z scol dcol dwrap d H := by
  rw [weighted_rows_eq dG dg scol dwrap d H h1 h2]
  rfl

/-- A bias vector made one row, spread over all rows and added, is  addBias . -/
theorem add_bias_rows_eq {N C : ℕ} (u : Mat N C) (b : Row C)
    (h1 : (⟨1, ![C]⟩ : Shape).BroadcastsInDim ⟨2, ![1, C]⟩ ![1])
    (h2 : (⟨2, ![1, C]⟩ : Shape).BroadcastsInDim ⟨2, ![N, C]⟩ ![0, 1]) :
    addf (F := Ideal) (φ := .f32) u (broadcastInDim ⟨2, ![N, C]⟩ ![0, 1] h2 (broadcastInDim ⟨2, ![1, C]⟩ ![1] h1 b))
      = addBias u b := by
  funext j
  obtain ⟨p, q, rfl⟩ : ∃ (p : Fin N) (q : Fin C), j = ix2 p q := ⟨j 0, j 1, eq_ix2 j⟩
  refine congrArg (fun z : EReal => u (ix2 p q) + z) ?_
  rw [row_spread_apply, vec_row_apply]
  rfl

/-- The maximum with the broadcast zero constant is  relu . -/
theorem max_zero_eq_relu {N C : ℕ} (u : Mat N C) (h : (⟨0, ![]⟩ : Shape).BroadcastsInDim ⟨2, ![N, C]⟩ ![]) :
    maximumf (F := Ideal) (φ := .f32) u
        (broadcastInDim ⟨2, ![N, C]⟩ ![] h (constant (F := Ideal) ⟨0, ![]⟩ .f32 0x00000000#32))
      = relu u := by
  funext j
  show max (u j) (broadcastInDim ⟨2, ![N, C]⟩ ![] h (constant (F := Ideal) ⟨0, ![]⟩ .f32 0x00000000#32) j) = max (u j) 0
  rw [const_broadcast_apply, Ideal.ofBits_zero_f32]

/-- The zero constant broadcast to a matrix reads zero everywhere. -/
theorem zero_broadcast_apply {N C : ℕ} (h : (⟨0, ![]⟩ : Shape).BroadcastsInDim ⟨2, ![N, C]⟩ ![])
    (j : (⟨2, ![N, C]⟩ : Shape).Idx) :
    broadcastInDim ⟨2, ![N, C]⟩ ![] h (constant (F := Ideal) ⟨0, ![]⟩ .f32 0x00000000#32) j = 0 := by
  rw [const_broadcast_apply, Ideal.ofBits_zero_f32]

/-- Every entry divided by the larger of the constant 1e-12 and the square root of its row's sum of squares
    is  normRows . -/
theorem div_norm_eq_normRows {N C : ℕ} (v : Mat N C)
    (hred : (⟨2, ![N, C]⟩ : Shape).ReducesTo [1] ⟨1, ![N]⟩) (hs : 0 < (⟨0, ![]⟩ : Shape).numel)
    (h1 : (⟨1, ![N]⟩ : Shape).BroadcastsInDim ⟨2, ![N, 1]⟩ ![0])
    (h2 : (⟨0, ![]⟩ : Shape).BroadcastsInDim ⟨2, ![N, 1]⟩ ![])
    (h3 : (⟨2, ![N, 1]⟩ : Shape).BroadcastsInDim ⟨2, ![N, C]⟩ ![0, 1]) :
    Host.divf (F := Ideal) (φ := .f32) v
        (broadcastInDim ⟨2, ![N, C]⟩ ![0, 1] h3
          (maximumf (F := Ideal) (φ := .f32)
            (broadcastInDim ⟨2, ![N, 1]⟩ ![] h2 (constant (F := Ideal) ⟨0, ![]⟩ .f32 0x2B8CBCCC#32))
            (Host.sqrt (F := Ideal) (φ := .f32) (broadcastInDim ⟨2, ![N, 1]⟩ ![0] h1
              (Host.reduceAdd (F := Ideal) (φ := .f32) (mulf (F := Ideal) (φ := .f32) v v)
                (constant (F := Ideal) ⟨0, ![]⟩ .f32 0x00000000#32) hred hs)))))
      = normRows v := by
  funext j
  obtain ⟨p, q, rfl⟩ : ∃ (p : Fin N) (q : Fin C), j = ix2 p q := ⟨j 0, j 1, eq_ix2 j⟩
  refine congrArg (fun z : EReal => Ideal.div (v (ix2 p q)) z) ?_
  rw [column_spread_apply, maximumf_apply, const_broadcast_apply]
  have hsum : broadcastInDim ⟨2, ![N, 1]⟩ ![0] h1
        (Host.reduceAdd (F := Ideal) (φ := .f32) (mulf (F := Ideal) (φ := .f32) v v)
          (constant (F := Ideal) ⟨0, ![]⟩ .f32 0x00000000#32) hred hs) (ix2 p (0 : Fin 1))
      = ∑ f : Fin C, v (ix2 p f) * v (ix2 p f) := by
    rw [vec_column_apply, hostReduceAdd_lastAxis_apply _ _ hred ⟨hred.1, Nat.one_pos, hred.2⟩ hs p]
    show Ideal.ofBits .f32 0x00000000#32 + ∑ f : Fin C, v (ix2 p f) * v (ix2 p f) = _
    rw [Ideal.ofBits_zero_f32, zero_add]
  exact (congrArg (fun z : EReal => max (Ideal.ofBits .f32 0x2B8CBCCC#32) (Ideal.sqrt z)) hsum).trans (max_comm _ _)

/-- One whole layer without its final maximum, as the host spells it: the plain product, the rows gathered at the
    sources and scaled by the edge weights, their sums at the destinations from the zero matrix, the bias row added. -/
theorem host_layer_eq {N E K C : ℕ} (dS : ScatterDims ⟨2, ![N, C]⟩ ⟨2, ![E, 1]⟩ ⟨2, ![E, C]⟩)
    (dG : GatherDims ⟨2, ![N, C]⟩ ⟨2, ![E, 1]⟩ ⟨2, ![E, C]⟩)
    (dg : GatherDims ⟨1, ![N]⟩ ⟨2, ![E, 1]⟩ ⟨1, ![E]⟩)
    (dd : DotDims ⟨2, ![N, K]⟩ ⟨2, ![K, C]⟩ ⟨2, ![N, C]⟩) (hd : dd = DotDims.plain N K C)
    (prec : Option ContractPrecision) (z : Mat N C) (scol dcol dwrap : IVec ⟨2, ![E, 1]⟩ 32)
    (d : Row N) (x : Mat N K) (w : Mat K C) (b : Row C)
    (h1 : (⟨1, ![E]⟩ : Shape).BroadcastsInDim ⟨2, ![E, 1]⟩ ![0])
    (h2 : (⟨2, ![E, 1]⟩ : Shape).BroadcastsInDim ⟨2, ![E, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1]) :
    addf (F := Ideal) (φ := .f32)
        (Host.scatterAdd (F := Ideal) (φ := .f32) dS z dcol
          (mulf (F := Ideal) (φ := .f32)
            (Host.gather dG (Host.dotGeneral (F := Ideal) (φ₁ := .f32) (φ₂ := .f32) dd prec x w) scol)
            (broadcastInDim ⟨2, ![E, C]⟩ ![0, 1] h2 (broadcastInDim ⟨2, ![E, 1]⟩ ![0] h1
              (mulf (F := Ideal) (φ := .f32) (Host.gather dg d scol) (Host.gather dg d dwrap))))))
        (broadcastInDim ⟨2, ![N, C]⟩ ![0, 1] hb2 (broadcastInDim ⟨2, ![1, C]⟩ ![1] hb1 b))
      = addBias (aggWeighted dS dG dg z scol dcol dwrap d (dense x w)) b := by
  rw [hostDot_eq_dense dd hd prec x w, scatter_weighted_eq dS dG dg z scol dcol dwrap d (dense x w) h1 h2]
  exact add_bias_rows_eq _ b hb1 hb2

/-- One whole layer with its final maximum with zero. -/
theorem host_layer_relu_eq {N E K C : ℕ} (dS : ScatterDims ⟨2, ![N, C]⟩ ⟨2, ![E, 1]⟩ ⟨2, ![E, C]⟩)
    (dG : GatherDims ⟨2, ![N, C]⟩ ⟨2, ![E, 1]⟩ ⟨2, ![E, C]⟩)
    (dg : GatherDims ⟨1, ![N]⟩ ⟨2, ![E, 1]⟩ ⟨1, ![E]⟩)
    (dd : DotDims ⟨2, ![N, K]⟩ ⟨2, ![K, C]⟩ ⟨2, ![N, C]⟩) (hd : dd = DotDims.plain N K C)
    (prec : Option ContractPrecision) (z : Mat N C) (scol dcol dwrap : IVec ⟨2, ![E, 1]⟩ 32)
    (d : Row N) (x : Mat N K) (w : Mat K C) (b : Row C)
    (h1 : (⟨1, ![E]⟩ : Shape).BroadcastsInDim ⟨2, ![E, 1]⟩ ![0])
    (h2 : (⟨2, ![E, 1]⟩ : Shape).BroadcastsInDim ⟨2, ![E, C]⟩ ![0, 1])
    (hb1 : (⟨1, ![C]⟩ : Shape).BroadcastsInDim ⟨2, ![1, C]⟩ ![1])
    (hb2 : (⟨2, ![1, C]⟩ : Shape).BroadcastsInDim ⟨2, ![N, C]⟩ ![0, 1])
    (hz : (⟨0, ![]⟩ : Shape).BroadcastsInDim ⟨2, ![N, C]⟩ ![]) :
    maximumf (F := Ideal) (φ := .f32)
        (addf (F := Ideal) (φ := .f32)
          (Host.scatterAdd (F := Ideal) (φ := .f32) dS z dcol
            (mulf (F := Ideal) (φ := .f32)
              (Host.gather dG (Host.dotGeneral (F := Ideal) (φ₁ := .f32) (φ₂ := .f32) dd prec x w) scol)
              (broadcastInDim ⟨2, ![E, C]⟩ ![0, 1] h2 (broadcastInDim ⟨2, ![E, 1]⟩ ![0] h1
                (mulf (F := Ideal) (φ := .f32) (Host.gather dg d scol) (Host.gather dg d dwrap))))))
          (broadcastInDim ⟨2, ![N, C]⟩ ![0, 1] hb2 (broadcastInDim ⟨2, ![1, C]⟩ ![1] hb1 b)))
        (broadcastInDim ⟨2, ![N, C]⟩ ![] hz (constant (F := Ideal) ⟨0, ![]⟩ .f32 0x00000000#32))
      = relu (addBias (aggWeighted dS dG dg z scol dcol dwrap d (dense x w)) b) := by
  rw [host_layer_eq dS dG dg dd hd prec z scol dcol dwrap d x w b h1 h2 hb1 hb2]
  exact max_zero_eq_relu _ hz

end Cert.GCN.Ref

end
-- ==== Proof.RefLayers.lean ====
/-
  The reference program's node-embedding chain read as the shared specification's  embEdge .

  The reference prepares, once, the two edge columns (each row of the edge array followed by every node's own index, so
  that every node also sends to itself) and the per-node factor  d = deg^(-1/2)  (zero at a node no edge arrives at),
  the degree being the number of entries of the destination column that name the node. Each of its three layers then
  reads the two columns through the index normalisation that array indexing adds (a negative index has the number of
  nodes added to it), multiplies the gathered rows of the layer's dense product by  d[src e] · d[dst e] , adds them up
  at the destinations from zero and adds the bias; the first two layers end with the maximum with zero, and the rows of
  the third are divided by the larger of their Euclidean norm and 1e-12.

  Below: the prepared columns and factor as functions of the edge array, the two spellings of an index column, the
  reading of each stretch of the program from arbitrary starting contents, the agreement of the normalised and the raw
  column at an index that is already a node, and the chain of the readings.
-/
import proofs.«133735_j11390253269678_2_alg».proof.Proof.RefOps
import proofs.«133735_j11390253269678_2_alg».proof.Proof.RefForms

noncomputable section

namespace Cert.GCN.Ref

open Cert.ReferenceIdeal Cert.ReferenceIdeal.Gen Idealize.ShloMosaic Idealize.ShloMosaic.TcCoe Idealize.SL.Sem Idealize.ShloMosaic.StableHlo
open Idealize.ShloMosaic.ValueIdx Cert.GCN Cert.LibAxisReads

/-! ## The prepared columns and factor -/

/-- The source column: the first row of the edge array followed by every node's index. -/
def srcR (ei : IVec S2x800000 32) : IVec S850000 32 :=
  concatenate S850000 0
    [⟨S800000, shapeCast S800000 (extractStridedSlice S1x800000 ![0, 0] ei slices_S2x800000_S1x800000_0_0)
        shapeCasts_S1x800000_S800000⟩,
      ⟨S50000, iotaInDim S50000 32 0⟩]
    concatenates_S800000_S50000_S850000_d0

/-- The destination column: the second row of the edge array followed by every node's index. -/
def dstR (ei : IVec S2x800000 32) : IVec S850000 32 :=
  concatenate S850000 0
    [⟨S800000, shapeCast S800000 (extractStridedSlice S1x800000 ![1, 0] ei slices_S2x800000_S1x800000_1_0)
        shapeCasts_S1x800000_S800000⟩,
      ⟨S50000, iotaInDim S50000 32 0⟩]
    concatenates_S800000_S50000_S850000_d0

/-- An index vector as a column, every negative index first increased by the number of nodes. -/
def wrapCol (s : IVec S850000 32) : IVec S850000x1 32 :=
  broadcastInDim S850000x1 ![0] bcast_S850000_S850000x1_0
    (select (cmpi .slt s (broadcastInDim S850000 ![] bcast_S_S850000 (constantI S_ 32 0#32)))
      (addi s (broadcastInDim S850000 ![] bcast_S_S850000 (constantI S_ 32 50000#32))) s)

/-- An index vector as a column, unchanged. -/
def rawCol (s : IVec S850000 32) : IVec S850000x1 32 :=
  broadcastInDim S850000x1 ![0] bcast_S850000_S850000x1_0 s

/-- The number of entries of the destination column that name each node: ones added up at the destinations from
    zero. -/
def degR (ei : IVec S2x800000 32) : Cert.GCN.Row 50000 :=
  Host.scatterAdd (F := Ideal) (φ := .f32) scatter_S50000_S850000x1_S850000_n_0_0_1
    (broadcastInDim S50000 ![] bcast_S_S50000 (constant (F := Ideal) S_ .f32 0x00000000#32))
    (rawCol (dstR ei))
    (broadcastInDim S850000 ![] bcast_S_S850000 (constant (F := Ideal) S_ .f32 0x3F800000#32))

/-- The factor  d : the inverse square root of the degree where the degree is positive, zero elsewhere. -/
def dR (ei : IVec S2x800000 32) : Cert.GCN.Row 50000 :=
  select
    (cmpf (F := Ideal) (φ := .f32) .ogt (degR ei)
      (broadcastInDim S50000 ![] bcast_S_S50000 (constant (F := Ideal) S_ .f32 0x00000000#32)))
    (Host.rsqrt (F := Ideal) (φ := .f32) (degR ei))
    (broadcastInDim S50000 ![] bcast_S_S50000 (constant (F := Ideal) S_ .f32 0x00000000#32))

/-- The zero matrix the sums of width 128 start from. -/
def z128 : Cert.GCN.Mat 50000 128 :=
  broadcastInDim S50000x128 ![] bcast_S_S50000x128 (constant (F := Ideal) S_ .f32 0x00000000#32)

/-- The zero matrix the sums of width 64 start from. -/
def z64 : Cert.GCN.Mat 50000 64 :=
  broadcastInDim S50000x64 ![] bcast_S_S50000x64 (constant (F := Ideal) S_ .f32 0x00000000#32)

/-- The node embeddings the reference computes, as a function of the features, the edge array and the weights. -/
def xR (x : Mat 50000 128) (ei : IVec S2x800000 32) (W1 : Mat 128 128) (b1 : Row 128) (W2 : Mat 128 128) (b2 : Row 128)
    (W3 : Mat 128 64) (b3 : Row 64) : Mat 50000 64 :=
  embEdge x W1 b1 W2 b2 W3 b3
    (aggWeighted scatter_S50000x128_S850000x1_S850000x128_1_0_0_1 gather_S50000x128_S850000x1_S850000x128_1_0_n_n_0_1_1128 gather_S50000_S850000x1_S850000_n_0_n_n_0_1_1 z128 (wrapCol (srcR ei)) (rawCol (dstR ei)) (wrapCol (dstR ei)) (dR ei))
    (aggWeighted scatter_S50000x128_S850000x1_S850000x128_1_0_0_1 gather_S50000x128_S850000x1_S850000x128_1_0_n_n_0_1_1128 gather_S50000_S850000x1_S850000_n_0_n_n_0_1_1 z128 (wrapCol (srcR ei)) (rawCol (dstR ei)) (wrapCol (dstR ei)) (dR ei))
    (aggWeighted scatter_S50000x64_S850000x1_S850000x64_1_0_0_1 gather_S50000x64_S850000x1_S850000x64_1_0_n_n_0_1_164 gather_S50000_S850000x1_S850000_n_0_n_n_0_1_1 z64 (wrapCol (srcR ei)) (rawCol (dstR ei)) (wrapCol (dstR ei)) (dR ei))

/-! ## The stretches of the program, from arbitrary starting contents

A line of a called function carries its value through a change of type that is the identity; each such line is first
restated as the plain operation it equals, so that the contents read off a stretch contain no such change. -/

attribute [local irreducible] Host.gather Host.scatterAdd Host.reduceAdd in
set_option maxRecDepth 8192 in
/-- After the preparation the source column's buffer holds  srcR  of the edge array. -/
theorem readP_src (W : Valuation τ sig (Elt Ideal)) :
    StableHlo.after (opsP (F := Ideal)) W (main_v3 : DevRef τ sig) = srcR (W main_arg2) := by
  after_results
  rfl

attribute [local irreducible] Host.gather Host.scatterAdd Host.reduceAdd in
set_option maxRecDepth 8192 in
/-- After the preparation the destination column's buffer holds  dstR  of the edge array. -/
theorem readP_dst (W : Valuation τ sig (Elt Ideal)) :
    StableHlo.after (opsP (F := Ideal)) W (main_v6 : DevRef τ sig) = dstR (W main_arg2) := by
  after_results
  rfl

attribute [local irreducible] Host.gather Host.scatterAdd Host.reduceAdd in
set_option maxRecDepth 8192 in
/-- After the preparation the factor's buffer holds  dR  of the edge array. -/
theorem readP_d (W : Valuation τ sig (Elt Ideal)) :
    StableHlo.after (opsP (F := Ideal)) W (main_v14 : DevRef τ sig) = dR (W main_arg2) := by
  have e1 : (StableHlo.TRef.unary (.of main_cst_2 : StableHlo.TRef sig ⟨S_, .f32⟩) main_call0.v0 id : HloOp τ sig (Elt Ideal))
      = StableHlo.unary main_cst_2 main_call0_v0 (id :
          (⟨S_, .f32⟩ : BufTy).Contents (Elt Ideal) → (⟨S_, .f32⟩ : BufTy).Contents (Elt Ideal)) := rfl
  have e2 : (StableHlo.TRef.unary main_call0.v0 main_call0.v1 (broadcastInDim S50000 ![] bcast_S_S50000) : HloOp τ sig (Elt Ideal))
      = StableHlo.unary main_call0_v0 main_call0_v1 (broadcastInDim S50000 ![] bcast_S_S50000 :
          (⟨S_, .f32⟩ : BufTy).Contents (Elt Ideal) → (⟨S50000, .f32⟩ : BufTy).Contents (Elt Ideal)) := rfl
  have e3 : (StableHlo.TRef.ternary (.of main_v12 : StableHlo.TRef sig ⟨S50000, .i1⟩)
        (.of main_v13 : StableHlo.TRef sig ⟨S50000, .f32⟩) main_call0.v1 main_call0.v2 select : HloOp τ sig (Elt Ideal))
      = StableHlo.ternary main_v12 main_v13 main_call0_v1 main_v14 (select :
          (⟨S50000, .i1⟩ : BufTy).Contents (Elt Ideal) → (⟨S50000, .f32⟩ : BufTy).Contents (Elt Ideal)
            → (⟨S50000, .f32⟩ : BufTy).Contents (Elt Ideal) → (⟨S50000, .f32⟩ : BufTy).Contents (Elt Ideal)) := rfl
  unfold opsP
  rw [e1, e2, e3]
  after_results
  rfl

attribute [local irreducible] Host.gather Host.scatterAdd Host.reduceAdd in
set_option maxRecDepth 8192 in
/-- The first layer, from any contents. -/
theorem readL1 (W : Valuation τ sig (Elt Ideal)) :
    StableHlo.after (opsL1 (F := Ideal)) W (main_v47 : DevRef τ sig)
      = relu (addBias (aggWeighted scatter_S50000x128_S850000x1_S850000x128_1_0_0_1 gather_S50000x128_S850000x1_S850000x128_1_0_n_n_0_1_1128 gather_S50000_S850000x1_S850000_n_0_n_n_0_1_1 z128 (wrapCol (W main_v3)) (rawCol (W main_v6)) (wrapCol (W main_v6)) (W main_v14)
          (dense (W main_arg0) (W main_arg3))) (W main_arg4)) := by
  have e1 : (StableHlo.TRef.nullary main_call1.cst (constant (F := Ideal) S_ .f32 0x00000000#32) : HloOp τ sig (Elt Ideal))
      = StableHlo.nullary main_call1_cst (constant (F := Ideal) S_ .f32 0x00000000#32) := rfl
  have e2 : (StableHlo.TRef.unary main_call1.cst main_call1.v0 (broadcastInDim S50000x128 ![] bcast_S_S50000x128) : HloOp τ sig (Elt Ideal))
      = StableHlo.unary main_call1_cst main_call1_v0 (broadcastInDim S50000x128 ![] bcast_S_S50000x128 :
          (⟨S_, .f32⟩ : BufTy).Contents (Elt Ideal) → (⟨S50000x128, .f32⟩ : BufTy).Contents (Elt Ideal)) := rfl
  have e3 : (StableHlo.TRef.binary (.of main_v46 : StableHlo.TRef sig ⟨S50000x128, .f32⟩) main_call1.v0 main_call1.v1
        (maximumf (F := Ideal) (φ := .f32)) : HloOp τ sig (Elt Ideal))
      = StableHlo.binary main_v46 main_call1_v0 main_v47 (maximumf (F := Ideal) (φ := .f32) :
          (⟨S50000x128, .f32⟩ : BufTy).Contents (Elt Ideal) → (⟨S50000x128, .f32⟩ : BufTy).Contents (Elt Ideal) → (⟨S50000x128, .f32⟩ : BufTy).Contents (Elt Ideal)) := rfl
  unfold opsL1
  rw [e1, e2, e3]
  after_results_simp
  exact host_layer_relu_eq scatter_S50000x128_S850000x1_S850000x128_1_0_0_1 gather_S50000x128_S850000x1_S850000x128_1_0_n_n_0_1_1128 gather_S50000_S850000x1_S850000_n_0_n_n_0_1_1 dot_S50000x128_S128x128_S50000x128_1_0_0_1_n_n rfl none z128
    (wrapCol (W main_v3)) (rawCol (W main_v6)) (wrapCol (W main_v6)) (W main_v14) (W main_arg0) (W main_arg3) (W main_arg4)
    bcast_S850000_S850000x1_0 bcast_S850000x1_S850000x128_0_1 bcast_S128_S1x128_1 bcast_S1x128_S50000x128_0_1
    bcast_S_S50000x128

attribute [local irreducible] Host.gather Host.scatterAdd Host.reduceAdd in
set_option maxRecDepth 8192 in
/-- The second layer, from any contents. -/
theorem readL2 (W : Valuation τ sig (Elt Ideal)) :
    StableHlo.after (opsL2 (F := Ideal)) W (main_v80 : DevRef τ sig)
      = relu (addBias (aggWeighted scatter_S50000x128_S850000x1_S850000x128_1_0_0_1 gather_S50000x128_S850000x1_S850000x128_1_0_n_n_0_1_1128 gather_S50000_S850000x1_S850000_n_0_n_n_0_1_1 z128 (wrapCol (W main_v3)) (rawCol (W main_v6)) (wrapCol (W main_v6)) (W main_v14)
          (dense (W main_v47) (W main_arg5))) (W main_arg6)) := by
  have e1 : (StableHlo.TRef.nullary main_call2.cst (constant (F := Ideal) S_ .f32 0x00000000#32) : HloOp τ sig (Elt Ideal))
      = StableHlo.nullary main_call2_cst (constant (F := Ideal) S_ .f32 0x00000000#32) := rfl
  have e2 : (StableHlo.TRef.unary main_call2.cst main_call2.v0 (broadcastInDim S50000x128 ![] bcast_S_S50000x128) : HloOp τ sig (Elt Ideal))
      = StableHlo.unary main_call2_cst main_call2_v0 (broadcastInDim S50000x128 ![] bcast_S_S50000x128 :
          (⟨S_, .f32⟩ : BufTy).Contents (Elt Ideal) → (⟨S50000x128, .f32⟩ : BufTy).Contents (Elt Ideal)) := rfl
  have e3 : (StableHlo.TRef.binary (.of main_v79 : StableHlo.TRef sig ⟨S50000x128, .f32⟩) main_call2.v0 main_call2.v1
        (maximumf (F := Ideal) (φ := .f32)) : HloOp τ sig (Elt Ideal))
      = StableHlo.binary main_v79 main_call2_v0 main_v80 (maximumf (F := Ideal) (φ := .f32) :
          (⟨S50000x128, .f32⟩ : BufTy).Contents (Elt Ideal) → (⟨S50000x128, .f32⟩ : BufTy).Contents (Elt Ideal) → (⟨S50000x128, .f32⟩ : BufTy).Contents (Elt Ideal)) := rfl
  unfold opsL2
  rw [e1, e2, e3]
  after_results_simp
  exact host_layer_relu_eq scatter_S50000x128_S850000x1_S850000x128_1_0_0_1 gather_S50000x128_S850000x1_S850000x128_1_0_n_n_0_1_1128 gather_S50000_S850000x1_S850000_n_0_n_n_0_1_1 dot_S50000x128_S128x128_S50000x128_1_0_0_1_n_n rfl none z128
    (wrapCol (W main_v3)) (rawCol (W main_v6)) (wrapCol (W main_v6)) (W main_v14) (W main_v47) (W main_arg5) (W main_arg6)
    bcast_S850000_S850000x1_0 bcast_S850000x1_S850000x128_0_1 bcast_S128_S1x128_1 bcast_S1x128_S50000x128_0_1
    bcast_S_S50000x128

attribute [local irreducible] Host.gather Host.scatterAdd Host.reduceAdd in
set_option maxRecDepth 8192 in
/-- The third layer (width 64, no maximum), from any contents. -/
theorem readL3 (W : Valuation τ sig (Elt Ideal)) :
    StableHlo.after (opsL3 (F := Ideal)) W (main_v112 : DevRef τ sig)
      = addBias (aggWeighted scatter_S50000x64_S850000x1_S850000x64_1_0_0_1 gather_S50000x64_S850000x1_S850000x64_1_0_n_n_0_1_164 gather_S50000_S850000x1_S850000_n_0_n_n_0_1_1 z64 (wrapCol (W main_v3)) (rawCol (W main_v6)) (wrapCol (W main_v6)) (W main_v14)
          (dense (W main_v80) (W main_arg7))) (W main_arg8) := by
  after_results_simp
  exact host_layer_eq scatter_S50000x64_S850000x1_S850000x64_1_0_0_1 gather_S50000x64_S850000x1_S850000x64_1_0_n_n_0_1_164 gather_S50000_S850000x1_S850000_n_0_n_n_0_1_1 dot_S50000x128_S128x64_S50000x64_1_0_0_1_n_n rfl none z64
    (wrapCol (W main_v3)) (rawCol (W main_v6)) (wrapCol (W main_v6)) (W main_v14) (W main_v80) (W main_arg7) (W main_arg8)
    bcast_S850000_S850000x1_0 bcast_S850000x1_S850000x64_0_1 bcast_S64_S1x64_1 bcast_S1x64_S50000x64_0_1

attribute [local irreducible] Host.gather Host.scatterAdd Host.reduceAdd in
set_option maxRecDepth 8192 in
/-- The row normalisation, from any contents. -/
theorem readN (W : Valuation τ sig (Elt Ideal)) :
    StableHlo.after (opsN (F := Ideal)) W (main_v116 : DevRef τ sig) = normRows (W main_v112) := by
  after_results
  exact div_norm_eq_normRows (W main_v112) reducesTo_S50000x64_S50000_d1 h_S_ bcast_S50000_S50000x1_0 bcast_S_S50000x1
    bcast_S50000x1_S50000x64_0_1

/-! ## The two spellings of an index column agree at a node's index -/

/-- At an entry that is already a node's index (not negative, below the number of nodes) the normalised column
    reads what the raw column reads. -/
theorem wrap_agrees (s : IVec S850000 32) : ∀ e : Fin 850000, 0 ≤ (rawCol s (ix2 e (0 : Fin 1))).toInt →
    (rawCol s (ix2 e (0 : Fin 1))).toInt < (50000 : ℤ) → wrapCol s (ix2 e (0 : Fin 1)) = rawCol s (ix2 e (0 : Fin 1)) := by
  intro e h0 _
  have hr : rawCol s (ix2 e (0 : Fin 1)) = s (ix1 e) := vec_column_apply s bcast_S850000_S850000x1_0 e 0
  have hw : wrapCol s (ix2 e (0 : Fin 1))
      = select (cmpi .slt s (broadcastInDim S850000 ![] bcast_S_S850000 (constantI S_ 32 0#32)))
          (addi s (broadcastInDim S850000 ![] bcast_S_S850000 (constantI S_ 32 50000#32))) s (ix1 e) :=
    vec_column_apply _ bcast_S850000_S850000x1_0 e 0
  rw [hr] at h0
  rw [hr, hw, select_apply]
  have hc : cmpi .slt s (broadcastInDim S850000 ![] bcast_S_S850000 (constantI S_ 32 0#32)) (ix1 e) = 0#1 := by
    show BitVec.ofBool ((s (ix1 e)).slt (broadcastInDim S850000 ![] bcast_S_S850000 (constantI S_ 32 0#32) (ix1 e))) = 0#1
    rw [scalar_broadcast_apply]
    show BitVec.ofBool ((s (ix1 e)).slt 0#32) = 0#1
    have : (s (ix1 e)).slt 0#32 = false := by
      rw [BitVec.slt]
      exact decide_eq_false (by simpa using h0)
    rw [this]
    rfl
  rw [hc, select_zero]

end Cert.GCN.Ref

end
-- ==== Proof.RefTargetForms.lean ====
/-
  The target branch of the reference program as one composite of host operations, and its reading as the
  specification's target embeddings.

  The host computes the batch mean of the column y as a sum over its first axis divided by the constant 256, the
  variance as the sum of the squared centred entries divided by 256 − 0 (the subtracted 0 is the integer zero
  converted to a float), guarded by a select on the test 256 − 0 > 0, which holds; the normalised column is
  (y − mean) · rsqrt(variance + 1e-5) · scale + shift with every scalar broadcast to the column's shape. Two dense
  layers follow (a product contracted row by column plus a bias row broadcast over the rows, the first followed by
  the maximum with zero), and every row is divided by the larger of 1e-12 and its Euclidean norm. Read at an index,
  each broadcast is the entry it copies and each sum from zero is the plain sum, so the composite is the
  specification's target term by term.
-/
import proofs.«133735_j11390253269678_2_alg».proof.ReferenceIdeal
import proofs.«133735_j11390253269678_2_alg».proof.Proof.Gen.ReferenceIdeal
import proofs.«133735_j11390253269678_2_alg».proof.Proof.Spec
import proofs.«133735_j11390253269678_2_alg».proof.Proof.LibAxisReads
import proofs.«133735_j11390253269678_2_alg».proof.Proof.LibHostDenseRows

noncomputable section

namespace Cert.GCN.Ref

open Cert.ReferenceIdeal Cert.ReferenceIdeal.Gen Idealize.ShloMosaic Idealize.ShloMosaic.ValueIdx
open Cert.LibAxisReads Cert.LibHostDenseRows
open scoped BigOperators

/-- An array of 32-bit floats of shape s, read on the extended reals. -/
abbrev Arr (s : Shape) : Type := FVec Ideal s .f32

/-- The batch mean of the column as the host spells it: the sum over the first axis from zero, made 1 × 1, divided
    by the constant 256 broadcast to 1 × 1. -/
def meanH (y : Arr S256x1) : Arr S1x1 :=
  Host.divf
    (broadcastInDim S1x1 ![1] bcast_S1_S1x1_1
      (Host.reduceAdd y (constant S_ .f32 0x00000000#32) reducesTo_S256x1_S1_d0 h_S_))
    (broadcastInDim S1x1 ![] bcast_S_S1x1 (constant S_ .f32 0x43800000#32))

/-- The column minus its mean. -/
def cenH (y : Arr S256x1) : Arr S256x1 :=
  subf y (broadcastInDim S256x1 ![0, 1] bcast_S1x1_S256x1_0_1 (meanH y))

/-- The divisor of the variance: 256 minus the integer 0 converted to a float. -/
def cntH : Arr S_ :=
  subf (constant S_ .f32 0x43800000#32) (sitofp .f32 (constantI S_ 32 0#32))

/-- The batch variance as the host spells it: the sum of the squared centred entries over the divisor, selected
    against a not-a-number constant by the test that the divisor is positive. -/
def varH (y : Arr S256x1) : Arr S1x1 :=
  select (broadcastInDim S1x1 ![] bcast_S_S1x1 (cmpf .ogt cntH (constant S_ .f32 0x00000000#32)))
    (Host.divf
      (broadcastInDim S1x1 ![1] bcast_S1_S1x1_1
        (Host.reduceAdd (mulf (cenH y) (cenH y)) (constant S_ .f32 0x00000000#32) reducesTo_S256x1_S1_d0 h_S_))
      (broadcastInDim S1x1 ![] bcast_S_S1x1 cntH))
    (broadcastInDim S1x1 ![] bcast_S_S1x1 (id (constant S_ .f32 0x7FC00000#32)))

/-- The normalised column: centred, times the inverse square root of variance plus 1e-5, times the scale, plus the
    shift. -/
def ybH (y : Arr S256x1) (g be : Arr S1) : Arr S256x1 :=
  addf
    (mulf
      (mulf (cenH y)
        (broadcastInDim S256x1 ![0, 1] bcast_S1x1_S256x1_0_1
          (Host.rsqrt (addf (varH y) (broadcastInDim S1x1 ![] bcast_S_S1x1 (constant S_ .f32 0x3727C5AC#32))))))
      (broadcastInDim S256x1 ![0, 1] bcast_S1x1_S256x1_0_1 (broadcastInDim S1x1 ![1] bcast_S1_S1x1_1 g)))
    (broadcastInDim S256x1 ![0, 1] bcast_S1x1_S256x1_0_1 (broadcastInDim S1x1 ![1] bcast_S1_S1x1_1 be))

/-- The first dense layer with its bias and the maximum with zero. -/
def hidH (y : Arr S256x1) (g be : Arr S1) (w1 : Arr S1x128) (b1 : Arr S128) : Arr S256x128 :=
  maximumf
    (addf (Host.dotGeneral dot_S256x1_S1x128_S256x128_1_0_0_1_n_n none (ybH y g be) w1)
      (broadcastInDim S256x128 ![0, 1] bcast_S1x128_S256x128_0_1 (broadcastInDim S1x128 ![1] bcast_S128_S1x128_1 b1)))
    (broadcastInDim S256x128 ![] bcast_S_S256x128 (constant S_ .f32 0x00000000#32))

/-- The second dense layer with its bias. -/
def outH (h : Arr S256x128) (w2 : Arr S128x64) (b2 : Arr S64) : Arr S256x64 :=
  addf (Host.dotGeneral dot_S256x128_S128x64_S256x64_1_0_0_1_n_n none h w2)
    (broadcastInDim S256x64 ![0, 1] bcast_S1x64_S256x64_0_1 (broadcastInDim S1x64 ![1] bcast_S64_S1x64_1 b2))

/-- The clipped row norms: the larger of 1e-12 and the square root of each row's sum of squares, as a column. -/
def nrmH (v : Arr S256x64) : Arr S256x1 :=
  maximumf (broadcastInDim S256x1 ![] bcast_S_S256x1 (id (constant S_ .f32 0x2B8CBCCC#32)))
    (Host.sqrt
      (broadcastInDim S256x1 ![0] bcast_S256_S256x1_0
        (Host.reduceAdd (mulf v v) (constant S_ .f32 0x00000000#32) reducesTo_S256x64_S256_d1 h_S_)))

/-- Every row divided by its clipped norm. -/
def divH (v : Arr S256x64) : Arr S256x64 :=
  Host.divf v (broadcastInDim S256x64 ![0, 1] bcast_S256x1_S256x64_0_1 (nrmH v))

/-- The whole target branch as the host spells it. -/
def targetH (y : Arr S256x1) (g be : Arr S1) (w1 : Arr S1x128) (b1 : Arr S128) (w2 : Arr S128x64) (b2 : Arr S64) :
    Arr S256x64 :=
  divH (outH (hidH y g be w1 b1) w2 b2)

/-! ## The constants -/

/-- The float word of 256 denotes the real number 256. -/
theorem c256_real : c256 = ((256 : ℝ) : EReal) := by
  unfold c256
  simp [Ideal.ofBits, Ideal.ieee, -EReal.coe_mul]; norm_num

/-- 256 is positive. -/
theorem c256_pos : (0 : EReal) < c256 := by
  rw [c256_real]
  exact_mod_cast (by norm_num : (0 : ℝ) < 256)

/-- The divisor of the variance is 256: the converted integer zero is the real zero. -/
theorem cntH_apply (j : S_.Idx) : cntH j = c256 := by
  show Ideal.ofBits .f32 0x43800000#32 - (((0#32 : BitVec 32).toInt : ℝ) : EReal) = c256
  simp [c256]

/-! ## The mean and the variance -/

/-- The specification's batch mean. -/
def mu (y : Mat 256 1) : EReal := Ideal.div (∑ i : Fin 256, y (ix2 i (0 : Fin 1))) c256

/-- The specification's batch variance. -/
def var (y : Mat 256 1) : EReal :=
  Ideal.div (∑ i : Fin 256, (y (ix2 i (0 : Fin 1)) - mu y) * (y (ix2 i (0 : Fin 1)) - mu y)) c256

/-- A host sum of a 256 × 1 column over its first axis from the zero constant is the sum of its entries. -/
theorem sumCol_apply (x : Arr S256x1) (e : Fin 1) :
    Host.reduceAdd x (constant (F := Ideal) S_ .f32 0x00000000#32) reducesTo_S256x1_S1_d0 h_S_ (ix1 e)
      = ∑ r : Fin 256, x (ix2 r (0 : Fin 1)) := by
  refine (hostReduceAdd_firstAxis_apply x _ reducesTo_S256x1_S1_d0 (by decide) h_S_ e).trans ?_
  show Ideal.ofBits .f32 0x00000000#32 + _ = _
  rw [Ideal.ofBits_zero_f32, zero_add, Subsingleton.elim e 0]

/-- The host's mean, at its one index, is the specification's. -/
theorem meanH_apply (y : Arr S256x1) (u v : Fin 1) : meanH y (ix2 u v) = mu y := by
  show Ideal.div
      (broadcastInDim S1x1 ![1] bcast_S1_S1x1_1
        (Host.reduceAdd y (constant (F := Ideal) S_ .f32 0x00000000#32) reducesTo_S256x1_S1_d0 h_S_) (ix2 u v))
      (broadcastInDim S1x1 ![] bcast_S_S1x1 (constant (F := Ideal) S_ .f32 0x43800000#32) (ix2 u v)) = _
  rw [vec_row_apply _ bcast_S1_S1x1_1 u v, const_broadcast_apply, sumCol_apply]
  rfl

/-- The centred column at a row. -/
theorem cenH_apply (y : Arr S256x1) (r : Fin 256) (e : Fin 1) : cenH y (ix2 r e) = y (ix2 r e) - mu y := by
  show y (ix2 r e) - broadcastInDim S256x1 ![0, 1] bcast_S1x1_S256x1_0_1 (meanH y) (ix2 r e) = _
  rw [row_spread_apply _ bcast_S1x1_S256x1_0_1 r e, meanH_apply]

/-- The host's variance, at its one index, is the specification's: the guard holds, so the select yields the
    quotient. -/
theorem varH_apply (y : Arr S256x1) (u v : Fin 1) : varH y (ix2 u v) = var y := by
  have hc : broadcastInDim S1x1 ![] bcast_S_S1x1 (cmpf .ogt cntH (constant (F := Ideal) S_ .f32 0x00000000#32)) (ix2 u v) = 1#1 := by
    rw [scalar_broadcast_apply]
    show Ideal.cmp .ogt (cntH ix0) (Ideal.ofBits .f32 0x00000000#32) = 1#1
    rw [cntH_apply, Ideal.ofBits_zero_f32]
    unfold Ideal.cmp
    simp only [c256_pos, decide_true, BitVec.ofBool_true]
    rfl
  show Scalar.select (broadcastInDim S1x1 ![] bcast_S_S1x1 (cmpf .ogt cntH (constant (F := Ideal) S_ .f32 0x00000000#32)) (ix2 u v))
      (Ideal.div
        (broadcastInDim S1x1 ![1] bcast_S1_S1x1_1
          (Host.reduceAdd (mulf (cenH y) (cenH y)) (constant (F := Ideal) S_ .f32 0x00000000#32) reducesTo_S256x1_S1_d0 h_S_) (ix2 u v))
        (broadcastInDim S1x1 ![] bcast_S_S1x1 cntH (ix2 u v)))
      (broadcastInDim S1x1 ![] bcast_S_S1x1 (id (constant (F := Ideal) S_ .f32 0x7FC00000#32)) (ix2 u v)) = _
  rw [hc, select_one, vec_row_apply _ bcast_S1_S1x1_1 u v, scalar_broadcast_apply, cntH_apply, sumCol_apply]
  refine congrArg (fun z => Ideal.div z c256) ?_
  exact Finset.sum_congr rfl fun r _ => by
    show cenH y (ix2 r 0) * cenH y (ix2 r 0) = _
    rw [cenH_apply]

/-! ## The normalised column -/

/-- The host's normalised column at an index is the specification's. -/
theorem ybH_apply (y : Arr S256x1) (g be : Arr S1) (j : S256x1.Idx) :
    ybH y g be j
      = (y j - mu y) * Ideal.rsqrt (var y + eps5) * g (ix1 (0 : Fin 1)) + be (ix1 (0 : Fin 1)) := by
  obtain ⟨r, e, rfl⟩ : ∃ (r : Fin 256) (e : Fin 1), j = ix2 r e := ⟨j 0, j 1, eq_ix2 j⟩
  show cenH y (ix2 r e)
        * broadcastInDim S256x1 ![0, 1] bcast_S1x1_S256x1_0_1
            (Host.rsqrt (addf (varH y) (broadcastInDim S1x1 ![] bcast_S_S1x1 (constant (F := Ideal) S_ .f32 0x3727C5AC#32)))) (ix2 r e)
        * broadcastInDim S256x1 ![0, 1] bcast_S1x1_S256x1_0_1 (broadcastInDim S1x1 ![1] bcast_S1_S1x1_1 g) (ix2 r e)
      + broadcastInDim S256x1 ![0, 1] bcast_S1x1_S256x1_0_1 (broadcastInDim S1x1 ![1] bcast_S1_S1x1_1 be) (ix2 r e) = _
  rw [cenH_apply, row_spread_apply _ bcast_S1x1_S256x1_0_1 r e, row_spread_apply _ bcast_S1x1_S256x1_0_1 r e,
    row_spread_apply _ bcast_S1x1_S256x1_0_1 r e, vec_row_apply _ bcast_S1_S1x1_1 (0 : Fin 1) e,
    vec_row_apply _ bcast_S1_S1x1_1 (0 : Fin 1) e, Subsingleton.elim e 0]
  show _ * Ideal.rsqrt (varH y (ix2 0 0)
      + broadcastInDim S1x1 ![] bcast_S_S1x1 (constant (F := Ideal) S_ .f32 0x3727C5AC#32) (ix2 0 0)) * _ + _ = _
  rw [varH_apply, const_broadcast_apply]
  rfl

/-! ## The dense layers and the row normalisation -/

/-- The first layer: the product with the 1 × 128 weights, the bias, the maximum with zero. -/
theorem hidH_eq (y : Arr S256x1) (g be : Arr S1) (w1 : Arr S1x128) (b1 : Arr S128) :
    hidH y g be w1 b1 = relu (addBias (dense (ybH y g be) w1) b1) := by
  funext j
  obtain ⟨r, e, rfl⟩ : ∃ (r : Fin 256) (e : Fin 128), j = ix2 r e := ⟨j 0, j 1, eq_ix2 j⟩
  show max
      (Host.dotGeneral dot_S256x1_S1x128_S256x128_1_0_0_1_n_n none (ybH y g be) w1 (ix2 r e)
        + broadcastInDim S256x128 ![0, 1] bcast_S1x128_S256x128_0_1 (broadcastInDim S1x128 ![1] bcast_S128_S1x128_1 b1) (ix2 r e))
      (broadcastInDim S256x128 ![] bcast_S_S256x128 (constant (F := Ideal) S_ .f32 0x00000000#32) (ix2 r e)) = _
  rw [hostDot_plain_apply dot_S256x1_S1x128_S256x128_1_0_0_1_n_n rfl none _ _ r e, row_spread_apply _ bcast_S1x128_S256x128_0_1 r e,
    vec_row_apply _ bcast_S128_S1x128_1 (0 : Fin 1) e, const_broadcast_apply, Ideal.ofBits_zero_f32]
  rfl

/-- The second layer: the product with the 128 × 64 weights and the bias. -/
theorem outH_eq (h : Arr S256x128) (w2 : Arr S128x64) (b2 : Arr S64) :
    outH h w2 b2 = addBias (dense h w2) b2 := by
  funext j
  obtain ⟨r, e, rfl⟩ : ∃ (r : Fin 256) (e : Fin 64), j = ix2 r e := ⟨j 0, j 1, eq_ix2 j⟩
  show Host.dotGeneral dot_S256x128_S128x64_S256x64_1_0_0_1_n_n none h w2 (ix2 r e)
      + broadcastInDim S256x64 ![0, 1] bcast_S1x64_S256x64_0_1 (broadcastInDim S1x64 ![1] bcast_S64_S1x64_1 b2) (ix2 r e) = _
  rw [hostDot_plain_apply dot_S256x128_S128x64_S256x64_1_0_0_1_n_n rfl none _ _ r e, row_spread_apply _ bcast_S1x64_S256x64_0_1 r e,
    vec_row_apply _ bcast_S64_S1x64_1 (0 : Fin 1) e]
  rfl

/-- The row normalisation: every row over the larger of its Euclidean norm and 1e-12. -/
theorem divH_eq (v : Arr S256x64) : divH v = normRows v := by
  funext j
  obtain ⟨r, e, rfl⟩ : ∃ (r : Fin 256) (e : Fin 64), j = ix2 r e := ⟨j 0, j 1, eq_ix2 j⟩
  show Ideal.div (v (ix2 r e)) (broadcastInDim S256x64 ![0, 1] bcast_S256x1_S256x64_0_1 (nrmH v) (ix2 r e)) = _
  rw [column_spread_apply _ bcast_S256x1_S256x64_0_1 r e]
  show Ideal.div (v (ix2 r e))
      (max (broadcastInDim S256x1 ![] bcast_S_S256x1 (id (constant (F := Ideal) S_ .f32 0x2B8CBCCC#32)) (ix2 r 0))
        (Ideal.sqrt (broadcastInDim S256x1 ![0] bcast_S256_S256x1_0
          (Host.reduceAdd (mulf v v) (constant (F := Ideal) S_ .f32 0x00000000#32) reducesTo_S256x64_S256_d1 h_S_) (ix2 r 0)))) = _
  rw [scalar_broadcast_apply, vec_column_apply _ bcast_S256_S256x1_0 r (0 : Fin 1),
    hostReduceAdd_lastAxis_apply _ _ reducesTo_S256x64_S256_d1 (by decide) h_S_ r, max_comm]
  show Ideal.div _ (max (Ideal.sqrt (Ideal.ofBits .f32 0x00000000#32 + ∑ f : Fin 64, v (ix2 r f) * v (ix2 r f))) eps12) = _
  rw [Ideal.ofBits_zero_f32, zero_add]
  rfl

/-! ## The whole branch -/

/-- The host's target branch is the specification's target embeddings. -/
theorem targetH_eq (y : Arr S256x1) (g be : Arr S1) (w1 : Arr S1x128) (b1 : Arr S128) (w2 : Arr S128x64) (b2 : Arr S64) :
    targetH y g be w1 b1 w2 b2 = target y g be w1 b1 w2 b2 := by
  have hyb : ybH y g be
      = fun j => (y j - mu y) * Ideal.rsqrt (var y + eps5) * g (ix1 (0 : Fin 1)) + be (ix1 (0 : Fin 1)) :=
    funext fun j => ybH_apply y g be j
  show divH (outH (hidH y g be w1 b1) w2 b2) = _
  rw [divH_eq, outH_eq, hidH_eq, hyb]
  rfl

end Cert.GCN.Ref

end
-- ==== Proof.RefTarget.lean ====
/-
  The reference program's second result is the specification's target embeddings.

  The last of the six lists of the reference's operations — the target branch — reads only the column of targets, the
  scale and shift of the batch normalisation and the weights and biases of the two dense layers. Folding its
  sixty-six operations over any contents of the buffers leaves, at the buffer of the second result, the composite of
  host operations of the forms module applied to the contents of those seven arguments, which is the specification's
  target. The five earlier lists write none of the seven arguments, so the same holds for the whole program over the
  launch contents.
-/
import proofs.«133735_j11390253269678_2_alg».proof.Proof.RefOps
import proofs.«133735_j11390253269678_2_alg».proof.Proof.RefRun
import proofs.«133735_j11390253269678_2_alg».proof.Proof.RefTargetForms

noncomputable section

namespace Cert.GCN.Ref

open Cert.ReferenceIdeal Cert.ReferenceIdeal.Gen Idealize.ShloMosaic Idealize.ShloMosaic.TcCoe Idealize.SL.Sem Idealize.ShloMosaic.StableHlo

-- the sums are kept folded while the fold over the sixty-six operations is computed: the equation never looks inside them
attribute [local irreducible] Host.reduceAdd in
set_option maxRecDepth 8192 in
set_option maxHeartbeats 1000000 in
/-- The fold of the target branch's operations over any contents, at the buffer of the second result, is the
    composite of host operations at the contents of the seven arguments it reads: each operation's result is its
    function at its operands' contents, and the typed references of the called functions' lines carry the identity. -/
theorem readY_host (W : Valuation τ sig (Elt Ideal)) :
    StableHlo.after (opsY (F := Ideal)) W (main_v147 : DevRef τ sig)
      = targetH (W (main_arg1 : DevRef τ sig)) (W (main_arg9 : DevRef τ sig)) (W (main_arg10 : DevRef τ sig))
          (W (main_arg11 : DevRef τ sig)) (W (main_arg12 : DevRef τ sig)) (W (main_arg13 : DevRef τ sig))
          (W (main_arg14 : DevRef τ sig)) := by
  after_results_simp
  rfl

/-- The target branch over any contents: the second result is the specification's target of the seven arguments. -/
theorem readY (W : Valuation τ sig (Elt Ideal)) :
    StableHlo.after (opsY (F := Ideal)) W (main_v147 : DevRef τ sig)
      = Cert.GCN.target (W (main_arg1 : DevRef τ sig)) (W (main_arg9 : DevRef τ sig)) (W (main_arg10 : DevRef τ sig))
          (W (main_arg11 : DevRef τ sig)) (W (main_arg12 : DevRef τ sig)) (W (main_arg13 : DevRef τ sig))
          (W (main_arg14 : DevRef τ sig)) :=
  (readY_host W).trans (targetH_eq _ _ _ _ _ _ _)

/-- The five lists before the target branch leave a buffer none of them writes as it was. -/
theorem kept_before (V : Valuation τ sig (Elt Ideal)) {r : Ref sig .tc} (hP : r ∉ wP) (hL1 : r ∉ wL1) (hL2 : r ∉ wL2)
    (hL3 : r ∉ wL3) (hN : r ∉ wN) :
    StableHlo.after (opsN (F := Ideal)) (StableHlo.after opsL3 (StableHlo.after opsL2 (StableHlo.after opsL1
      (StableHlo.after opsP V)))) (r : DevRef τ sig) = V (r : DevRef τ sig) := by
  rw [kept_N _ hN, kept_L3 _ hL3, kept_L2 _ hL2, kept_L1 _ hL1, kept_P _ hP]

/-- The whole reference program over any launch contents: the second result is the specification's target of the
    seven arguments the branch reads, none of which the five earlier lists write. -/
theorem value147 (V : Valuation τ sig (Elt Ideal)) :
    StableHlo.after (ops (F := Ideal)) V (main_v147 : DevRef τ sig)
      = Cert.GCN.target (V (main_arg1 : DevRef τ sig)) (V (main_arg9 : DevRef τ sig)) (V (main_arg10 : DevRef τ sig))
          (V (main_arg11 : DevRef τ sig)) (V (main_arg12 : DevRef τ sig)) (V (main_arg13 : DevRef τ sig))
          (V (main_arg14 : DevRef τ sig)) := by
  rw [after_chunks, readY,
    kept_before V (r := main_arg1) (by decide) (by decide) (by decide) (by decide) (by decide),
    kept_before V (r := main_arg9) (by decide) (by decide) (by decide) (by decide) (by decide),
    kept_before V (r := main_arg10) (by decide) (by decide) (by decide) (by decide) (by decide),
    kept_before V (r := main_arg11) (by decide) (by decide) (by decide) (by decide) (by decide),
    kept_before V (r := main_arg12) (by decide) (by decide) (by decide) (by decide) (by decide),
    kept_before V (r := main_arg13) (by decide) (by decide) (by decide) (by decide) (by decide),
    kept_before V (r := main_arg14) (by decide) (by decide) (by decide) (by decide) (by decide)]

end Cert.GCN.Ref

end
-- ==== Proof.RefValue.lean ====
/-
  The reference program's run, read back: from any memory with zero counters every weakly fair execution terminates
  with the first result at the node embeddings  xR  of the features, the edge array and the three layers' weights, the
  second at the specification's target embeddings of the targets and the target branch's weights, and the fifteen
  arguments as they were.
-/
import proofs.«133735_j11390253269678_2_alg».proof.Proof.RefRun
import proofs.«133735_j11390253269678_2_alg».proof.Proof.RefLayers
import proofs.«133735_j11390253269678_2_alg».proof.Proof.RefTarget

noncomputable section

namespace Cert.GCN.Ref

open Cert.ReferenceIdeal Cert.ReferenceIdeal.Gen Idealize.ShloMosaic Idealize.ShloMosaic.TcCoe Idealize.SL.Sem Idealize.ShloMosaic.StableHlo
open Cert.GCN

/-- The whole reference program over any launch contents: the first result is  xR  of the eight arguments the three
    layers read. The fold splits along the six lists; the target branch does not write the first result; the row
    normalisation, the three layers and the preparation are read one after the other, each at the contents the
    lists before it leave, and what a list reads from an earlier one (the two index columns, the factor, the previous
    layer's result, the arguments) no list in between writes. -/
theorem value116 (V : Valuation τ sig (Elt Ideal)) :
    StableHlo.after (ops (F := Ideal)) V (main_v116 : DevRef τ sig)
      = xR (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) := by
  have s0 := readP_src V
  have t0 := readP_dst V
  have d0 := readP_d V
  have s1 := (kept_L1 (StableHlo.after opsP V) (r := main_v3) (by decide)).trans s0
  have t1 := (kept_L1 (StableHlo.after opsP V) (r := main_v6) (by decide)).trans t0
  have d1 := (kept_L1 (StableHlo.after opsP V) (r := main_v14) (by decide)).trans d0
  have s2 := (kept_L2 (StableHlo.after opsL1 (StableHlo.after opsP V)) (r := main_v3) (by decide)).trans s1
  have t2 := (kept_L2 (StableHlo.after opsL1 (StableHlo.after opsP V)) (r := main_v6) (by decide)).trans t1
  have d2 := (kept_L2 (StableHlo.after opsL1 (StableHlo.after opsP V)) (r := main_v14) (by decide)).trans d1
  have a0 := kept_P V (r := main_arg0) (by decide)
  have a3 := kept_P V (r := main_arg3) (by decide)
  have a4 := kept_P V (r := main_arg4) (by decide)
  have a5 := (kept_L1 (StableHlo.after opsP V) (r := main_arg5) (by decide)).trans (kept_P V (by decide))
  have a6 := (kept_L1 (StableHlo.after opsP V) (r := main_arg6) (by decide)).trans (kept_P V (by decide))
  have a7 := (kept_L2 (StableHlo.after opsL1 (StableHlo.after opsP V)) (r := main_arg7) (by decide)).trans
    ((kept_L1 (StableHlo.after opsP V) (by decide)).trans (kept_P V (by decide)))
  have a8 := (kept_L2 (StableHlo.after opsL1 (StableHlo.after opsP V)) (r := main_arg8) (by decide)).trans
    ((kept_L1 (StableHlo.after opsP V) (by decide)).trans (kept_P V (by decide)))
  rw [after_chunks, kept_Y _ (r := main_v116) (by decide), readN, readL3, s2, t2, d2, a7, a8, readL2, s1, t1, d1, a5, a6,
    readL1, s0, t0, d0, a0, a3, a4]
  rfl

/-- On every device, from any memory with zero counters: every weakly fair execution of the reference's @main
    terminates; the first result is  xR  of the launch contents of the features, the edge array and the six weight
    arguments of the layers; the second is the target embeddings of the launch contents of the targets and the six
    arguments of the target branch; every argument ends as it started. -/
theorem run (m : (ℓ : Loc nD τ sig) → Buf (Elt Ideal) ℓ) (ρ : Dev nD → PrngReg) :
    θ_run (Cert.ReferenceIdeal.defs (F := Ideal)) (onTc (τ := τ) (main (F := Ideal))) ⟨m, fun _ => 0, ρ⟩ (fun r => ∀ c : Dev nD,
      r.2.mem ((c.tc : Thread nD τ).loc main_v116) = xR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v147) = Cert.GCN.target (m ((c.tc : Thread nD τ).loc main_arg1)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => ⟨(h c main_v116).trans (value116 (launchContents m c)),
      (h c main_v147).trans (value147 (launchContents m c)),
      (h c main_arg0).trans (arg0_kept (launchContents m c)),
      (h c main_arg1).trans (arg1_kept (launchContents m c)),
      (h c main_arg2).trans (arg2_kept (launchContents m c)),
      (h c main_arg3).trans (arg3_kept (launchContents m c)),
      (h c main_arg4).trans (arg4_kept (launchContents m c)),
      (h c main_arg5).trans (arg5_kept (launchContents m c)),
      (h c main_arg6).trans (arg6_kept (launchContents m c)),
      (h c main_arg7).trans (arg7_kept (launchContents m c)),
      (h c main_arg8).trans (arg8_kept (launchContents m c)),
      (h c main_arg9).trans (arg9_kept (launchContents m c)),
      (h c main_arg10).trans (arg10_kept (launchContents m c)),
      (h c main_arg11).trans (arg11_kept (launchContents m c)),
      (h c main_arg12).trans (arg12_kept (launchContents m c)),
      (h c main_arg13).trans (arg13_kept (launchContents m c)),
      (h c main_arg14).trans (arg14_kept (launchContents m c))⟩)
    (run_main m ρ)

end Cert.GCN.Ref

end
-- ==== Proof.LibDegreeFactor.lean ====
/-
  GENERAL LEMMA: the per-node factor of a graph's symmetric normalisation, deg^(-1/2) with 0 at an isolated node, is a
  NONNEGATIVE REAL at every node, for any extents N (nodes), E (edges).

  The degree of a node is the number of edges that arrive at it: an accumulating scatter (Host.scatterAdd) of updates
  that are all 1 into an operand that is all 0 adds, at every node, one for each update landing there, so its value
  is a natural number (count_scatter). Where the degree is positive the factor select (deg > 0) (rsqrt deg) 0 is the
  inverse square root of a positive natural number, a positive real (rsqrt_natCast_pos); elsewhere the select yields
  zero. In both cases the factor is at least zero and not +∞ (factor_array_nonneg_real) — what distributing the factor
  over a sum of extended reals needs. Also: the float word 0x3F800000 is 1 (ofBits_one_f32). Mathlib and the
  extended-real instance only; no program is imported.
-/
import Idealize.ShloMosaic.PureOps.Ideal
import Idealize.ShloMosaic.Lib.ValueIdx

noncomputable section

namespace Cert.LibDegreeFactor

open Idealize.ShloMosaic Idealize.ShloMosaic.ValueIdx
open scoped BigOperators

/-- The inverse square root of a positive natural number is a positive real. -/
theorem rsqrt_natCast_pos (n : ℕ) (hn : 0 < n) :
    0 ≤ Ideal.rsqrt ((n : ℝ) : EReal) ∧ Ideal.rsqrt ((n : ℝ) : EReal) ≠ ⊤ := by
  have hpos : (0 : ℝ) < (n : ℝ) := by exact_mod_cast hn
  have h1 : ¬ ((n : ℝ) < 0) := not_lt.mpr hpos.le
  have h2 : ¬ ((n : ℝ) = 0) := ne_of_gt hpos
  have e : Ideal.rsqrt ((n : ℝ) : EReal) = (((Real.sqrt (n : ℝ))⁻¹ : ℝ) : EReal) := by
    show (if (n : ℝ) < 0 then (⊥ : EReal) else if (n : ℝ) = 0 then ⊤ else (((Real.sqrt (n : ℝ))⁻¹ : ℝ) : EReal)) = _
    rw [if_neg h1, if_neg h2]
  rw [e]
  refine ⟨?_, EReal.coe_ne_top _⟩
  exact_mod_cast (inv_nonneg.mpr (Real.sqrt_nonneg _))

/-- The factor chosen by comparing a natural-number degree with zero: the inverse square root where the degree is
    positive, zero elsewhere, is a nonnegative real. -/
theorem factor_nonneg_real (n : ℕ) (deg z z' : EReal) (hdeg : deg = ((n : ℝ) : EReal)) (hz : z = 0) (hz' : z' = 0) :
    0 ≤ Scalar.select (Ideal.cmp .ogt deg z) (Ideal.rsqrt deg) z'
      ∧ Scalar.select (Ideal.cmp .ogt deg z) (Ideal.rsqrt deg) z' ≠ ⊤ := by
  subst hdeg hz hz'
  unfold Scalar.select Ideal.cmp
  by_cases hn : 0 < n
  · have hlt : (0 : EReal) < ((n : ℝ) : EReal) := by exact_mod_cast hn
    simp only [hlt, decide_true, BitVec.ofBool_true, if_true]
    exact rsqrt_natCast_pos n hn
  · have hn0 : n = 0 := Nat.eq_zero_of_not_pos hn
    subst hn0
    have hlt : ¬ ((0 : EReal) < (((0 : ℕ) : ℝ) : EReal)) := by simp
    simp only [hlt, decide_false, BitVec.ofBool_false]
    refine ⟨?_, ?_⟩ <;> simp

/-- A scatter of ones into zeros counts: its value at every node is a natural number. -/
theorem count_scatter {N E : ℕ} (ds : ScatterDims ⟨1, ![N]⟩ ⟨2, ![E, 1]⟩ ⟨1, ![E]⟩) (z : (⟨1, ![N]⟩ : Shape).Idx → EReal) (hz : ∀ i, z i = 0)
    (idx : IVec ⟨2, ![E, 1]⟩ 32) (ones : (⟨1, ![E]⟩ : Shape).Idx → EReal) (h1 : ∀ e, ones e = 1) (i : (⟨1, ![N]⟩ : Shape).Idx) :
    ∃ n : ℕ, Host.scatterAdd (F := Ideal) (φ := .f32) ds z idx ones i = ((n : ℝ) : EReal) := by
  classical
  refine ⟨(Finset.univ.filter (fun j => ds.resultIdx? j idx = some i)).card, ?_⟩
  show Ideal.hostScatterAdd ds z idx ones i = _
  unfold Ideal.hostScatterAdd
  rw [hz, zero_add, Finset.sum_congr rfl (fun j _ => h1 j), Finset.sum_const, nsmul_one]
  norm_cast

/-- The factor array of the normalisation: every entry is a nonnegative real. -/
theorem factor_array_nonneg_real {N E : ℕ} (ds : ScatterDims ⟨1, ![N]⟩ ⟨2, ![E, 1]⟩ ⟨1, ![E]⟩) (z : (⟨1, ![N]⟩ : Shape).Idx → EReal)
    (hz : ∀ i, z i = 0) (idx : IVec ⟨2, ![E, 1]⟩ 32) (ones : (⟨1, ![E]⟩ : Shape).Idx → EReal) (h1 : ∀ e, ones e = 1)
    (z' z'' : (⟨1, ![N]⟩ : Shape).Idx → EReal) (hz' : ∀ i, z' i = 0) (hz'' : ∀ i, z'' i = 0) (i : (⟨1, ![N]⟩ : Shape).Idx) :
    0 ≤ select (cmpf .ogt (Host.scatterAdd (F := Ideal) (φ := .f32) ds z idx ones : FVec Ideal ⟨1, ![N]⟩ .f32) z')
        (Host.rsqrt (Host.scatterAdd (F := Ideal) (φ := .f32) ds z idx ones : FVec Ideal ⟨1, ![N]⟩ .f32)) z'' i
      ∧ select (cmpf .ogt (Host.scatterAdd (F := Ideal) (φ := .f32) ds z idx ones : FVec Ideal ⟨1, ![N]⟩ .f32) z')
        (Host.rsqrt (Host.scatterAdd (F := Ideal) (φ := .f32) ds z idx ones : FVec Ideal ⟨1, ![N]⟩ .f32)) z'' i ≠ ⊤ := by
  obtain ⟨n, hn⟩ := count_scatter ds z hz idx ones h1 i
  exact factor_nonneg_real n _ _ _ hn (hz' i) (hz'' i)

/-- The float word 0x3F800000 is one. -/
theorem ofBits_one_f32 : Ideal.ofBits .f32 0x3F800000#32 = 1 := by
  simp [Ideal.ofBits, Ideal.ieee]
  rw [← EReal.coe_mul]
  norm_num

end Cert.LibDegreeFactor

end
-- ==== Proof.KernelRunFactor.lean ====
/-
  The nodes' factor of the program is a nonnegative real at every node: its in-degree array adds the float 1 at the
  destination of every edge into zeros, and the factor is the inverse square root where that count is positive and
  zero elsewhere.
-/
import proofs.«133735_j11390253269678_2_alg».proof.Proof.KernelRunDefs
import proofs.«133735_j11390253269678_2_alg».proof.Proof.LibDegreeFactor
import proofs.«133735_j11390253269678_2_alg».proof.Proof.LibAxisReads

noncomputable section

namespace Cert.GCN.Kern

open Idealize.ShloMosaic Idealize.ShloMosaic.ValueIdx
open Cert.KernelIdeal Cert.KernelIdeal.Facts₀ Cert.KernelIdeal.Facts Cert.GCN Cert.LibDegreeFactor

/-- The zero vector over the nodes is zero at every node. -/
theorem z1_apply (i : S50000.Idx) : z1 i = 0 :=
  (Cert.LibAxisReads.const_broadcast_apply _ _ _ i).trans Ideal.ofBits_zero_f32

/-- Every node's factor is at least zero and is not +∞. -/
theorem dK_nonneg_real (ei : IVec S2x800000 32) : ∀ i, 0 ≤ dK ei i ∧ dK ei i ≠ ⊤ := fun i =>
  factor_array_nonneg_real scatter_S50000_S850000x1_S850000_n_0_0_1 z1 z1_apply (rawCol (dstK ei))
    (broadcastInDim S850000 ![] Facts₀.bcast_S_S850000 (constant (F := Ideal) S_ .f32 0x3F800000#32))
    (fun e => (Cert.LibAxisReads.const_broadcast_apply _ _ _ e).trans ofBits_one_f32) z1 z1 z1_apply z1_apply i

end Cert.GCN.Kern

end
-- ==== Proof.LibEdgeReads.lean ====
/-
  GENERAL LEMMAS: the three host operations of a message-passing layer, READ AT AN INDEX.

  A layer that sends a message along every edge of a graph with N nodes and E edges, features of width C, reads its
  node arrays through a column  idx : [E, 1]  of node numbers (one per edge) and writes its messages back through such
  a column. For ANY extents N, E, C, any index width w and any element type:

  * ROW GATHER  h[idx]  of  h : [N, C]  (stablehlo.gather with offset_dims [1], collapsed_slice_dims [0],
    start_index_map [0], index_vector_dim 1, slice_sizes [1, C]): result entry (e, f) is h at row
    min (idx[e, 0] read signed).toNat (N − 1)  and column f. On operand axis 0 the slice has size 1, so the start
    index is clamped into [0, N − 1], and the axis is collapsed, so nothing is added to it; operand axis 1 is not in
    the start index map, so its start is 0, and it is the one offset axis, read by result axis 1.
  * ELEMENT GATHER  v[idx]  of  v : [N]  (offset_dims [], collapsed_slice_dims [0], start_index_map [0],
    index_vector_dim 1, slice_sizes [1]): result entry e is v at that same clamped row.
  * ROW SCATTER into an [N, C] operand from updates [E, C] (update_window_dims [1], inserted_window_dims [0],
    scatter_dims_to_operand_dims [0], index_vector_dim 1): when update index j lands on operand index i, then
    idx[j 0, 0] read signed IS i 0 — a scatter index is not clamped; an update whose row leaves the operand is
    dropped — and the columns agree, j 1 = i 1: operand axis 0 is inserted (window coordinate 0) and is the axis the
    scatter index names; operand axis 1 is the one window axis (start 0), read by update axis 1.

  In each case the start-indices index the operation reads for edge e is (e, 0): result (update) axis 0 is the one
  batch (scatter) axis and reads start-indices axis 0; axis 1 of the start indices is the index vector's, of size 1.
  Nothing here enumerates an axis: every step is over the variables N, E, C, coordinates by the axis literal.
-/
import Idealize.ShloMosaic.Lib.ValueIdx

noncomputable section

namespace Cert.LibEdgeReads

open Idealize.ShloMosaic Idealize.ShloMosaic.ValueIdx

/-! ## Row gather `h[idx]` of an `[N, C]` operand at an `[E, 1]` column of start indices -/

section RowGather
variable {α : Type}

/-- The dimension numbers of a row gather: operand `[N, C]`, start indices `[E, 1]`, result `[E, C]`; their
    conditions `wf` are decided on a program's literal shapes. -/
abbrev rowGatherDims (N E C : ℕ)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT `(e, f)`: the operand at row `idx[e, 0]`, read signed and clamped into `[0, N − 1]`, and
    column `f`. -/
theorem gather_rows_apply {N E C w : ℕ} (hN : 0 < N)
    (wf : GatherDims.WF ⟨2, ![N, C]⟩ ⟨2, ![E, 1]⟩ ⟨2, ![E, C]⟩ [1] [0] [] [0] [] 1 ![1, C])
    (d : GatherDims ⟨2, ![N, C]⟩ ⟨2, ![E, 1]⟩ ⟨2, ![E, C]⟩) (hd : d = rowGatherDims N E C wf)
    (x : (⟨2, ![N, C]⟩ : Shape).Idx → α) (idx : IVec ⟨2, ![E, 1]⟩ w) (e : Fin E) (f : Fin C) :
    Host.gather d x idx (ix2 e f)
      = x (ix2 ⟨min (idx (ix2 e (0 : Fin 1))).toInt.toNat (N - 1), by omega⟩ f) := by
  subst hd
  unfold Host.gather
  congr 1
  funext a
  refine Fin.ext ?_
  match a with
  | ⟨0, _⟩ =>
    -- axis 0: the clamped start index; no batching coordinate, and no offset (the axis is collapsed)
    show (rowGatherDims N E C wf).start (ix2 e f) idx 0 + (rowGatherDims N E C wf).batchCoord (ix2 e f) 0
      + (rowGatherDims N E C wf).offCoord (ix2 e f) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e f) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: start 0 (not in the start index map), no batching coordinate; the offset is result coordinate 1
    show (rowGatherDims N E C wf).start (ix2 e f) idx 1 + (rowGatherDims N E C wf).batchCoord (ix2 e f) 1
      + (rowGatherDims N E C wf).offCoord (ix2 e f) 1 = f.val
    rw [GatherDims.batchCoord_eq_zero _ _ _ List.not_mem_nil]
    have hst : (rowGatherDims N E C wf).start (ix2 e f) idx 1 = 0 := by
      unfold GatherDims.start
      rw [dif_neg (fun h => absurd (List.mem_singleton.mp h) (by decide : (1 : Fin 2) ≠ 0))]
    rw [hst]
    simp only [Nat.add_zero, Nat.zero_add]
    have hk : (1 : Fin 2) ∈ (rowGatherDims N E C wf).sKept :=
      (GatherDims.mem_sKept _ _).mpr ⟨fun h => absurd (List.mem_singleton.mp h) (by decide : (1 : Fin 2) ≠ 0), List.not_mem_nil⟩
    unfold GatherDims.offCoord
    rw [dif_pos hk]
    rfl

end RowGather

/-! ## Element gather `v[idx]` of an `[N]` operand at an `[E, 1]` column of start indices -/

section EltGather
variable {α : Type}

/-- The dimension numbers of an element gather: operand `[N]`, start indices `[E, 1]`, result `[E]`. -/
abbrev eltGatherDims (N E : ℕ)
    (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- THE ELEMENT GATHER READ AT `e`: the operand at `idx[e, 0]`, read signed and clamped into `[0, N − 1]`. -/
theorem gather_elts_apply {N E w : ℕ} (hN : 0 < N)
    (wf : GatherDims.WF ⟨1, ![N]⟩ ⟨2, ![E, 1]⟩ ⟨1, ![E]⟩ [] [0] [] [0] [] 1 ![1])
    (d : GatherDims ⟨1, ![N]⟩ ⟨2, ![E, 1]⟩ ⟨1, ![E]⟩) (hd : d = eltGatherDims N E wf)
    (v : (⟨1, ![N]⟩ : Shape).Idx → α) (idx : IVec ⟨2, ![E, 1]⟩ w) (e : Fin E) :
    Host.gather d v idx (ix1 e)
      = v (ix1 ⟨min (idx (ix2 e (0 : Fin 1))).toInt.toNat (N - 1), by omega⟩) := by
  subst hd
  unfold Host.gather
  congr 1
  funext a
  obtain rfl : a = 0 := Subsingleton.elim _ _
  refine Fin.ext ?_
  show (eltGatherDims N E wf).start (ix1 e) idx 0 + (eltGatherDims N E wf).batchCoord (ix1 e) 0
    + (eltGatherDims N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (eltGatherDims N E wf).startIndexMap from List.mem_singleton.mpr rfl)]
  have hsi : (eltGatherDims N E wf).siIdx (ix1 e) ⟨List.idxOf (0 : Fin 1) (eltGatherDims N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

end EltGather

/-! ## Row scatter into an `[N, C]` operand from `[E, C]` updates at an `[E, 1]` column of scatter indices -/

section RowScatter

/-- The dimension numbers of a row scatter: operand `[N, C]`, scatter indices `[E, 1]`, updates `[E, C]`. -/
abbrev rowScatterDims (N E C : ℕ)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- WHERE AN UPDATE LANDS: if update index `j` lands on operand index `i`, its scatter index `idx[j 0, 0]`, read
    signed (not clamped), is the row `i 0`, and the columns agree. -/
theorem scatter_rows_lands {N E C w : ℕ}
    (wf : ScatterDims.WF ⟨2, ![N, C]⟩ ⟨2, ![E, 1]⟩ ⟨2, ![E, C]⟩ [1] [0] [0] 1)
    (d : ScatterDims ⟨2, ![N, C]⟩ ⟨2, ![E, 1]⟩ ⟨2, ![E, C]⟩) (hd : d = rowScatterDims N E C wf)
    (idx : IVec ⟨2, ![E, 1]⟩ w) (j : (⟨2, ![E, C]⟩ : Shape).Idx) (i : (⟨2, ![N, C]⟩ : Shape).Idx)
    (h : d.resultIdx? j idx = some i) :
    (idx (ix2 (j 0) (0 : Fin 1))).toInt = ((i 0).val : ℤ) ∧ (j 1).val = (i 1).val := by
  subst hd
  have h0 : (0 : Fin 2) ∈ (rowScatterDims N E C wf).scatterDimsToOperandDims := List.mem_singleton.mpr rfl
  have hst0 : (rowScatterDims N E C wf).start j idx 0 = (idx (ix2 (j 0) (0 : Fin 1))).toInt := by
    unfold ScatterDims.start
    rw [dif_pos h0]
    have hsi : (rowScatterDims N E C wf).siIdx j ⟨List.idxOf (0 : Fin 2) (rowScatterDims N E C wf).scatterDimsToOperandDims,
        List.idxOf_lt_length_iff.2 h0⟩ = ix2 (j 0) (0 : Fin 1) := by
      funext b; refine Fin.ext ?_
      match b with
      | ⟨0, _⟩ => rfl
      | ⟨1, _⟩ => rfl
    rw [hsi]
    rfl
  have hst1 : (rowScatterDims N E C wf).start j idx 1 = 0 := by
    unfold ScatterDims.start
    rw [dif_neg (fun hm => absurd (List.mem_singleton.mp hm) (by decide : (1 : Fin 2) ≠ 0))]
  have hw0 : (rowScatterDims N E C wf).window j 0 = 0 := by
    unfold ScatterDims.window
    rw [dif_neg (fun hm => by
      have := (List.mem_filter.mp hm).2
      simp at this)]
  have hw1 : (rowScatterDims N E C wf).window j 1 = (j 1).val := by
    unfold ScatterDims.window
    rw [dif_pos (show (1 : Fin 2) ∈ (rowScatterDims N E C wf).sKept from
      List.mem_filter.mpr ⟨List.mem_finRange _, by simp⟩)]
    rfl
  -- landing inside the operand: i is start + window on each axis, a natural number there
  unfold ScatterDims.resultIdx? at h
  split at h
  · rename_i hin
    have hi := Option.some.inj h
    subst hi
    have a0 := hin 0
    have a1 := hin 1
    rw [hst0, hw0] at a0
    constructor
    · show _ = (((rowScatterDims N E C wf).start j idx 0 + ((rowScatterDims N E C wf).window j 0 : ℕ)).toNat : ℤ)
      rw [hst0, hw0]
      omega
    · show _ = ((rowScatterDims N E C wf).start j idx 1 + ((rowScatterDims N E C wf).window j 1 : ℕ)).toNat
      rw [hst1, hw1]
      omega
  · exact absurd h (by simp)

end RowScatter

end Cert.LibEdgeReads

end
-- ==== Proof.LibScaledAggregate.lean ====
/-
  GENERAL LEMMA: a per-node scaling of a message-passing layer's aggregation MOVES ONTO THE EDGES.

  In a layer over a graph with N nodes and E edges, features of width C, every edge e carries the row of its source
  node  src e  to its destination node  dst e, where the rows that arrive are added up: a row gather  H[src]  followed
  by an accumulating row scatter, from zero, through the column  dst. Let  s : [N]  be a per-node factor. Scaling the
  rows per SOURCE node before they travel and the sum per DESTINATION node after it,

      s p · Σ_{e : dst e = p}  H[src e, q] · s[src e],

  is the same as scattering the unscaled rows, each multiplied by its edge's weight  s[src e] · s[dst e]:

      Σ_{e : dst e = p}  H[src e, q] · (s[src e] · s[dst e]).

  Here  s[dst e]  is itself gathered, through a second column  dwrap  that agrees with the scatter's column  dcol
  wherever the scatter's index is in range [0, N) — which is every edge that contributes: a scatter index is not
  clamped, an update whose row leaves the operand is dropped, so for a contributing edge  dcol e = p  exactly, the
  gather of  s  at  dwrap e = dcol e  is not clamped either, and it reads  s p.

  On the extended reals this needs only that every  s i  is a nonnegative real: such a factor distributes over any
  finite sum, infinite terms included (by induction on the sum, from the two-term law); multiplication there is
  commutative and associative. No finiteness of  H  is assumed. Any extents N, E, C, any index width w.
-/
import proofs.«133735_j11390253269678_2_alg».proof.Proof.LibEdgeReads

noncomputable section

namespace Cert.LibScaledAggregate

open Idealize.ShloMosaic Idealize.ShloMosaic.ValueIdx Cert.LibEdgeReads
open scoped BigOperators

/-- A nonnegative real factor distributes over any finite sum of extended reals (infinite terms included). -/
theorem mul_sum_of_nonneg_of_ne_top {ι : Type} (c : EReal) (hc : 0 ≤ c) (hc' : c ≠ ⊤) (S : Finset ι) (f : ι → EReal) :
    c * ∑ j ∈ S, f j = ∑ j ∈ S, c * f j := by
  classical
  induction S using Finset.induction_on with
  | empty => simp
  | insert a S ha ih =>
    rw [Finset.sum_insert ha, Finset.sum_insert ha, EReal.left_distrib_of_nonneg_of_ne_top hc hc', ih]

/-- SCALING OUT OF THE AGGREGATION: the destination's factor times the scattered sum of source-scaled gathered rows is
    the scattered sum of the gathered rows each times its edge weight `s[src e] · s[dwrap e]`, for a nonnegative real
    factor `s` and a column `dwrap` that agrees with the scatter's column wherever that one is in range. -/
theorem aggregate_scale_out {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : (⟨2, ![N, C]⟩ : Shape).Idx → EReal) (s : (⟨1, ![N]⟩ : Shape).Idx → EReal)
    (hs : ∀ i, 0 ≤ s i ∧ s i ≠ ⊤)
    (z z' : (⟨2, ![N, C]⟩ : Shape).Idx → EReal) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Ideal.hostScatterAdd dS z dcol (Host.gather dG (fun i => H i * s (ix1 (i 0))) src) (ix2 p q)
      = Ideal.hostScatterAdd dS' z' dcol (fun j => Host.gather dG' H src j
          * (Host.gather dg s src (ix1 (j 0)) * Host.gather dg s dwrap (ix1 (j 0)))) (ix2 p q) := by
  subst hS hS' hG hG' hg
  -- both sides: zero plus the sum over the updates that land on (p, q); the factor goes inside the sum
  unfold Ideal.hostScatterAdd
  rw [hz, hz', zero_add, zero_add, mul_sum_of_nonneg_of_ne_top _ (hs _).1 (hs _).2]
  refine Finset.sum_congr rfl ?_
  intro j hj
  -- an update that lands on row p has scatter index exactly p: in range, so the second column agrees there
  obtain ⟨hrow, -⟩ := scatter_rows_lands wfS _ rfl dcol j (ix2 p q) (Finset.mem_filter.mp hj).2
  have hrow' : (dcol (ix2 (j 0) (0 : Fin 1))).toInt = (p.val : ℤ) := hrow
  have hp := p.isLt
  have hw := hwrap (j 0) (by rw [hrow']; omega) (by rw [hrow']; omega)
  -- the two row gathers and the two element gathers, read at the update's index
  have g1 := (congrArg (Host.gather (rowGatherDims N E C wfG) (fun i => H i * s (ix1 (i 0))) src) (eq_ix2 j)).trans
    (gather_rows_apply hN wfG _ rfl (fun i => H i * s (ix1 (i 0))) src (j 0) (j 1))
  have g2 := (congrArg (Host.gather (rowGatherDims N E C wfG') H src) (eq_ix2 j)).trans
    (gather_rows_apply hN wfG' _ rfl H src (j 0) (j 1))
  have g3 := gather_elts_apply hN wfg _ rfl s src (j 0)
  have g4 := gather_elts_apply hN wfg _ rfl s dwrap (j 0)
  -- the clamped row of the second column is p itself
  have hrowp : (⟨min (dwrap (ix2 (j 0) (0 : Fin 1))).toInt.toNat (N - 1), by omega⟩ : Fin N) = p := by
    refine Fin.ext ?_
    show min (dwrap (ix2 (j 0) (0 : Fin 1))).toInt.toNat (N - 1) = p.val
    rw [hw, hrow']
    omega
  rw [hrowp] at g4
  beta_reduce
  rw [g1, g2, g3, g4]
  show s (ix1 p) * (H _ * s _) = H _ * (s _ * s (ix1 p))
  rw [mul_comm (s (ix1 p)), mul_assoc]
  rfl

end Cert.LibScaledAggregate

end
-- ==== Proof.LibHostAggregate.lean ====
/-
  GENERAL LEMMA: a per-node scaling of a message-passing layer's aggregation moves onto the edges, with both
  aggregations spelt as the host's accumulating scatter `Host.scatterAdd`.

  In a layer over a graph with N nodes and E edges, features of width C, a row gather `H[src]` is followed by an
  accumulating row scatter, from zero, through the destination column. For a per-node factor `s` that is a nonnegative
  real,

      s p · Σ_{e : dst e = p}  (H · s)[src e, q]   =   Σ_{e : dst e = p}  H[src e, q] · (s[src e] · s[dst e]),

  where the right side gathers `s` at the destinations through a second column that agrees with the scatter's wherever
  that one is in range [0, N). This is LibScaledAggregate's `aggregate_scale_out` with the two sums written as a
  printed host program writes them, `Host.scatterAdd d x idx upd`, and not as the extended reals' `Ideal.hostScatterAdd`.
  The two spellings are the same function by definition; the point of stating the law in this one, over VARIABLE
  extents N, E, C and index width w, is that it then applies to a program's scatter at literal extents by matching
  the statement as written, with nothing to unfold at those extents.
-/
import proofs.«133735_j11390253269678_2_alg».proof.Proof.LibScaledAggregate

noncomputable section

namespace Cert.LibHostAggregate

open Idealize.ShloMosaic Idealize.ShloMosaic.ValueIdx Cert.LibEdgeReads Cert.LibScaledAggregate

/-- The aggregation law with both aggregations spelt as the host's accumulating scatter: the destination's factor
    times the scattered sum of source-scaled gathered rows is the scattered sum of the gathered rows each times its
    edge's weight, for a nonnegative real per-node factor and a second destination column that agrees with the
    scatter's wherever that one is in range. -/
theorem layer_law {N E C w : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (H : FVec Ideal ⟨2, ![N, C]⟩ .f32) (s : FVec Ideal ⟨1, ![N]⟩ .f32)
    (hs : ∀ i, 0 ≤ s i ∧ s i ≠ ⊤)
    (z z' : FVec Ideal ⟨2, ![N, C]⟩ .f32) (hz : ∀ i, z i = 0) (hz' : ∀ i, z' i = 0)
    (src dcol dwrap : IVec ⟨2, ![E, 1]⟩ w)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (p : Fin N) (q : Fin C) :
    s (ix1 p) * Host.scatterAdd (F := Ideal) dS z dcol (Host.gather dG (fun i => H i * s (ix1 (i 0))) src) (ix2 p q)
      = Host.scatterAdd (F := Ideal) dS' z' dcol (fun j => Host.gather dG' H src j
          * (Host.gather dg s src (ix1 (j 0)) * Host.gather dg s dwrap (ix1 (j 0)))) (ix2 p q) :=
  aggregate_scale_out hN wfS wfS' wfG wfG' wfg dS dS' hS hS' dG dG' hG hG' dg hg H s hs z z' hz hz' src dcol dwrap hwrap p q

end Cert.LibHostAggregate

end
-- ==== Proof.Bridge.lean ====
/-
  The two arrangements of the graph convolution agree.

  One layer: the kernel scales every row by the source factor d before the rows travel, adds the arriving rows up,
  and scales the sum by the destination factor; the reference multiplies every travelling row by the edge weight
  d[src e] · d[dst e] and adds up. For a factor d whose entries are nonnegative reals these are the same matrix:
  a nonnegative real distributes over any finite sum of extended reals, and an edge contributes to node p exactly when
  its destination is p, where the gathered destination factor is d[p].

  Three layers: once each aggregation satisfies that law, the kernel's chain of layers unfolds, one law at a time from
  the innermost layer outwards, into the reference's chain, since everything between two aggregations (dense product,
  bias, relu) is the same function on both sides.
-/
import proofs.«133735_j11390253269678_2_alg».proof.Proof.Spec
import proofs.«133735_j11390253269678_2_alg».proof.Proof.LibHostAggregate

noncomputable section

namespace Cert.GCN

open Idealize.ShloMosaic Idealize.ShloMosaic.ValueIdx Cert.LibEdgeReads

/-- One layer's aggregation: source-scaled rows added up and scaled at the destination are the rows added up with
    their edge weights. -/
theorem split_eq_weighted {N E C : ℕ} (hN : 0 < N)
    (wfS wfS' : ScatterDims.WF ⟨2, ![N, C]⟩ ⟨2, ![E, 1]⟩ ⟨2, ![E, C]⟩ [1] [0] [0] 1)
    (wfG wfG' : GatherDims.WF ⟨2, ![N, C]⟩ ⟨2, ![E, 1]⟩ ⟨2, ![E, C]⟩ [1] [0] [] [0] [] 1 ![1, C])
    (wfg : GatherDims.WF ⟨1, ![N]⟩ ⟨2, ![E, 1]⟩ ⟨1, ![E]⟩ [] [0] [] [0] [] 1 ![1])
    (dS dS' : ScatterDims ⟨2, ![N, C]⟩ ⟨2, ![E, 1]⟩ ⟨2, ![E, C]⟩)
    (hS : dS = rowScatterDims N E C wfS) (hS' : dS' = rowScatterDims N E C wfS')
    (dG dG' : GatherDims ⟨2, ![N, C]⟩ ⟨2, ![E, 1]⟩ ⟨2, ![E, C]⟩)
    (hG : dG = rowGatherDims N E C wfG) (hG' : dG' = rowGatherDims N E C wfG')
    (dg : GatherDims ⟨1, ![N]⟩ ⟨2, ![E, 1]⟩ ⟨1, ![E]⟩) (hg : dg = eltGatherDims N E wfg)
    (d : Row N) (hd : ∀ i, 0 ≤ d i ∧ d i ≠ ⊤)
    (z z' : Mat N C) (hz : ∀ i, z i = 0) (hz' : ∀ i, z' i = 0)
    (scol dcol dwrap : IVec ⟨2, ![E, 1]⟩ 32)
    (hwrap : ∀ e : Fin E, 0 ≤ (dcol (ix2 e (0 : Fin 1))).toInt → (dcol (ix2 e (0 : Fin 1))).toInt < (N : ℤ) →
      dwrap (ix2 e (0 : Fin 1)) = dcol (ix2 e (0 : Fin 1)))
    (H : Mat N C) :
    scaleRows (aggPlain dS dG z scol dcol (scaleRows H d)) d = aggWeighted dS' dG' dg z' scol dcol dwrap d H := by
  funext j
  obtain ⟨p, q, rfl⟩ : ∃ (p : Fin N) (q : Fin C), j = ix2 p q := ⟨j 0, j 1, eq_ix2 j⟩
  show Host.scatterAdd (F := Ideal) (φ := .f32) dS z dcol (Host.gather dG (fun i => H i * d (ix1 (i 0))) scol) (ix2 p q) * d (ix1 p) = _
  rw [mul_comm]
  exact Cert.LibHostAggregate.layer_law hN wfS wfS' wfG wfG' wfg dS dS' hS hS' dG dG' hG hG' dg hg H d hd z z' hz hz'
    scol dcol dwrap hwrap p q

/-- Three layers: if each aggregation of the split arrangement, scaled at the destination, is the weighted
    aggregation, the two chains of layers are the same embeddings. -/
theorem embSplit_eq_embEdge (x : Mat 50000 128) (W1 : Mat 128 128) (b1 : Row 128) (W2 : Mat 128 128) (b2 : Row 128)
    (W3 : Mat 128 64) (b3 : Row 64) (d : Row 50000)
    (A1 A2 R1 R2 : Mat 50000 128 → Mat 50000 128) (A3 R3 : Mat 50000 64 → Mat 50000 64)
    (h1 : ∀ H, scaleRows (A1 (scaleRows H d)) d = R1 H) (h2 : ∀ H, scaleRows (A2 (scaleRows H d)) d = R2 H)
    (h3 : ∀ H, scaleRows (A3 (scaleRows H d)) d = R3 H) :
    embSplit x W1 b1 W2 b2 W3 b3 d A1 A2 A3 = embEdge x W1 b1 W2 b2 W3 b3 R1 R2 R3 := by
  unfold embSplit embEdge fused
  rw [h1, h2, h3]

end Cert.GCN

end
-- ==== Proof.Agree.lean ====
/-
  The kernel's node embeddings and the reference's are one function of the launch arrays.

  Both programs compute the edge columns and the factor  d  from the edge list by the same host operations, so those
  are the same arrays. With them fixed, each of the three aggregations of the kernel (rows scaled by d at the source,
  added up, scaled by d at the destination) is the reference's aggregation with the edge weight d[src e] · d[dst e]:
  d is a nonnegative real at every node, the sums start from zero, and the wrapped destination column agrees with the
  raw one wherever the raw index is a node. Between the aggregations the two programs apply the same dense layers.
-/
import proofs.«133735_j11390253269678_2_alg».proof.Proof.KernelRunDefs
import proofs.«133735_j11390253269678_2_alg».proof.Proof.KernelRunFactor
import proofs.«133735_j11390253269678_2_alg».proof.Proof.RefLayers
import proofs.«133735_j11390253269678_2_alg».proof.Proof.Bridge
import proofs.«133735_j11390253269678_2_alg».proof.Proof.LibAxisReads

noncomputable section

namespace Cert.GCN

open Idealize.ShloMosaic Idealize.ShloMosaic.ValueIdx Cert.LibEdgeReads

/-- The 128-wide aggregations start from zero. -/
theorem z128_zero (i : (⟨2, ![50000, 128]⟩ : Shape).Idx) : Kern.z128 i = 0 :=
  (Cert.LibAxisReads.const_broadcast_apply _ _ _ i).trans Ideal.ofBits_zero_f32
/-- The 64-wide aggregation starts from zero. -/
theorem z64_zero (i : (⟨2, ![50000, 64]⟩ : Shape).Idx) : Kern.z64 i = 0 :=
  (Cert.LibAxisReads.const_broadcast_apply _ _ _ i).trans Ideal.ofBits_zero_f32

/-- The two programs compute the same edge columns, factor and zero arrays from the edge list. -/
theorem src_agree (ei : IVec ⟨2, ![2, 800000]⟩ 32) : Ref.srcR ei = Kern.srcK ei := rfl
theorem dst_agree (ei : IVec ⟨2, ![2, 800000]⟩ 32) : Ref.dstR ei = Kern.dstK ei := rfl
theorem d_agree (ei : IVec ⟨2, ![2, 800000]⟩ 32) : Ref.dR ei = Kern.dK ei := rfl
theorem wrapCol_agree (s : IVec ⟨1, ![850000]⟩ 32) : Ref.wrapCol s = Kern.wrapCol s := rfl
theorem rawCol_agree (s : IVec ⟨1, ![850000]⟩ 32) : Ref.rawCol s = Kern.rawCol s := rfl
theorem z128_agree : Ref.z128 = Kern.z128 := rfl
theorem z64_agree : Ref.z64 = Kern.z64 := rfl

/-- The node embeddings of the two programs agree. -/
theorem x_agree (x : Mat 50000 128) (ei : IVec ⟨2, ![2, 800000]⟩ 32) (W1 : Mat 128 128) (b1 : Row 128)
    (W2 : Mat 128 128) (b2 : Row 128) (W3 : Mat 128 64) (b3 : Row 64) :
    Kern.xK x ei W1 b1 W2 b2 W3 b3 = Ref.xR x ei W1 b1 W2 b2 W3 b3 := by
  unfold Kern.xK Ref.xR
  rw [src_agree, dst_agree, d_agree, wrapCol_agree, wrapCol_agree, rawCol_agree, z128_agree, z64_agree]
  have hwrap : ∀ e : Fin 850000, 0 ≤ (Kern.rawCol (Kern.dstK ei) (ix2 e (0 : Fin 1))).toInt →
      (Kern.rawCol (Kern.dstK ei) (ix2 e (0 : Fin 1))).toInt < ((50000 : ℕ) : ℤ) →
      Kern.wrapCol (Kern.dstK ei) (ix2 e (0 : Fin 1)) = Kern.rawCol (Kern.dstK ei) (ix2 e (0 : Fin 1)) := by
    intro e h0 h1
    have := Ref.wrap_agrees (Kern.dstK ei) e
    rw [wrapCol_agree, rawCol_agree] at this
    exact this h0 (by exact_mod_cast h1)
  refine embSplit_eq_embEdge _ _ _ _ _ _ _ _ _ _ _ _ _ _ (fun H => ?_) (fun H => ?_) (fun H => ?_)
  · exact split_eq_weighted (by decide) _ _ _ _ _ _ _ rfl rfl _ _ rfl rfl _ rfl (Kern.dK ei) (Kern.dK_nonneg_real ei)
      Kern.z128 Kern.z128 z128_zero z128_zero _ _ _ hwrap H
  · exact split_eq_weighted (by decide) _ _ _ _ _ _ _ rfl rfl _ _ rfl rfl _ rfl (Kern.dK ei) (Kern.dK_nonneg_real ei)
      Kern.z128 Kern.z128 z128_zero z128_zero _ _ _ hwrap H
  · exact split_eq_weighted (by decide) _ _ _ _ _ _ _ rfl rfl _ _ rfl rfl _ rfl (Kern.dK ei) (Kern.dK_nonneg_real ei)
      Kern.z64 Kern.z64 z64_zero z64_zero _ _ _ hwrap H

end Cert.GCN

end
-- ==== Proof.lean ====
/-
  The certificate's five claims for the graph convolution network and its target branch.

  The kernel computes three graph convolution layers with the symmetric normalisation split around each aggregation —
  every node's row scaled by d = deg^(-1/2) before its rows travel along the edges, every sum of arriving rows scaled
  by d again — and finishes by normalising each node's row; the reference multiplies every travelling row by the edge
  weight d[src e] · d[dst e]. The factor d is a nonnegative real (a degree is a count of edges), so it moves through the
  sum over the arriving edges, and the two arrangements are the same embeddings (Proof/Agree.lean over
  Proof/Bridge.lean). The target branch is the same function in both programs (Proof/Spec.lean's target): batch
  normalisation of the 256 targets, two dense layers, the rows normalised.

  The frames of the two kernel programs are their frame certificates; the reference's frame is its run with the results
  dropped; the idealization rewrote nothing, so nothing is owed for it.
-/
import proofs.«133735_j11390253269678_2_alg».proof.Defs
import proofs.«133735_j11390253269678_2_alg».proof.Proof.Gen.Kernel
import proofs.«133735_j11390253269678_2_alg».proof.Proof.Gen.Kernel.Frame
import proofs.«133735_j11390253269678_2_alg».proof.Proof.Gen.KernelIdeal
import proofs.«133735_j11390253269678_2_alg».proof.Proof.Gen.KernelIdeal.Frame
import proofs.«133735_j11390253269678_2_alg».proof.Proof.Gen.ReferenceIdeal
import proofs.«133735_j11390253269678_2_alg».proof.Proof.Gen.Pre_finite_inputs
import proofs.«133735_j11390253269678_2_alg».proof.Proof.KernelRun
import proofs.«133735_j11390253269678_2_alg».proof.Proof.RefValue
import proofs.«133735_j11390253269678_2_alg».proof.Proof.Agree
import Idealize.ShloMosaic.Adequacy
import Idealize.ShloMosaic.Init

noncomputable section

namespace Cert.Proof

open Idealize.ShloMosaic Idealize.SL.Sem

/-- The word-level kernel terminates without a fault and leaves its arguments as launched. -/
theorem frame_kernel : Cert.frame_Kernel := fun m ρ _ => Cert.Kernel.Gen.frame m ρ

/-- The idealized kernel terminates without a fault and leaves its arguments as launched. -/
theorem frame_kernelIdeal : Cert.frame_KernelIdeal := fun m ρ _ => Cert.KernelIdeal.Gen.frame m ρ

/-- The reference terminates without a fault and leaves its arguments as launched: its run, the results dropped. -/
theorem frame_referenceIdeal : Cert.frame_ReferenceIdeal := fun m ρ _ =>
  (θ_run Cert.ReferenceIdeal.defs _ _).mono (fun _ h c => (h c).2.2) (Cert.GCN.Ref.run m ρ)

/-- The idealization rewrote no operation. -/
theorem preserves : Cert.preserves_Kernel_KernelIdeal := trivial

/-- From memories that agree on the arguments both programs end with the same node embeddings and the same target
    embeddings. -/
theorem algebraic : Cert.algebraic_KernelIdeal_ReferenceIdeal := by
  intro m ρ m' ρ' _ hagree
  refine ⟨_, _, Cert.GCN.Kern.run m ρ, ?_⟩
  refine (θ_run Cert.ReferenceIdeal.defs _ _).mono
    (fun _ h c => ⟨(h c).1.trans ?_, (h c).2.1.trans ?_, (h c).2.2⟩) (Cert.GCN.Ref.run m' ρ')
  · obtain ⟨e0, -, e2, e3, e4, e5, e6, e7, e8, -, -, -, -, -, -⟩ := hagree c
    rw [e0, e2, e3, e4, e5, e6, e7, e8]
    exact (Cert.GCN.x_agree _ _ _ _ _ _ _ _).symm
  · obtain ⟨-, e1, -, -, -, -, -, -, -, e9, e10, e11, e12, e13, e14⟩ := hagree c
    rw [e1, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
